-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384 : Shape := ⟨2, ![1, 16384]⟩
abbrev S64x16384 : Shape := ⟨2, ![64, 16384]⟩
abbrev S63x16384 : Shape := ⟨2, ![63, 16384]⟩
abbrev S1024x64 : Shape := ⟨2, ![1024, 64]⟩
abbrev S1024x1 : Shape := ⟨2, ![1024, 1]⟩
abbrev S1x1024 : Shape := ⟨2, ![1, 1024]⟩
abbrev S1x1 : Shape := ⟨2, ![1, 1]⟩
abbrev S_ : Shape := ⟨0, ![]⟩

class Facts : Prop where
  bcast_S_S1x16384 : S_.BroadcastsInDim S1x16384 (![] : Fin 0 → Fin S1x16384.rank)
  reducesTo_S1x16384_S_d0_1 : S1x16384.ReducesTo [0, 1] S_
  h_S_ : 0 < S_.numel
  bcast_S_S64x16384 : S_.BroadcastsInDim S64x16384 (![] : Fin 0 → Fin S64x16384.rank)
  reducesTo_S64x16384_S_d0_1 : S64x16384.ReducesTo [0, 1] S_
  bcast_S_S63x16384 : S_.BroadcastsInDim S63x16384 (![] : Fin 0 → Fin S63x16384.rank)
  reducesTo_S63x16384_S_d0_1 : S63x16384.ReducesTo [0, 1] S_
  bcast_S_S1024x64 : S_.BroadcastsInDim S1024x64 (![] : Fin 0 → Fin S1024x64.rank)
  reducesTo_S1024x64_S_d0_1 : S1024x64.ReducesTo [0, 1] S_
  bcast_S_S1024x1 : S_.BroadcastsInDim S1024x1 (![] : Fin 0 → Fin S1024x1.rank)
  reducesTo_S1024x1_S_d0_1 : S1024x1.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_arg14 : FVec F S1024x1 .f32) (main_arg15 : FVec F S1x1024 .f32) (main_arg16 : FVec F S1x1 .f32) (main_v63 : IVec S_ 1) (main_v67 : IVec S_ 1) : IVec S_ 1 :=
  let main_v68 : IVec S_ 1 := andi main_v63 main_v67
  let main_v69 : FVec F S1024x1 .f32 := Host.absf main_arg14
  let main_cst_26 : FVec F S_ .f32 := constant S_ .f32 0x7F800000#32
  let main_v70 : FVec F S1024x1 .f32 := broadcastInDim S1024x1 ![] bcast_S_S1024x1 main_cst_26
  let main_v71 : IVec S1024x1 1 := cmpf .olt main_v69 main_v70
  let main_c_27 : IVec S_ 1 := constantI S_ 1 1#1
  let main_v72 : IVec S_ 1 := (fun x v => Host.reduce IntOp.andi x v reducesTo_S1024x1_S_d0_1 h_S_) main_v71 main_c_27
  let main_v73 : IVec S_ 1 := andi main_v68 main_v72
  let main_v74 : FVec F S1x1024 .f32 := Host.absf main_arg15
  let main_cst_28 : FVec F S_ .f32 := constant S_ .f32 0x7F800000#32
  let main_v75 : FVec F S1x1024 .f32 := broadcastInDim S1x1024 ![] bcast_S_S1x1024 main_cst_28
  let main_v76 : IVec S1x1024 1 := cmpf .olt main_v74 main_v75
  let main_c_29 : IVec S_ 1 := constantI S_ 1 1#1
  let main_v77 : IVec S_ 1 := (fun x v => Host.reduce IntOp.andi x v reducesTo_S1x1024_S_d0_1 h_S_) main_v76 main_c_29
  let main_v78 : IVec S_ 1 := andi main_v73 main_v77
  let main_v79 : FVec F S1x1 .f32 := Host.absf main_arg16
  let main_cst_30 : FVec F S_ .f32 := constant S_ .f32 0x7F800000#32
  let main_v80 : FVec F S1x1 .f32 := broadcastInDim S1x1 ![] bcast_S_S1x1 main_cst_30
  let main_v81 : IVec S1x1 1 := cmpf .olt main_v79 main_v80
  let main_c_31 : IVec S_ 1 := constantI S_ 1 1#1
  let main_v82 : IVec S_ 1 := (fun x v => Host.reduce IntOp.andi x v reducesTo_S1x1_S_d0_1 h_S_) main_v81 main_c_31
  let main_v83 : IVec S_ 1 := andi main_v78 main_v82
  main_v83

def fn_part3 {F : FTy → Type} [FloatOps F] (main_arg11 : FVec F S1x1 .f32) (main_arg12 : FVec F S1024x64 .f32) (main_arg13 : FVec F S1024x64 .f32) (main_arg14 : FVec F S1024x1 .f32) (main_arg15 : FVec F S1x1024 .f32) (main_arg16 : FVec F S1x1 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1 .f32 := Host.absf main_arg11
  let main_cst_20 : FVec F S_ .f32 := constant S_ .f32 0x7F800000#32
  let main_v55 : FVec F S1x1 .f32 := broadcastInDim S1x1 ![] bcast_S_S1x1 main_cst_20
  let main_v56 : IVec S1x1 1 := cmpf .olt main_v54 main_v55
  let main_c_21 : IVec S_ 1 := constantI S_ 1 1#1
  let main_v57 : IVec S_ 1 := (fun x v => Host.reduce IntOp.andi x v reducesTo_S1x1_S_d0_1 h_S_) main_v56 main_c_21
  let main_v58 : IVec S_ 1 := andi main_v53 main_v57
  let main_v59 : FVec F S1024x64 .f32 := Host.absf main_arg12
  let main_cst_22 : FVec F S_ .f32 := constant S_ .f32 0x7F800000#32
  let main_v60 : FVec F S1024x64 .f32 := broadcastInDim S1024x64 ![] bcast_S_S1024x64 main_cst_22
  let main_v61 : IVec S1024x64 1 := cmpf .olt main_v59 main_v60
  let main_c_23 : IVec S_ 1 := constantI S_ 1 1#1
  let main_v62 : IVec S_ 1 := (fun x v => Host.reduce IntOp.andi x v reducesTo_S1024x64_S_d0_1 h_S_) main_v61 main_c_23
  let main_v63 : IVec S_ 1 := andi main_v58 main_v62
  let main_v64 : FVec F S1024x64 .f32 := Host.absf main_arg13
  let main_cst_24 : FVec F S_ .f32 := constant S_ .f32 0x7F800000#32
  let main_v65 : FVec F S1024x64 .f32 := broadcastInDim S1024x64 ![] bcast_S_S1024x64 main_cst_24
  let main_v66 : IVec S1024x64 1 := cmpf .olt main_v64 main_v65
  let main_c_25 : IVec S_ 1 := constantI S_ 1 1#1
  let main_v67 : IVec S_ 1 := (fun x v => Host.reduce IntOp.andi x v reducesTo_S1024x64_S_d0_1 h_S_) main_v66 main_c_25
  fn_part4 (F := F) main_arg14 main_arg15 main_arg16 main_v63 main_v67

def fn_part2 {F : FTy → Type} [FloatOps F] (main_arg7 : FVec F S1024x64 .f32) (main_arg8 : FVec F S1024x64 .f32) (main_arg9 : FVec F S1024x1 .f32) (main_arg10 : FVec F S1x1024 .f32) (main_arg11 : FVec F S1x1 .f32) (main_arg12 : FVec F S1024x64 .f32) (main_arg13 : FVec F S1024x64 .f32) (main_arg14 : FVec F S1024x1 .f32) (main_arg15 : FVec F S1x1024 .f32) (main_arg16 : FVec F S1x1 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S1024x64 .f32 := Host.absf main_arg8
  let main_cst_14 : FVec F S_ .f32 := constant S_ .f32 0x7F800000#32
  let main_v40 : FVec F S1024x64 .f32 := broadcastInDim S1024x64 ![] bcast_S_S1024x64 main_cst_14
  let main_v41 : IVec S1024x64 1 := cmpf .olt main_v39 main_v40
  let main_c_15 : IVec S_ 1 := constantI S_ 1 1#1
  let main_v42 : IVec S_ 1 := (fun x v => Host.reduce IntOp.andi x v reducesTo_S1024x64_S_d0_1 h_S_) main_v41 main_c_15
  let main_v43 : IVec S_ 1 := andi main_v38 main_v42
  let main_v44 : FVec F S1024x1 .f32 := Host.absf main_arg9
  let main_cst_16 : FVec F S_ .f32 := constant S_ .f32 0x7F800000#32
  let main_v45 : FVec F S1024x1 .f32 := broadcastInDim S1024x1 ![] bcast_S_S1024x1 main_cst_16
  let main_v46 : IVec S1024x1 1 := cmpf .olt main_v44 main_v45
  let main_c_17 : IVec S_ 1 := constantI S_ 1 1#1
  let main_v47 : IVec S_ 1 := (fun x v => Host.reduce IntOp.andi x v reducesTo_S1024x1_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_arg14 main_arg15 main_arg16 main_v48 main_v49 main_v50

def fn_part1 {F : FTy → Type} [FloatOps F] (main_arg4 : FVec F S63x16384 .f32) (main_arg5 : FVec F S64x16384 .f32) (main_arg6 : FVec F S1024x64 .f32) (main_arg7 : FVec F S1024x64 .f32) (main_arg8 : FVec F S1024x64 .f32) (main_arg9 : FVec F S1024x1 .f32) (main_arg10 : FVec F S1x1024 .f32) (main_arg11 : FVec F S1x1 .f32) (main_arg12 : FVec F S1024x64 .f32) (main_arg13 : FVec F S1024x64 .f32) (main_arg14 : FVec F S1024x1 .f32) (main_arg15 : FVec F S1x1024 .f32) (main_arg16 : FVec F S1x1 .f32) (main_v13 : IVec S_ 1) (main_v16 : IVec S64x16384 1) : IVec S_ 1 :=
  let main_c_5 : IVec S_ 1 := constantI S_ 1 1#1
  let main_v17 : IVec S_ 1 := (fun x v => Host.reduce IntOp.andi x v reducesTo_S64x16384_S_d0_1 h_S_) main_v16 main_c_5
  let main_v18 : IVec S_ 1 := andi main_v13 main_v17
  let main_v19 : FVec F S63x16384 .f32 := Host.absf main_arg4
  let main_cst_6 : FVec F S_ .f32 := constant S_ .f32 0x7F800000#32
  let main_v20 : FVec F S63x16384 .f32 := broadcastInDim S63x16384 ![] bcast_S_S63x16384 main_cst_6
  let main_v21 : IVec S63x16384 1 := cmpf .olt main_v19 main_v20
  let main_c_7 : IVec S_ 1 := constantI S_ 1 1#1
  let main_v22 : IVec S_ 1 := (fun x v => Host.reduce IntOp.andi x v reducesTo_S63x16384_S_d0_1 h_S_) main_v21 main_c_7
  let main_v23 : IVec S_ 1 := andi main_v18 main_v22
  let main_v24 : FVec F S64x16384 .f32 := Host.absf main_arg5
  let main_cst_8 : FVec F S_ .f32 := constant S_ .f32 0x7F800000#32
  let main_v25 : FVec F S64x16384 .f32 := broadcastInDim S64x16384 ![] bcast_S_S64x16384 main_cst_8
  let main_v26 : IVec S64x16384 1 := cmpf .olt main_v24 main_v25
  let main_c_9 : IVec S_ 1 := constantI S_ 1 1#1
  let main_v27 : IVec S_ 1 := (fun x v => Host.reduce IntOp.andi x v reducesTo_S64x16384_S_d0_1 h_S_) main_v26 main_c_9
  let main_v28 : IVec S_ 1 := andi main_v23 main_v27
  let main_v29 : FVec F S1024x64 .f32 := Host.absf main_arg6
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1x16384 .f32) (main_arg1 : FVec F S64x16384 .f32) (main_arg2 : FVec F S64x16384 .f32) (main_arg3 : FVec F S64x16384 .f32) (main_arg4 : FVec F S63x16384 .f32) (main_arg5 : FVec F S64x16384 .f32) (main_arg6 : FVec F S1024x64 .f32) (main_arg7 : FVec F S1024x64 .f32) (main_arg8 : FVec F S1024x64 .f32) (main_arg9 : FVec F S1024x1 .f32) (main_arg10 : FVec F S1x1024 .f32) (main_arg11 : FVec F S1x1 .f32) (main_arg12 : FVec F S1024x64 .f32) (main_arg13 : FVec F S1024x64 .f32) (main_arg14 : FVec F S1024x1 .f32) (main_arg15 : FVec F S1x1024 .f32) (main_arg16 : FVec F S1x1 .f32) : IVec S_ 1 :=
  let main_v0 : FVec F S1x16384 .f32 := Host.absf main_arg0
  let main_cst : FVec F S_ .f32 := constant S_ .f32 0x7F800000#32
  let main_v1 : FVec F S1x16384 .f32 := broadcastInDim S1x16384 ![] bcast_S_S1x16384 main_cst
  let main_v2 : IVec S1x16384 1 := cmpf .olt main_v0 main_v1
  let main_c : IVec S_ 1 := constantI S_ 1 1#1
  let main_v3 : IVec S_ 1 := (fun x v => Host.reduce IntOp.andi x v reducesTo_S1x16384_S_d0_1 h_S_) main_v2 main_c
  let main_v4 : FVec F S64x16384 .f32 := Host.absf main_arg1
  let main_cst_0 : FVec F S_ .f32 := constant S_ .f32 0x7F800000#32
  let main_v5 : FVec F S64x16384 .f32 := broadcastInDim S64x16384 ![] bcast_S_S64x16384 main_cst_0
  let main_v6 : IVec S64x16384 1 := cmpf .olt main_v4 main_v5
  let main_c_1 : IVec S_ 1 := constantI S_ 1 1#1
  let main_v7 : IVec S_ 1 := (fun x v => Host.reduce IntOp.andi x v reducesTo_S64x16384_S_d0_1 h_S_) main_v6 main_c_1
  let main_v8 : IVec S_ 1 := andi main_v3 main_v7
  let main_v9 : FVec F S64x16384 .f32 := Host.absf main_arg2
  let main_cst_2 : FVec F S_ .f32 := constant S_ .f32 0x7F800000#32
  let main_v10 : FVec F S64x16384 .f32 := broadcastInDim S64x16384 ![] bcast_S_S64x16384 main_cst_2
  let main_v11 : IVec S64x16384 1 := cmpf .olt main_v9 main_v10
  let main_c_3 : IVec S_ 1 := constantI S_ 1 1#1
  let main_v12 : IVec S_ 1 := (fun x v => Host.reduce IntOp.andi x v reducesTo_S64x16384_S_d0_1 h_S_) main_v11 main_c_3
  let main_v13 : IVec S_ 1 := andi main_v8 main_v12
  let main_v14 : FVec F S64x16384 .f32 := Host.absf main_arg3
  let main_cst_4 : FVec F S_ .f32 := constant S_ .f32 0x7F800000#32
  let main_v15 : FVec F S64x16384 .f32 := broadcastInDim S64x16384 ![] bcast_S_S64x16384 main_cst_4
  let main_v16 : IVec S64x16384 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1x16384 : Shape := ⟨2, ![1, 16384]⟩
abbrev S64x16384 : Shape := ⟨2, ![64, 16384]⟩
abbrev S63x16384 : Shape := ⟨2, ![63, 16384]⟩
abbrev S1024x64 : Shape := ⟨2, ![1024, 64]⟩
abbrev S1024x1 : Shape := ⟨2, ![1024, 1]⟩
abbrev S1x1024 : Shape := ⟨2, ![1, 1024]⟩
abbrev S1x1 : Shape := ⟨2, ![1, 1]⟩
abbrev S1024x192 : Shape := ⟨2, ![1024, 192]⟩
abbrev S1024x128 : Shape := ⟨2, ![1024, 128]⟩
abbrev S1x2048 : Shape := ⟨2, ![1, 2048]⟩
abbrev S64x2048 : Shape := ⟨2, ![64, 2048]⟩
abbrev S63x2048 : Shape := ⟨2, ![63, 2048]⟩
abbrev S192x2048 : Shape := ⟨2, ![192, 2048]⟩
abbrev S1024x2048 : Shape := ⟨2, ![1024, 2048]⟩
abbrev S2048 : Shape := ⟨1, ![2048]⟩
abbrev S128x2048 : Shape := ⟨2, ![128, 2048]⟩
abbrev S62x2048 : Shape := ⟨2, ![62, 2048]⟩

abbrev nBuf : Space → Nat
  | .hbm => 29
  | .vmem => 32
  | .smem => 0
  | _ => 0

abbrev bufTy : (tb : Table) → Fin (tcTables nBuf tb) → BufTy
  | .hbm, ⟨0, _⟩ => ⟨S1x16384, .f32⟩
  | .hbm, ⟨1, _⟩ => ⟨S64x16384, .f32⟩
  | .hbm, ⟨2, _⟩ => ⟨S64x16384, .f32⟩
  | .hbm, ⟨3, _⟩ => ⟨S64x16384, .f32⟩
  | .hbm, ⟨4, _⟩ => ⟨S63x16384, .f32⟩
  | .hbm, ⟨5, _⟩ => ⟨S64x16384, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x1, .f32⟩
  | .hbm, ⟨10, _⟩ => ⟨S1x1024, .f32⟩
  | .hbm, ⟨11, _⟩ => ⟨S1x1, .f32⟩
  | .hbm, ⟨12, _⟩ => ⟨S1024x64, .f32⟩
  | .hbm, ⟨13, _⟩ => ⟨S1024x64, .f32⟩
  | .hbm, ⟨14, _⟩ => ⟨S1024x1, .f32⟩
  | .hbm, ⟨15, _⟩ => ⟨S1x1024, .f32⟩
  | .hbm, ⟨16, _⟩ => ⟨S1x1, .f32⟩
  | .hbm, ⟨17, _⟩ => ⟨S1024x192, .f32⟩
  | .hbm, ⟨18, _⟩ => ⟨S1024x192, .bf16⟩
  | .hbm, ⟨19, _⟩ => ⟨S1024x128, .f32⟩
  | .hbm, ⟨20, _⟩ => ⟨S1024x128, .bf16⟩
  | .hbm, ⟨21, _⟩ => ⟨S1024x1, .f32⟩
  | .hbm, ⟨22, _⟩ => ⟨S1024x1, .f32⟩
  | .hbm, ⟨23, _⟩ => ⟨S1x16384, .f32⟩
  | .hbm, ⟨24, _⟩ => ⟨S64x16384, .f32⟩
  | .hbm, ⟨25, _⟩ => ⟨S64x16384, .f32⟩
  | .hbm, ⟨26, _⟩ => ⟨S64x16384, .f32⟩
  | .hbm, ⟨27, _⟩ => ⟨S63x16384, .f32⟩
  | .hbm, ⟨28, _⟩ => ⟨S64x16384, .f32⟩
  | .local _ .vmem, ⟨0, _⟩ => ⟨S1x2048, .f32⟩
  | .local _ .vmem, ⟨1, _⟩ => ⟨S1x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S63x2048, .f32⟩
  | .local _ .vmem, ⟨9, _⟩ => ⟨S63x2048, .f32⟩
  | .local _ .vmem, ⟨10, _⟩ => ⟨S64x2048, .f32⟩
  | .local _ .vmem, ⟨11, _⟩ => ⟨S64x2048, .f32⟩
  | .local _ .vmem, ⟨12, _⟩ => ⟨S1024x192, .bf16⟩
  | .local _ .vmem, ⟨13, _⟩ => ⟨S1024x1, .f32⟩
  | .local _ .vmem, ⟨14, _⟩ => ⟨S1024x1, .f32⟩
  | .local _ .vmem, ⟨15, _⟩ => ⟨S1x1, .f32⟩
  | .local _ .vmem, ⟨16, _⟩ => ⟨S1024x128, .bf16⟩
  | .local _ .vmem, ⟨17, _⟩ => ⟨S1024x1, .f32⟩
  | .local _ .vmem, ⟨18, _⟩ => ⟨S1024x1, .f32⟩
  | .local _ .vmem, ⟨19, _⟩ => ⟨S1x1, .f32⟩
  | .local _ .vmem, ⟨20, _⟩ => ⟨S1x2048, .f32⟩
  | .local _ .vmem, ⟨21, _⟩ => ⟨S1x2048, .f32⟩
  | .local _ .vmem, ⟨22, _⟩ => ⟨S64x2048, .f32⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | .local _ .vmem, ⟨27, _⟩ => ⟨S64x2048, .f32⟩
  | .local _ .vmem, ⟨28, _⟩ => ⟨S63x2048, .f32⟩
  | .local _ .vmem, ⟨29, _⟩ => ⟨S63x2048, .f32⟩
  | .local _ .vmem, ⟨30, _⟩ => ⟨S64x2048, .f32⟩
  | .local _ .vmem, ⟨31, _⟩ => ⟨S64x2048, .f32⟩
  | _, _ => ⟨S1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v6_4 : Ref sig .tc := ⟨.hbm, 27, rfl⟩
abbrev main_v6_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S63x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S63x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  concatenates_S1024x64_S1024x64_S1024x64_S1024x192_d1 : Shape.Concatenates [S1024x64, S1024x64, S1024x64] S1024x192 1
  bitsLt_bf16_f32 : FTy.bits .bf16 < FTy.bits .f32
  concatenates_S1024x64_S1024x64_S1024x128_d1 : Shape.Concatenates [S1024x64, S1024x64] S1024x128 1
  transposes_S1x1024_S1024x1_1_0 : S1x1024.Transposes [1, 0] S1024x1
  inb_S1x2048_S1x2048_0_0 : ∀ a, (![0, 0] : Fin 2 → Nat) a + S1x2048.size a ≤ S1x2048.size a
  h_S1x2048 : 0 < S1x2048.numel
  inb_S64x2048_S64x2048_0_0 : ∀ a, (![0, 0] : Fin 2 → Nat) a + S64x2048.size a ≤ S64x2048.size a
  h_S64x2048 : 0 < S64x2048.numel
  inb_S63x2048_S63x2048_0_0 : ∀ a, (![0, 0] : Fin 2 → Nat) a + S63x2048.size a ≤ S63x2048.size a
  h_S63x2048 : 0 < S63x2048.numel
  concatenates_S64x2048_S64x2048_S64x2048_S192x2048_d0 : Shape.Concatenates [S64x2048, S64x2048, S64x2048] S192x2048 0
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S1024x1_S1024x1_0_0 : ∀ a, (![0, 0] : Fin 2 → Nat) a + S1024x1.size a ≤ S1024x1.size a
  h_S1024x1 : 0 < S1024x1.numel
  broadcasts_S1024x1_S1024x2048 : S1024x1.Broadcasts S1024x2048
  shapeCasts_S1024x1_S1024x1 : S1024x1.ShapeCasts S1024x1
  reduces_S1024x2048_S2048 : S1024x2048.Reduces [0] S2048
  shapeCasts_S2048_S1x2048 : S2048.ShapeCasts S1x2048
  inb_S1x1_S1x1_0_0 : ∀ a, (![0, 0] : Fin 2 → Nat) a + S1x1.size a ≤ S1x1.size a
  h_S1x1 : 0 < S1x1.numel
  broadcasts_S1x1_S1x2048 : S1x1.Broadcasts S1x2048
  concatenates_S63x2048_S1x2048_S64x2048_d0 : Shape.Concatenates [S63x2048, S1x2048] S64x2048 0
  concatenates_S64x2048_S64x2048_S128x2048_d0 : Shape.Concatenates [S64x2048, S64x2048] S128x2048 0
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S64x2048_S1x2048_0_0 : ∀ a, (![0, 0] : Fin 2 → Nat) a + S1x2048.size a ≤ S64x2048.size a
  slices_S64x2048_o0_0_S63x2048 : S64x2048.Slices ![0, 0] S63x2048
  inb_S64x2048_S63x2048_1_0 : ∀ a, (![1, 0] : Fin 2 → Nat) a + S63x2048.size a ≤ S64x2048.size a
  inb_S63x2048_S1x2048_0_0 : ∀ a, (![0, 0] : Fin 2 → Nat) a + S1x2048.size a ≤ S63x2048.size a
  slices_S63x2048_o0_0_S62x2048 : S63x2048.Slices ![0, 0] S62x2048
  inb_S63x2048_S62x2048_1_0 : ∀ a, (![1, 0] : Fin 2 → Nat) a + S62x2048.size a ≤ S63x2048.size a
  h_S62x2048 : 0 < S62x2048.numel
  dot_S1024x192_S192x2048_S1024x2048_1_0_0_1_n_n_wf : DotDims.WF S1024x192 S192x2048 S1024x2048 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x16384.size a
  hwx0_0 : ∀ i : grid0.Coords, EltTy.bits .f32 = 32 ∨ (Rect.block (s := S1x16384) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x16384.size a
  hwx0_1 : ∀ i : grid0.Coords, EltTy.bits .f32 = 32 ∨ (Rect.block (s := S64x16384) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x16384.size a
  hwx0_2 : ∀ i : grid0.Coords, EltTy.bits .f32 = 32 ∨ (Rect.block (s := S64x16384) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x16384.size a
  hwx0_3 : ∀ i : grid0.Coords, EltTy.bits .f32 = 32 ∨ (Rect.block (s := S64x16384) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S63x2048.size a ≤ S63x16384.size a
  hwx0_4 : ∀ i : grid0.Coords, EltTy.bits .f32 = 32 ∨ (Rect.block (s := S63x16384) S63x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x16384.size a
  hwx0_5 : ∀ i : grid0.Coords, EltTy.bits .f32 = 32 ∨ (Rect.block (s := S64x16384) S64x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x192.size a ≤ S1024x192.size a
  hwx0_6 : ∀ i : grid0.Coords, EltTy.bits .bf16 = 32 ∨ (Rect.block (s := S1024x192) S1024x192.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S1024x1.size a
  hwx0_7 : ∀ i : grid0.Coords, EltTy.bits .f32 = 32 ∨ (Rect.block (s := S1024x1) S1024x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S1024x1.size a
  hwx0_8 : ∀ i : grid0.Coords, EltTy.bits .f32 = 32 ∨ (Rect.block (s := S1024x1) S1024x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S1024x128.size a
  hwx0_10 : ∀ i : grid0.Coords, EltTy.bits .bf16 = 32 ∨ (Rect.block (s := S1024x128) S1024x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S1024x1.size a
  hwx0_11 : ∀ i : grid0.Coords, EltTy.bits .f32 = 32 ∨ (Rect.block (s := S1024x1) S1024x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S1024x1.size a
  hwx0_12 : ∀ i : grid0.Coords, EltTy.bits .f32 = 32 ∨ (Rect.block (s := S1024x1) S1024x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x2048.size a ≤ S1x16384.size a
  hwx0_14 : ∀ i : grid0.Coords, EltTy.bits .f32 = 32 ∨ (Rect.block (s := S1x16384) S1x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x2048.size a ≤ S64x16384.size a
  hwx0_15 : ∀ i : grid0.Coords, EltTy.bits .f32 = 32 ∨ (Rect.block (s := S64x16384) S64x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S64x2048.size a ≤ S64x16384.size a
  hwx0_16 : ∀ i : grid0.Coords, EltTy.bits .f32 = 32 ∨ (Rect.block (s := S64x16384) S64x2048.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x2048.size a ≤ S64x16384.size a
  hwx0_17 : ∀ i : grid0.Coords, EltTy.bits .f32 = 32 ∨ (Rect.block (s := S64x16384) S64x2048.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S63x2048.size a ≤ S63x16384.size a
  hwx0_18 : ∀ i : grid0.Coords, EltTy.bits .f32 = 32 ∨ (Rect.block (s := S63x16384) S63x2048.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S64x2048.size a ≤ S64x16384.size a
  hwx0_19 : ∀ i : grid0.Coords, EltTy.bits .f32 = 32 ∨ (Rect.block (s := S64x16384) S64x2048.size (cc0_transform_19 i) (hinb0_19 i)).WholeWords (EltTy.packing .f32)

variable [Facts₀]

def dot_S1024x192_S192x2048_S1024x2048_1_0_0_1_n_n : DotDims S1024x192 S192x2048 S1024x2048 where
  lhsContracting := [1]
  rhsContracting := [0]
  lhsNonContracting := [0]
  rhsNonContracting := [1]
  lhsBatch := []
  rhsBatch := []
  wf := dot_S1024x192_S192x2048_S1024x2048_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S63x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1024x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1024x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1024x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S1024x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6_0) S1x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v6_1) S64x2048.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v6_2) S64x2048.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v6_3) S64x2048.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v6_4) S63x2048.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v6_5) S64x2048.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S1x16384 : Shape := ⟨2, ![1, 16384]⟩
abbrev S64x16384 : Shape := ⟨2, ![64, 16384]⟩
abbrev S63x16384 : Shape := ⟨2, ![63, 16384]⟩
abbrev S1024x64 : Shape := ⟨2, ![1024, 64]⟩
abbrev S1024x1 : Shape := ⟨2, ![1024, 1]⟩
abbrev S1x1024 : Shape := ⟨2, ![1, 1024]⟩
abbrev S1x1 : Shape := ⟨2, ![1, 1]⟩
abbrev S1024x16384 : Shape := ⟨2, ![1024, 16384]⟩
abbrev S62x16384 : Shape := ⟨2, ![62, 16384]⟩

abbrev nBuf : Space → Nat
  | .hbm => 48
  | .vmem => 0
  | .smem => 0
  | _ => 0

abbrev bufTy : (tb : Table) → Fin (tcTables nBuf tb) → BufTy
  | .hbm, ⟨0, _⟩ => ⟨S1x16384, .f32⟩
  | .hbm, ⟨1, _⟩ => ⟨S64x16384, .f32⟩
  | .hbm, ⟨2, _⟩ => ⟨S64x16384, .f32⟩
  | .hbm, ⟨3, _⟩ => ⟨S64x16384, .f32⟩
  | .hbm, ⟨4, _⟩ => ⟨S63x16384, .f32⟩
  | .hbm, ⟨5, _⟩ => ⟨S64x16384, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x1, .f32⟩
  | .hbm, ⟨10, _⟩ => ⟨S1x1024, .f32⟩
  | .hbm, ⟨11, _⟩ => ⟨S1x1, .f32⟩
  | .hbm, ⟨12, _⟩ => ⟨S1024x64, .f32⟩
  | .hbm, ⟨13, _⟩ => ⟨S1024x64, .f32⟩
  | .hbm, ⟨14, _⟩ => ⟨S1024x1, .f32⟩
  | .hbm, ⟨15, _⟩ => ⟨S1x1024, .f32⟩
  | .hbm, ⟨16, _⟩ => ⟨S1x1, .f32⟩
  | .hbm, ⟨17, _⟩ => ⟨S1024x16384, .f32⟩
  | .hbm, ⟨18, _⟩ => ⟨S1024x16384, .f32⟩
  | .hbm, ⟨19, _⟩ => ⟨S1024x16384, .f32⟩
  | .hbm, ⟨20, _⟩ => ⟨S1024x16384, .f32⟩
  | .hbm, ⟨21, _⟩ => ⟨S1024x16384, .f32⟩
  | .hbm, ⟨22, _⟩ => ⟨S1024x16384, .f32⟩
  | .hbm, ⟨23, _⟩ => ⟨S1024x16384, .f32⟩
  | .hbm, ⟨24, _⟩ => ⟨S1024x16384, .f32⟩
  | .hbm, ⟨25, _⟩ => ⟨S1x16384, .f32⟩
  | .hbm, ⟨26, _⟩ => ⟨S1x16384, .f32⟩
  | .hbm, ⟨27, _⟩ => ⟨S1x16384, .f32⟩
  | .hbm, ⟨28, _⟩ => ⟨S64x16384, .f32⟩
  | .hbm, ⟨29, _⟩ => ⟨S1024x16384, .f32⟩
  | .hbm, ⟨30, _⟩ => ⟨S1024x16384, .f32⟩
  | .hbm, ⟨31, _⟩ => ⟨S1024x16384, .f32⟩
  | .hbm, ⟨32, _⟩ => ⟨S1024x16384, .f32⟩
  | .hbm, ⟨33, _⟩ => ⟨S1024x16384, .f32⟩
  | .hbm, ⟨34, _⟩ => ⟨S1024x16384, .f32⟩
  | .hbm, ⟨35, _⟩ => ⟨S1x16384, .f32⟩
  | .hbm, ⟨36, _⟩ => ⟨S1x16384, .f32⟩
  | .hbm, ⟨37, _⟩ => ⟨S1x16384, .f32⟩
  | .hbm, ⟨38, _⟩ => ⟨S63x16384, .f32⟩
  | .hbm, ⟨39, _⟩ => ⟨S64x16384, .f32⟩
  | .hbm, ⟨40, _⟩ => ⟨S63x16384, .f32⟩
  | .hbm, ⟨41, _⟩ => ⟨S64x16384, .f32⟩
  | .hbm, ⟨42, _⟩ => ⟨S63x16384, .f32⟩
  | .hbm, ⟨43, _⟩ => ⟨S64x16384, .f32⟩
  | .hbm, ⟨44, _⟩ => ⟨S62x16384, .f32⟩
  | .hbm, ⟨45, _⟩ => ⟨S63x16384, .f32⟩
  | .hbm, ⟨46, _⟩ => ⟨S63x16384, .f32⟩
  | .hbm, ⟨47, _⟩ => ⟨S64x16384, .f32⟩
  | _, _ => ⟨S1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S1024x1_S1024x16384_0_1 : S1024x1.BroadcastsInDim S1024x16384 (![0, 1] : Fin 2 → Fin S1024x16384.rank)
  bcast_S1x1_S1x16384_0_1 : S1x1.BroadcastsInDim S1x16384 (![0, 1] : Fin 2 → Fin S1x16384.rank)
  concatenates_S63x16384_S1x16384_S64x16384_d0 : Shape.Concatenates [S63x16384, S1x16384] S64x16384 0
  slices_S64x16384_S63x16384_0_0 : S64x16384.Slices ![0, 0] S63x16384
  concatenates_S1x16384_S63x16384_S64x16384_d0 : Shape.Concatenates [S1x16384, S63x16384] S64x16384 0
  slices_S63x16384_S62x16384_0_0 : S63x16384.Slices ![0, 0] S62x16384
  concatenates_S1x16384_S62x16384_S63x16384_d0 : Shape.Concatenates [S1x16384, S62x16384] S63x16384 0
  dot_S1024x64_S64x16384_S1024x16384_1_0_0_1_n_n_wf : DotDims.WF S1024x64 S64x16384 S1024x16384 [1] [0] [0] [1] [] []
  dot_S1x1024_S1024x16384_S1x16384_1_0_0_1_n_n_wf : DotDims.WF S1x1024 S1024x16384 S1x16384 [1] [0] [0] [1] [] []

variable [Facts₀]

def dot_S1024x64_S64x16384_S1024x16384_1_0_0_1_n_n : DotDims S1024x64 S64x16384 S1024x16384 where
  lhsContracting := [1]
  rhsContracting := [0]
  lhsNonContracting := [0]
  rhsNonContracting := [1]
  lhsBatch := []
  rhsBatch := []
  wf := dot_S1024x64_S64x16384_S1024x16384_1_0_0_1_n_n_wf
def dot_S1x1024_S1024x16384_S1x16384_1_0_0_1_n_n : DotDims S1x1024 S1024x16384 S1x16384 where
  lhsContracting := [1]
  rhsContracting := [0]
  lhsNonContracting := [0]
  rhsNonContracting := [1]
  lhsBatch := []
  rhsBatch := []
  wf := dot_S1x1024_S1024x16384_S1x16384_1_0_0_1_n_n_wf

class Facts : Prop extends Facts₀ where

variable [Facts]
-- ==== Proof.KernelEntry.lean ====
/-
  The program up to its one region, for the frame of `Kernel`, at any float instance.

  Before the region @main joins the three controller weight matrices side by side and narrows them, joins the two
  plant weight matrices and narrows them, and transposes the two output weight rows into columns: six host
  operations, each writing a fresh buffer and none an argument. So when the region is entered every argument
  array holds what it held at launch (`V_main_argK`), and the contents of every buffer there are the fold of those
  six operations over the launch contents (`V`). A window's block at a grid point is read off those contents
  (`iblk`); an input window's staging buffer holds that block at every point, whether the pipeline fetched it there
  or kept it from the point before (`before0_W_of`). Last, the frame claim's post is read off a run that ends with
  every staged array at what the pipeline computes and every other buffer as the region found it (`frame_of`).
-/
import proofs.«176798_j42125039239689_2_alg».proof.Proof.Gen.Kernel.Launch
import proofs.«176798_j42125039239689_2_alg».proof.Proof.Gen.Kernel.Skeleton
import proofs.«176798_j42125039239689_2_alg».proof.Proof.Gen.Kernel.Points
import Idealize.ShloMosaic.Lib.Pipeline.FrameBody
import Idealize.ShloMosaic.Lib.Ring
import Idealize.ShloMosaic.Lib.Tactic

-- membership in rectangles of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

/-- None of the six operations allocates. -/
theorem hostOps0_fresh : (hostOps0 : List (HloOp τ sig (Elt F))).Forall fun op => op.fresh = ∅ := by
  simp only [List.Forall]; repeat' constructor

/-- @main is the six host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the point before,
    for any proof data over the region-entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or kept from the point before,
    for any proof data over the region-entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or kept from the point before,
    for any proof data over the region-entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or kept from the point before,
    for any proof data over the region-entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or kept from the point before,
    for any proof data over the region-entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or kept from the point before,
    for any proof data over the region-entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or kept from the point before,
    for any proof data over the region-entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or kept from the point before,
    for any proof data over the region-entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or kept from the point before,
    for any proof data over the region-entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or kept from the point before,
    for any proof data over the region-entry contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or kept from the point before,
    for any proof data over the region-entry contents whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or kept from the point before,
    for any proof data over the region-entry contents whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or kept from the point before,
    for any proof data over the region-entry contents whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or kept from the point before,
    for any proof data over the region-entry contents whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the region-entry contents, a run that ends with every staged array at what the pipeline
    computes from the proof data (an input: its entry contents) and every other buffer as the region found it leaves
    every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 7).trans (((dats 0 c).arrAt_in 7 rfl _).trans ((hA c 7).trans (V_main_arg9 m c))),
      ((h c).2 main_arg10 (Pipeline.mem_restRefs_of main_arg10 (by decide) (by decide))).trans (V_main_arg10 m c),
      ((h c).1 9).trans (((dats 0 c).arrAt_in 9 rfl _).trans ((hA c 9).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 11).trans (((dats 0 c).arrAt_in 11 rfl _).trans ((hA c 11).trans (V_main_arg14 m c))),
      ((h c).2 main_arg15 (Pipeline.mem_restRefs_of main_arg15 (by decide) (by decide))).trans (V_main_arg15 m c),
      ((h c).1 13).trans (((dats 0 c).arrAt_in 13 rfl _).trans ((hA c 13).trans (V_main_arg16 m c)))⟩) h

end Cert.Kernel.Frm

end
-- ==== Proof.KernelBody.lean ====
/-
  The kernel body of `Kernel` as a triple, at any float instance.

  At a grid point the body is handed twenty whole staging buffers: fourteen inputs (the reference row, the five
  delay-line blocks, the two joined weight matrices, the biases and the output weight columns) and six outputs. It
  loads every input whole, computes the controller output `u` and the plant output `y` for the block's 2048
  columns, and writes each output buffer through rectangles that tile it: the plant output's row whole; for each
  delay line the new sample into row 0 and the old rows 0 … n−2 into rows 1 … n−1. (Before each store it also
  loads the rectangle it is about to overwrite and drops the value; what the buffer held plays no part.) So after
  the body each output buffer holds exactly its stores, last first (`out0_W`), whatever it held before, and every
  input buffer is as it was (`sound_kernel`).
-/
import proofs.«176798_j42125039239689_2_alg».proof.Proof.KernelEntry

-- membership in rectangles of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's rectangles -/

/-- A whole `[1, 2048]` row buffer. -/
abbrev rRow : Rect S1x2048 := Rect.unit (s := S1x2048) ![0, 0] S1x2048.size inb_S1x2048_S1x2048_0_0
/-- A whole 64-row block. -/
abbrev rAll64 : Rect S64x2048 := Rect.unit (s := S64x2048) ![0, 0] S64x2048.size inb_S64x2048_S64x2048_0_0
/-- A whole 63-row block. -/
abbrev rAll63 : Rect S63x2048 := Rect.unit (s := S63x2048) ![0, 0] S63x2048.size inb_S63x2048_S63x2048_0_0
/-- The joined controller weights, whole. -/
abbrev rW192 : Rect S1024x192 := Rect.unit (s := S1024x192) ![0, 0] S1024x192.size inb_S1024x192_S1024x192_0_0
/-- The joined plant weights, whole. -/
abbrev rW128 : Rect S1024x128 := Rect.unit (s := S1024x128) ![0, 0] S1024x128.size inb_S1024x128_S1024x128_0_0
/-- A whole `[1024, 1]` column. -/
abbrev rCol : Rect S1024x1 := Rect.unit (s := S1024x1) ![0, 0] S1024x1.size inb_S1024x1_S1024x1_0_0
/-- A whole `[1, 1]` buffer. -/
abbrev rOne : Rect S1x1 := Rect.unit (s := S1x1) ![0, 0] S1x1.size inb_S1x1_S1x1_0_0
/-- Row 0 of a 64-row block. -/
abbrev rTop64 : Rect S64x2048 := Rect.unit (s := S64x2048) ![0, 0] S1x2048.size inb_S64x2048_S1x2048_0_0
/-- Rows 1 … 63 of a 64-row block. -/
abbrev rRest64 : Rect S64x2048 := Rect.unit (s := S64x2048) ![1, 0] S63x2048.size inb_S64x2048_S63x2048_1_0
/-- Row 0 of a 63-row block. -/
abbrev rTop63 : Rect S63x2048 := Rect.unit (s := S63x2048) ![0, 0] S1x2048.size inb_S63x2048_S1x2048_0_0
/-- Rows 1 … 62 of a 63-row block. -/
abbrev rRest63 : Rect S63x2048 := Rect.unit (s := S63x2048) ![1, 0] S62x2048.size inb_S63x2048_S62x2048_1_0

/-! ## What the body computes, from the input buffers' contents -/

/-- The controller output row `u` for the block, from the three controller delay-line blocks, the joined controller
    weights, the hidden bias, the output weight column and the output bias. -/
abbrev bodyU (x1 x2 x3 : Vec F S64x2048 .f32) (x6 : Vec F S1024x192 .bf16) (x7 x8 : Vec F S1024x1 .f32) (x9 : Vec F S1x1 .f32) : FVec F S1x2048 .f32 :=
  k0_pay2 (View.ld x1 rAll64) (View.ld x2 rAll64) (View.ld x3 rAll64) (View.ld x6 rW192) (View.ld x7 rCol) (View.ld x8 rCol) (View.ld x9 rOne)

/-- The plant output row `y` for the block, from all fourteen inputs but the reference row. -/
abbrev bodyY (x1 x2 x3 : Vec F S64x2048 .f32) (x4 : Vec F S63x2048 .f32) (x5 : Vec F S64x2048 .f32) (x6 : Vec F S1024x192 .bf16) (x7 x8 : Vec F S1024x1 .f32) (x9 : Vec F S1x1 .f32)
    (x10 : Vec F S1024x128 .bf16) (x11 x12 : Vec F S1024x1 .f32) (x13 : Vec F S1x1 .f32) : FVec F S1x2048 .f32 :=
  k0_pay5 (k0_pay3 (View.ld x1 rAll64) (View.ld x2 rAll64) (View.ld x3 rAll64) (View.ld x4 rAll63) (View.ld x5 rAll64) (View.ld x6 rW192) (View.ld x7 rCol) (View.ld x8 rCol) (View.ld x9 rOne) (View.ld x10 rW128))
    (k0_pay4 (View.ld x11 rCol)) (View.ld x12 rCol) (View.ld x13 rOne)

/-! ## What the body leaves in each output buffer: its stores, last first -/

/-- Output window 14 (the plant output row): one store of the whole row. -/
def out0_14 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S1x2048 .f32 :=
  View.canon [⟨rRow, bodyY x1 x2 x3 x4 x5 x6 x7 x8 x9 x10 x11 x12 x13⟩]
/-- Output window 15 (the controller-input line): `u` into row 0, the old rows 0 … 62 into rows 1 … 63. -/
def out0_15 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay6 (View.ld x1 rAll64)⟩, ⟨rTop64, bodyU x1 x2 x3 x6 x7 x8 x9⟩]
/-- Output window 16 (the reference line): the reference row into row 0, the old rows below it. -/
def out0_16 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay7 (View.ld x2 rAll64)⟩, ⟨rTop64, View.ld x0 rRow⟩]
/-- Output window 17 (the controller-output line): `y` into row 0, the old rows below it. -/
def out0_17 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay8 (View.ld x3 rAll64)⟩, ⟨rTop64, bodyY x1 x2 x3 x4 x5 x6 x7 x8 x9 x10 x11 x12 x13⟩]
/-- Output window 18 (the plant-input line, 63 rows): `u` into row 0, the old rows 0 … 61 into rows 1 … 62. -/
def out0_18 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S63x2048 .f32 :=
  View.canon [⟨rRest63, k0_pay9 (View.ld x4 rAll63)⟩, ⟨rTop63, bodyU x1 x2 x3 x6 x7 x8 x9⟩]
/-- Output window 19 (the plant-output line): `y` into row 0, the old rows below it. -/
def out0_19 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay1 (View.ld x5 rAll64)⟩, ⟨rTop64, bodyY x1 x2 x3 x4 x5 x6 x7 x8 x9 x10 x11 x12 x13⟩]

/-! ## The stores cover their buffers -/

/-- One store of the whole row covers it. -/
theorem cover0_14 (p0 : Vec F S1x2048 .f32) (y : S1x2048.Idx) :
    ∃ pc ∈ ([⟨rRow, p0⟩] : List (View.Piece (Elt F) S1x2048 .f32)), y ∈ pc.1.set :=
  View.cover_of_tiled [⟨rRow, p0⟩] S1x2048.size (by rfl) y

/-- Row 0 and rows 1 … 63 cover a 64-row block: cut row by row, they are its 64 rows. -/
theorem cover64 (p1 : FVec F S63x2048 .f32) (p0 : FVec F S1x2048 .f32) (y : S64x2048.Idx) :
    ∃ pc ∈ ([⟨rRest64, p1⟩, ⟨rTop64, p0⟩] : List (View.Piece (Elt F) S64x2048 .f32)), y ∈ pc.1.set :=
  View.cover_of_tiledBy ([⟨rRest64, p1⟩, ⟨rTop64, p0⟩] : List (View.Piece (Elt F) S64x2048 .f32)) S1x2048.size (by sl_kernel_rfl) y

/-- Row 0 and rows 1 … 62 cover a 63-row block. -/
theorem cover63 (p1 : FVec F S62x2048 .f32) (p0 : FVec F S1x2048 .f32) (y : S63x2048.Idx) :
    ∃ pc ∈ ([⟨rRest63, p1⟩, ⟨rTop63, p0⟩] : List (View.Piece (Elt F) S63x2048 .f32)), y ∈ pc.1.set :=
  View.cover_of_tiledBy ([⟨rRest63, p1⟩, ⟨rTop63, p0⟩] : List (View.Piece (Elt F) S63x2048 .f32)) S1x2048.size (by sl_kernel_rfl) y

/-! ## The body's triple -/

set_option maxHeartbeats 4000000 in
/-- On whole staging buffers, the inputs' at contents `xW` and the outputs' at anything, the body runs to the
    continuation holding the inputs' as they were and each output's at its stores over the inputs' contents. -/
theorem sound_kernel (c : Dev nD) (E : Set ℕ) (i : grid0.Coords) (arg1 : Memref sig .tc .vmem S1x2048 .f32) (harg1 : arg1.IsWhole) (arg2 : Memref sig .tc .vmem S64x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S63x2048 .f32) (harg5 : arg5.IsWhole) (arg6 : Memref sig .tc .vmem S64x2048 .f32) (harg6 : arg6.IsWhole) (arg7 : Memref sig .tc .vmem S1024x192 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1x1 .f32) (harg10 : arg10.IsWhole) (arg11 : Memref sig .tc .vmem S1024x128 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1x1 .f32) (harg14 : arg14.IsWhole) (arg15 : Memref sig .tc .vmem S1x2048 .f32) (harg15 : arg15.IsWhole) (arg16 : Memref sig .tc .vmem S64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S63x2048 .f32) (harg19 : arg19.IsWhole) (arg20 : Memref sig .tc .vmem S64x2048 .f32) (harg20 : arg20.IsWhole)
    (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__cell_kernel_eq_skeleton]; unfold cc0__cell_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  isplitl [H15]
  · iexists _; isplitr
    swap; · iexact H15
    ipureintro
    exact View.read_writes_eq_canon _ _ _ (cover64 _ _)
  isplitl [H16]
  · iexists _; isplitr
    swap; · iexact H16
    ipureintro
    exact View.read_writes_eq_canon _ _ _ (cover64 _ _)
  isplitl [H17]
  · iexists _; isplitr
    swap; · iexact H17
    ipureintro
    exact View.read_writes_eq_canon _ _ _ (cover64 _ _)
  isplitl [H18]
  · iexists _; isplitr
    swap; · iexact H18
    ipureintro
    exact View.read_writes_eq_canon _ _ _ (cover63 _ _)
  iexists _; isplitr
  swap; · iexact H19
  ipureintro
  exact View.read_writes_eq_canon _ _ _ (cover64 _ _)

end Cert.Kernel.Frm

end
-- ==== Proof.KernelRun.lean ====
/-
  The run of `Kernel`'s one region and its frame, at any float instance.

  The proof data of the pipeline: every window's array is what the region finds; after the body at grid point `t`
  an input's staging buffer still holds its block and an output's holds its stores over the point's input blocks
  (`dats`). The body's triple then gives the pipeline's obligation at every point (`body_obligation`), the launch
  theorem runs @main to the end — no fault, every weakly fair execution terminating — with every staged array at what
  the pipeline computes from the proof data and every other buffer as the region found it (`run_main`), and since no
  host operation and no write-back touches an argument array, each ends as launched (`frame`).
-/
import proofs.«176798_j42125039239689_2_alg».proof.Proof.KernelBody

-- membership in rectangles of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 20, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, every weakly fair execution of @main terminates without a fault, every staged
    array ending at what the pipeline computes from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Frm

end
-- ==== Proof.KernelIdealEntry.lean ====
/-
  The program up to its one region, for the frame of `KernelIdeal`, at any float instance.

  Before the region @main joins the three controller weight matrices side by side and narrows them, joins the two
  plant weight matrices and narrows them, and transposes the two output weight rows into columns: six host
  operations, each writing a fresh buffer and none an argument. So when the region is entered every argument
  array holds what it held at launch (`V_main_argK`), and the contents of every buffer there are the fold of those
  six operations over the launch contents (`V`). A window's block at a grid point is read off those contents
  (`iblk`); an input window's staging buffer holds that block at every point, whether the pipeline fetched it there
  or kept it from the point before (`before0_W_of`). Last, the frame claim's post is read off a run that ends with
  every staged array at what the pipeline computes and every other buffer as the region found it (`frame_of`).
-/
import proofs.«176798_j42125039239689_2_alg».proof.Proof.Gen.KernelIdeal.Launch
import proofs.«176798_j42125039239689_2_alg».proof.Proof.Gen.KernelIdeal.Skeleton
import proofs.«176798_j42125039239689_2_alg».proof.Proof.Gen.KernelIdeal.Points
import Idealize.ShloMosaic.Lib.Pipeline.FrameBody
import Idealize.ShloMosaic.Lib.Ring
import Idealize.ShloMosaic.Lib.Tactic

-- membership in rectangles of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

/-- None of the six operations allocates. -/
theorem hostOps0_fresh : (hostOps0 : List (HloOp τ sig (Elt F))).Forall fun op => op.fresh = ∅ := by
  simp only [List.Forall]; repeat' constructor

/-- @main is the six host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the point before,
    for any proof data over the region-entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or kept from the point before,
    for any proof data over the region-entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or kept from the point before,
    for any proof data over the region-entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or kept from the point before,
    for any proof data over the region-entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or kept from the point before,
    for any proof data over the region-entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or kept from the point before,
    for any proof data over the region-entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or kept from the point before,
    for any proof data over the region-entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or kept from the point before,
    for any proof data over the region-entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or kept from the point before,
    for any proof data over the region-entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or kept from the point before,
    for any proof data over the region-entry contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or kept from the point before,
    for any proof data over the region-entry contents whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or kept from the point before,
    for any proof data over the region-entry contents whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or kept from the point before,
    for any proof data over the region-entry contents whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or kept from the point before,
    for any proof data over the region-entry contents whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the region-entry contents, a run that ends with every staged array at what the pipeline
    computes from the proof data (an input: its entry contents) and every other buffer as the region found it leaves
    every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 7).trans (((dats 0 c).arrAt_in 7 rfl _).trans ((hA c 7).trans (V_main_arg9 m c))),
      ((h c).2 main_arg10 (Pipeline.mem_restRefs_of main_arg10 (by decide) (by decide))).trans (V_main_arg10 m c),
      ((h c).1 9).trans (((dats 0 c).arrAt_in 9 rfl _).trans ((hA c 9).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 11).trans (((dats 0 c).arrAt_in 11 rfl _).trans ((hA c 11).trans (V_main_arg14 m c))),
      ((h c).2 main_arg15 (Pipeline.mem_restRefs_of main_arg15 (by decide) (by decide))).trans (V_main_arg15 m c),
      ((h c).1 13).trans (((dats 0 c).arrAt_in 13 rfl _).trans ((hA c 13).trans (V_main_arg16 m c)))⟩) h

end Cert.KernelIdeal.Frm

end
-- ==== Proof.KernelIdealBody.lean ====
/-
  The kernel body of `KernelIdeal` as a triple, at any float instance.

  At a grid point the body is handed twenty whole staging buffers: fourteen inputs (the reference row, the five
  delay-line blocks, the two joined weight matrices, the biases and the output weight columns) and six outputs. It
  loads every input whole, computes the controller output `u` and the plant output `y` for the block's 2048
  columns, and writes each output buffer through rectangles that tile it: the plant output's row whole; for each
  delay line the new sample into row 0 and the old rows 0 … n−2 into rows 1 … n−1. (Before each store it also
  loads the rectangle it is about to overwrite and drops the value; what the buffer held plays no part.) So after
  the body each output buffer holds exactly its stores, last first (`out0_W`), whatever it held before, and every
  input buffer is as it was (`sound_kernel`).
-/
import proofs.«176798_j42125039239689_2_alg».proof.Proof.KernelIdealEntry

-- membership in rectangles of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's rectangles -/

/-- A whole `[1, 2048]` row buffer. -/
abbrev rRow : Rect S1x2048 := Rect.unit (s := S1x2048) ![0, 0] S1x2048.size inb_S1x2048_S1x2048_0_0
/-- A whole 64-row block. -/
abbrev rAll64 : Rect S64x2048 := Rect.unit (s := S64x2048) ![0, 0] S64x2048.size inb_S64x2048_S64x2048_0_0
/-- A whole 63-row block. -/
abbrev rAll63 : Rect S63x2048 := Rect.unit (s := S63x2048) ![0, 0] S63x2048.size inb_S63x2048_S63x2048_0_0
/-- The joined controller weights, whole. -/
abbrev rW192 : Rect S1024x192 := Rect.unit (s := S1024x192) ![0, 0] S1024x192.size inb_S1024x192_S1024x192_0_0
/-- The joined plant weights, whole. -/
abbrev rW128 : Rect S1024x128 := Rect.unit (s := S1024x128) ![0, 0] S1024x128.size inb_S1024x128_S1024x128_0_0
/-- A whole `[1024, 1]` column. -/
abbrev rCol : Rect S1024x1 := Rect.unit (s := S1024x1) ![0, 0] S1024x1.size inb_S1024x1_S1024x1_0_0
/-- A whole `[1, 1]` buffer. -/
abbrev rOne : Rect S1x1 := Rect.unit (s := S1x1) ![0, 0] S1x1.size inb_S1x1_S1x1_0_0
/-- Row 0 of a 64-row block. -/
abbrev rTop64 : Rect S64x2048 := Rect.unit (s := S64x2048) ![0, 0] S1x2048.size inb_S64x2048_S1x2048_0_0
/-- Rows 1 … 63 of a 64-row block. -/
abbrev rRest64 : Rect S64x2048 := Rect.unit (s := S64x2048) ![1, 0] S63x2048.size inb_S64x2048_S63x2048_1_0
/-- Row 0 of a 63-row block. -/
abbrev rTop63 : Rect S63x2048 := Rect.unit (s := S63x2048) ![0, 0] S1x2048.size inb_S63x2048_S1x2048_0_0
/-- Rows 1 … 62 of a 63-row block. -/
abbrev rRest63 : Rect S63x2048 := Rect.unit (s := S63x2048) ![1, 0] S62x2048.size inb_S63x2048_S62x2048_1_0

/-! ## What the body computes, from the input buffers' contents -/

/-- The controller output row `u` for the block, from the three controller delay-line blocks, the joined controller
    weights, the hidden bias, the output weight column and the output bias. -/
abbrev bodyU (x1 x2 x3 : Vec F S64x2048 .f32) (x6 : Vec F S1024x192 .bf16) (x7 x8 : Vec F S1024x1 .f32) (x9 : Vec F S1x1 .f32) : FVec F S1x2048 .f32 :=
  k0_pay2 (View.ld x1 rAll64) (View.ld x2 rAll64) (View.ld x3 rAll64) (View.ld x6 rW192) (View.ld x7 rCol) (View.ld x8 rCol) (View.ld x9 rOne)

/-- The plant output row `y` for the block, from all fourteen inputs but the reference row. -/
abbrev bodyY (x1 x2 x3 : Vec F S64x2048 .f32) (x4 : Vec F S63x2048 .f32) (x5 : Vec F S64x2048 .f32) (x6 : Vec F S1024x192 .bf16) (x7 x8 : Vec F S1024x1 .f32) (x9 : Vec F S1x1 .f32)
    (x10 : Vec F S1024x128 .bf16) (x11 x12 : Vec F S1024x1 .f32) (x13 : Vec F S1x1 .f32) : FVec F S1x2048 .f32 :=
  k0_pay5 (k0_pay3 (View.ld x1 rAll64) (View.ld x2 rAll64) (View.ld x3 rAll64) (View.ld x4 rAll63) (View.ld x5 rAll64) (View.ld x6 rW192) (View.ld x7 rCol) (View.ld x8 rCol) (View.ld x9 rOne) (View.ld x10 rW128))
    (k0_pay4 (View.ld x11 rCol)) (View.ld x12 rCol) (View.ld x13 rOne)

/-! ## What the body leaves in each output buffer: its stores, last first -/

/-- Output window 14 (the plant output row): one store of the whole row. -/
def out0_14 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S1x2048 .f32 :=
  View.canon [⟨rRow, bodyY x1 x2 x3 x4 x5 x6 x7 x8 x9 x10 x11 x12 x13⟩]
/-- Output window 15 (the controller-input line): `u` into row 0, the old rows 0 … 62 into rows 1 … 63. -/
def out0_15 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay6 (View.ld x1 rAll64)⟩, ⟨rTop64, bodyU x1 x2 x3 x6 x7 x8 x9⟩]
/-- Output window 16 (the reference line): the reference row into row 0, the old rows below it. -/
def out0_16 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay7 (View.ld x2 rAll64)⟩, ⟨rTop64, View.ld x0 rRow⟩]
/-- Output window 17 (the controller-output line): `y` into row 0, the old rows below it. -/
def out0_17 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay8 (View.ld x3 rAll64)⟩, ⟨rTop64, bodyY x1 x2 x3 x4 x5 x6 x7 x8 x9 x10 x11 x12 x13⟩]
/-- Output window 18 (the plant-input line, 63 rows): `u` into row 0, the old rows 0 … 61 into rows 1 … 62. -/
def out0_18 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S63x2048 .f32 :=
  View.canon [⟨rRest63, k0_pay9 (View.ld x4 rAll63)⟩, ⟨rTop63, bodyU x1 x2 x3 x6 x7 x8 x9⟩]
/-- Output window 19 (the plant-output line): `y` into row 0, the old rows below it. -/
def out0_19 (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) : Vec F S64x2048 .f32 :=
  View.canon [⟨rRest64, k0_pay1 (View.ld x5 rAll64)⟩, ⟨rTop64, bodyY x1 x2 x3 x4 x5 x6 x7 x8 x9 x10 x11 x12 x13⟩]

/-! ## The stores cover their buffers -/

/-- One store of the whole row covers it. -/
theorem cover0_14 (p0 : Vec F S1x2048 .f32) (y : S1x2048.Idx) :
    ∃ pc ∈ ([⟨rRow, p0⟩] : List (View.Piece (Elt F) S1x2048 .f32)), y ∈ pc.1.set :=
  View.cover_of_tiled [⟨rRow, p0⟩] S1x2048.size (by rfl) y

/-- Row 0 and rows 1 … 63 cover a 64-row block: cut row by row, they are its 64 rows. -/
theorem cover64 (p1 : FVec F S63x2048 .f32) (p0 : FVec F S1x2048 .f32) (y : S64x2048.Idx) :
    ∃ pc ∈ ([⟨rRest64, p1⟩, ⟨rTop64, p0⟩] : List (View.Piece (Elt F) S64x2048 .f32)), y ∈ pc.1.set :=
  View.cover_of_tiledBy ([⟨rRest64, p1⟩, ⟨rTop64, p0⟩] : List (View.Piece (Elt F) S64x2048 .f32)) S1x2048.size (by sl_kernel_rfl) y

/-- Row 0 and rows 1 … 62 cover a 63-row block. -/
theorem cover63 (p1 : FVec F S62x2048 .f32) (p0 : FVec F S1x2048 .f32) (y : S63x2048.Idx) :
    ∃ pc ∈ ([⟨rRest63, p1⟩, ⟨rTop63, p0⟩] : List (View.Piece (Elt F) S63x2048 .f32)), y ∈ pc.1.set :=
  View.cover_of_tiledBy ([⟨rRest63, p1⟩, ⟨rTop63, p0⟩] : List (View.Piece (Elt F) S63x2048 .f32)) S1x2048.size (by sl_kernel_rfl) y

/-! ## The body's triple -/

set_option maxHeartbeats 4000000 in
/-- On whole staging buffers, the inputs' at contents `xW` and the outputs' at anything, the body runs to the
    continuation holding the inputs' as they were and each output's at its stores over the inputs' contents. -/
theorem sound_kernel (c : Dev nD) (E : Set ℕ) (i : grid0.Coords) (arg1 : Memref sig .tc .vmem S1x2048 .f32) (harg1 : arg1.IsWhole) (arg2 : Memref sig .tc .vmem S64x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S63x2048 .f32) (harg5 : arg5.IsWhole) (arg6 : Memref sig .tc .vmem S64x2048 .f32) (harg6 : arg6.IsWhole) (arg7 : Memref sig .tc .vmem S1024x192 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1x1 .f32) (harg10 : arg10.IsWhole) (arg11 : Memref sig .tc .vmem S1024x128 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1x1 .f32) (harg14 : arg14.IsWhole) (arg15 : Memref sig .tc .vmem S1x2048 .f32) (harg15 : arg15.IsWhole) (arg16 : Memref sig .tc .vmem S64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S63x2048 .f32) (harg19 : arg19.IsWhole) (arg20 : Memref sig .tc .vmem S64x2048 .f32) (harg20 : arg20.IsWhole)
    (x0 : Vec F S1x2048 .f32) (x1 : Vec F S64x2048 .f32) (x2 : Vec F S64x2048 .f32) (x3 : Vec F S64x2048 .f32) (x4 : Vec F S63x2048 .f32) (x5 : Vec F S64x2048 .f32) (x6 : Vec F S1024x192 .bf16) (x7 : Vec F S1024x1 .f32) (x8 : Vec F S1024x1 .f32) (x9 : Vec F S1x1 .f32) (x10 : Vec F S1024x128 .bf16) (x11 : Vec F S1024x1 .f32) (x12 : Vec F S1024x1 .f32) (x13 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__cell_kernel_eq_skeleton]; unfold cc0__cell_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  isplitl [H15]
  · iexists _; isplitr
    swap; · iexact H15
    ipureintro
    exact View.read_writes_eq_canon _ _ _ (cover64 _ _)
  isplitl [H16]
  · iexists _; isplitr
    swap; · iexact H16
    ipureintro
    exact View.read_writes_eq_canon _ _ _ (cover64 _ _)
  isplitl [H17]
  · iexists _; isplitr
    swap; · iexact H17
    ipureintro
    exact View.read_writes_eq_canon _ _ _ (cover64 _ _)
  isplitl [H18]
  · iexists _; isplitr
    swap; · iexact H18
    ipureintro
    exact View.read_writes_eq_canon _ _ _ (cover63 _ _)
  iexists _; isplitr
  swap; · iexact H19
  ipureintro
  exact View.read_writes_eq_canon _ _ _ (cover64 _ _)

end Cert.KernelIdeal.Frm

end
-- ==== Proof.PayRead.lean ====
/-
  The kernel's vector operations read at one entry, on the extended reals.

  Each lemma reads one operation of the kernel's arithmetic at an entry given by its coordinates: a column `[a, 1]`
  broadcast along the rows' length, the sum of a `[1024, 2048]` matrix down its rows, the two matrix products (192 and
  128 contraction positions) into the zero matrix, and the stackings of delay lines on top of one another, read in each
  piece.
-/
import proofs.«176798_j42125039239689_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PaySide

open Cert.KernelIdeal Cert.KernelIdeal.Gen Idealize.ShloMosaic Idealize.ShloMosaic.ValueIdx

section Layout
variable {α : Type}

/-- An `[a, 1]` column broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Three `[64, 2048]` matrices stacked into `[192, 2048]`: row `i` is the first matrix's row `i`. -/
theorem stack3_apply_0 (x₁ x₂ x₃ : S64x2048.Idx → α)
    (h : Shape.Concatenates [S64x2048, S64x2048, S64x2048] S192x2048 0) (i : Fin 64) (j : Fin 2048) :
    concatenate S192x2048 0 [⟨S64x2048, x₁⟩, ⟨S64x2048, x₂⟩, ⟨S64x2048, x₃⟩] h
      (ix2 (⟨i.val, by have := i.isLt; omega⟩ : Fin 192) j) = x₁ (ix2 i j) :=
  concatenate_apply_piece (t := S192x2048) 0 [⟨S64x2048, x₁⟩, ⟨S64x2048, x₂⟩, ⟨S64x2048, x₃⟩] h (ix2 (⟨i.val, by have := i.isLt; omega⟩ : Fin 192) j) 0 (by simp) S64x2048 x₁ rfl rfl 0 rfl (ix2 i j)
    (fun b hb => by
      match b with
      | ⟨0, _⟩ => exact absurd rfl hb
      | ⟨1, _⟩ => rfl)
    (Nat.zero_add _)

/-- … row `64 + i` is the second matrix's row `i`. -/
theorem stack3_apply_1 (x₁ x₂ x₃ : S64x2048.Idx → α)
    (h : Shape.Concatenates [S64x2048, S64x2048, S64x2048] S192x2048 0) (i : Fin 64) (j : Fin 2048) :
    concatenate S192x2048 0 [⟨S64x2048, x₁⟩, ⟨S64x2048, x₂⟩, ⟨S64x2048, x₃⟩] h
      (ix2 (⟨64 + i.val, by have := i.isLt; omega⟩ : Fin 192) j) = x₂ (ix2 i j) :=
  concatenate_apply_piece (t := S192x2048) 0 [⟨S64x2048, x₁⟩, ⟨S64x2048, x₂⟩, ⟨S64x2048, x₃⟩] h (ix2 (⟨64 + i.val, by have := i.isLt; omega⟩ : Fin 192) j) 1 (by simp) S64x2048 x₂ rfl rfl 64 rfl (ix2 i j)
    (fun b hb => by
      match b with
      | ⟨0, _⟩ => exact absurd rfl hb
      | ⟨1, _⟩ => rfl)
    rfl

/-- … row `128 + i` is the third matrix's row `i`. -/
theorem stack3_apply_2 (x₁ x₂ x₃ : S64x2048.Idx → α)
    (h : Shape.Concatenates [S64x2048, S64x2048, S64x2048] S192x2048 0) (i : Fin 64) (j : Fin 2048) :
    concatenate S192x2048 0 [⟨S64x2048, x₁⟩, ⟨S64x2048, x₂⟩, ⟨S64x2048, x₃⟩] h
      (ix2 (⟨128 + i.val, by have := i.isLt; omega⟩ : Fin 192) j) = x₃ (ix2 i j) :=
  concatenate_apply_piece (t := S192x2048) 0 [⟨S64x2048, x₁⟩, ⟨S64x2048, x₂⟩, ⟨S64x2048, x₃⟩] h (ix2 (⟨128 + i.val, by have := i.isLt; omega⟩ : Fin 192) j) 2 (by simp) S64x2048 x₃ rfl rfl 128 rfl (ix2 i j)
    (fun b hb => by
      match b with
      | ⟨0, _⟩ => exact absurd rfl hb
      | ⟨1, _⟩ => rfl)
    rfl

/-- Two `[64, 2048]` matrices stacked into `[128, 2048]`: row `i` is the first matrix's row `i`. -/
theorem stack2_apply_0 (x₁ x₂ : S64x2048.Idx → α)
    (h : Shape.Concatenates [S64x2048, S64x2048] S128x2048 0) (i : Fin 64) (j : Fin 2048) :
    concatenate S128x2048 0 [⟨S64x2048, x₁⟩, ⟨S64x2048, x₂⟩] h
      (ix2 (⟨i.val, by have := i.isLt; omega⟩ : Fin 128) j) = x₁ (ix2 i j) :=
  concatenate_apply_piece (t := S128x2048) 0 [⟨S64x2048, x₁⟩, ⟨S64x2048, x₂⟩] h (ix2 (⟨i.val, by have := i.isLt; omega⟩ : Fin 128) j) 0 (by simp) S64x2048 x₁ rfl rfl 0 rfl (ix2 i j)
    (fun b hb => by
      match b with
      | ⟨0, _⟩ => exact absurd rfl hb
      | ⟨1, _⟩ => rfl)
    (Nat.zero_add _)

/-- … row `64 + i` is the second matrix's row `i`. -/
theorem stack2_apply_1 (x₁ x₂ : S64x2048.Idx → α)
    (h : Shape.Concatenates [S64x2048, S64x2048] S128x2048 0) (i : Fin 64) (j : Fin 2048) :
    concatenate S128x2048 0 [⟨S64x2048, x₁⟩, ⟨S64x2048, x₂⟩] h
      (ix2 (⟨64 + i.val, by have := i.isLt; omega⟩ : Fin 128) j) = x₂ (ix2 i j) :=
  concatenate_apply_piece (t := S128x2048) 0 [⟨S64x2048, x₁⟩, ⟨S64x2048, x₂⟩] h (ix2 (⟨64 + i.val, by have := i.isLt; omega⟩ : Fin 128) j) 1 (by simp) S64x2048 x₂ rfl rfl 64 rfl (ix2 i j)
    (fun b hb => by
      match b with
      | ⟨0, _⟩ => exact absurd rfl hb
      | ⟨1, _⟩ => rfl)
    rfl

/-- A `[63, 2048]` matrix with one more row put under it: a row `i` below 63 is the matrix's row `i`. -/
theorem append_row_apply_lt (x : S63x2048.Idx → α) (u : S1x2048.Idx → α)
    (h : Shape.Concatenates [S63x2048, S1x2048] S64x2048 0) (i : Fin 64) (hi : i.val < 63) (j : Fin 2048) :
    concatenate S64x2048 0 [⟨S63x2048, x⟩, ⟨S1x2048, u⟩] h (ix2 i j) = x (ix2 (⟨i.val, hi⟩ : Fin 63) j) :=
  concatenate_apply_piece (t := S64x2048) 0 [⟨S63x2048, x⟩, ⟨S1x2048, u⟩] h (ix2 i j) 0 (by simp) S63x2048 x rfl rfl 0 rfl (ix2 (⟨i.val, hi⟩ : Fin 63) j)
    (fun b hb => by
      match b with
      | ⟨0, _⟩ => exact absurd rfl hb
      | ⟨1, _⟩ => rfl)
    (Nat.zero_add _)

/-- … and row 63 is the added row. -/
theorem append_row_apply_last (x : S63x2048.Idx → α) (u : S1x2048.Idx → α)
    (h : Shape.Concatenates [S63x2048, S1x2048] S64x2048 0) (i : Fin 64) (hi : ¬ i.val < 63) (j : Fin 2048) :
    concatenate S64x2048 0 [⟨S63x2048, x⟩, ⟨S1x2048, u⟩] h (ix2 i j) = u (ix2 (0 : Fin 1) j) :=
  concatenate_apply_piece (t := S64x2048) 0 [⟨S63x2048, x⟩, ⟨S1x2048, u⟩] h (ix2 i j) 1 (by simp) S1x2048 u rfl rfl 63 rfl (ix2 (0 : Fin 1) j)
    (fun b hb => by
      match b with
      | ⟨0, _⟩ => exact absurd rfl hb
      | ⟨1, _⟩ => rfl)
    (by have := i.isLt; show 63 + 0 = i.val; omega)

end Layout

/-- The sum of a `[1024, 2048]` matrix down its rows, at column `j`: the sum over the 1024 rows of the entry. -/
theorem sum_rows_apply (src : FVec Ideal S1024x2048 .f32) (h : S1024x2048.Reduces [0] S2048) (hφ : FKind.Formats .f32)
    (hacc : (0x00000000#32 : BitVec 32) = FKind.add.neutral .f32 hφ) (j : Fin 2048) :
    multiReduction (F := Ideal) .add [0] S2048 src 0x00000000#32 h hφ hacc (ix1 j) = ∑ r : Fin 1024, src (ix2 r j) := by
  refine (Ideal.multiReduction_add_single src 0x00000000#32 h hφ hacc (ix1 j)).trans ?_
  show ∑ r : Fin 1024, src (h.lift (ix1 j) r) = _
  refine Finset.sum_congr rfl fun r _ => congrArg src ?_
  funext a
  apply Fin.ext
  match a with
  | ⟨0, _⟩ => rfl
  | ⟨1, _⟩ => rfl

/-! ### The 192-term product -/

theorem lhs192_0 (i : S1024x2048.Idx) (q : dot_S1024x192_S192x2048_S1024x2048_1_0_0_1_n_n.contr.Idx) :
    (dot_S1024x192_S192x2048_S1024x2048_1_0_0_1_n_n.lhsIdx i q 0).val = (i 0).val := by
  unfold DotDims.lhsIdx
  rw [dif_neg (show ¬(0 : Fin S1024x192.rank) ∈ dot_S1024x192_S192x2048_S1024x2048_1_0_0_1_n_n.lhsBatch by decide), dif_pos (show (0 : Fin S1024x192.rank) ∈ dot_S1024x192_S192x2048_S1024x2048_1_0_0_1_n_n.lhsNonContracting by decide)]
  rfl
theorem lhs192_1 (i : S1024x2048.Idx) (q : dot_S1024x192_S192x2048_S1024x2048_1_0_0_1_n_n.contr.Idx) :
    (dot_S1024x192_S192x2048_S1024x2048_1_0_0_1_n_n.lhsIdx i q 1).val = (q ⟨0, by decide⟩).val :=
  dot_S1024x192_S192x2048_S1024x2048_1_0_0_1_n_n.lhsIdx_val_of_single rfl i q
theorem rhs192_0 (i : S1024x2048.Idx) (q : dot_S1024x192_S192x2048_S1024x2048_1_0_0_1_n_n.contr.Idx) :
    (dot_S1024x192_S192x2048_S1024x2048_1_0_0_1_n_n.rhsIdx i q 0).val = (q ⟨0, by decide⟩).val :=
  dot_S1024x192_S192x2048_S1024x2048_1_0_0_1_n_n.rhsIdx_val_of_single rfl i q
theorem rhs192_1 (i : S1024x2048.Idx) (q : dot_S1024x192_S192x2048_S1024x2048_1_0_0_1_n_n.contr.Idx) :
    (dot_S1024x192_S192x2048_S1024x2048_1_0_0_1_n_n.rhsIdx i q 1).val = (i 1).val := by
  unfold DotDims.rhsIdx
  rw [dif_neg (show ¬(1 : Fin S192x2048.rank) ∈ dot_S1024x192_S192x2048_S1024x2048_1_0_0_1_n_n.rhsBatch by decide), dif_pos (show (1 : Fin S192x2048.rank) ∈ dot_S1024x192_S192x2048_S1024x2048_1_0_0_1_n_n.rhsNonContracting by decide)]
  rfl

/-- The matrix product of a `[1024, 192]` by a `[192, 2048]` matrix into the zero matrix, at entry `(r, j)`: the sum over
    the 192 contraction positions of the row's entry times the column's. -/
theorem matmul192_apply (W : FVec Ideal S1024x192 .bf16) (X : FVec Ideal S192x2048 .bf16) (r : Fin 1024) (j : Fin 2048) :
    matmul dot_S1024x192_S192x2048_S1024x2048_1_0_0_1_n_n none W X (constant (F := Ideal) S1024x2048 .f32 0x00000000#32) (ix2 r j)
      = ∑ k : Fin 192, W (ix2 r k) * X (ix2 k j) := by
  simp only [matmul]
  rw [Ideal.matmul_constant_zero_apply, ← Equiv.sum_comp (contrEquiv1 dot_S1024x192_S192x2048_S1024x2048_1_0_0_1_n_n 192 rfl rfl).symm]
  refine Finset.sum_congr rfl fun k _ => ?_
  have hk := contrEquiv1_symm_val dot_S1024x192_S192x2048_S1024x2048_1_0_0_1_n_n 192 rfl rfl k
  have el : dot_S1024x192_S192x2048_S1024x2048_1_0_0_1_n_n.lhsIdx (ix2 r j) ((contrEquiv1 dot_S1024x192_S192x2048_S1024x2048_1_0_0_1_n_n 192 rfl rfl).symm k) = ix2 r k := funext fun a => Fin.ext (by
    match a with
    | ⟨0, _⟩ => exact lhs192_0 _ _
    | ⟨1, _⟩ => exact (lhs192_1 _ _).trans hk)
  have er : dot_S1024x192_S192x2048_S1024x2048_1_0_0_1_n_n.rhsIdx (ix2 r j) ((contrEquiv1 dot_S1024x192_S192x2048_S1024x2048_1_0_0_1_n_n 192 rfl rfl).symm k) = ix2 k j := funext fun a => Fin.ext (by
    match a with
    | ⟨0, _⟩ => exact (rhs192_0 _ _).trans hk
    | ⟨1, _⟩ => exact rhs192_1 _ _)
  rw [el, er]

/-! ### The 128-term product -/

theorem lhs128_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem lhs128_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhs128_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhs128_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- The matrix product of a `[1024, 128]` by a `[128, 2048]` matrix into the zero matrix, at entry `(r, j)`: the sum over
    the 128 contraction positions of the row's entry times the column's. -/
theorem matmul128_apply (W : FVec Ideal S1024x128 .bf16) (X : FVec Ideal S128x2048 .bf16) (r : Fin 1024) (j : Fin 2048) :
    matmul dot_S1024x128_S128x2048_S1024x2048_1_0_0_1_n_n none W X (constant (F := Ideal) S1024x2048 .f32 0x00000000#32) (ix2 r j)
      = ∑ k : Fin 128, W (ix2 r k) * X (ix2 k j) := by
  simp only [matmul]
  rw [Ideal.matmul_constant_zero_apply, ← Equiv.sum_comp (contrEquiv1 dot_S1024x128_S128x2048_S1024x2048_1_0_0_1_n_n 128 rfl rfl).symm]
  refine Finset.sum_congr rfl fun k _ => ?_
  have hk := contrEquiv1_symm_val dot_S1024x128_S128x2048_S1024x2048_1_0_0_1_n_n 128 rfl rfl k
  have el : dot_S1024x128_S128x2048_S1024x2048_1_0_0_1_n_n.lhsIdx (ix2 r j) ((contrEquiv1 dot_S1024x128_S128x2048_S1024x2048_1_0_0_1_n_n 128 rfl rfl).symm k) = ix2 r k := funext fun a => Fin.ext (by
    match a with
    | ⟨0, _⟩ => exact lhs128_0 _ _
    | ⟨1, _⟩ => exact (lhs128_1 _ _).trans hk)
  have er : dot_S1024x128_S128x2048_S1024x2048_1_0_0_1_n_n.rhsIdx (ix2 r j) ((contrEquiv1 dot_S1024x128_S128x2048_S1024x2048_1_0_0_1_n_n 128 rfl rfl).symm k) = ix2 k j := funext fun a => Fin.ext (by
    match a with
    | ⟨0, _⟩ => exact (rhs128_0 _ _).trans hk
    | ⟨1, _⟩ => exact rhs128_1 _ _)
  rw [el, er]

end Cert.PaySide

end
-- ==== Proof.PayLayers.lean ====
/-
  The two stages of a network of the cell, as the kernel computes them on one block of 2048 columns, read at an entry.

  The hidden stage is `tanh` of a matrix product plus a bias column; the output stage multiplies each hidden unit by its
  weight, sums down the 1024 rows and adds the one-entry bias. Both networks (controller and plant) use the same output
  stage, and the kernel's payloads are, by definition, these stages applied to its loaded values.
-/
import proofs.«176798_j42125039239689_2_alg».proof.Proof.PayRead

noncomputable section

open scoped BigOperators

namespace Cert.PaySide

open Cert.KernelIdeal Cert.KernelIdeal.Gen Idealize.ShloMosaic Idealize.ShloMosaic.ValueIdx

/-- The output stage on a block: hidden units `H` times the weight column `w`, summed down the rows, plus the bias `b`. -/
def outStage (H : FVec Ideal S1024x2048 .f32) (w : FVec Ideal S1024x1 .f32) (b : FVec Ideal S1x1 .f32) : FVec Ideal S1x2048 .f32 :=
  addf (shapeCast S1x2048
      (multiReduction (F := Ideal) .add [0] S2048
        (mulf H (broadcastTo S1024x2048 (shapeCast S1024x1 w shapeCasts_S1024x1_S1024x1) broadcasts_S1024x1_S1024x2048))
        0x00000000#32 reduces_S1024x2048_S2048 (.inl rfl) rfl)
      shapeCasts_S2048_S1x2048)
    (broadcastTo S1x2048 b broadcasts_S1x1_S1x2048)

/-- The output stage at column `j`: the sum over the hidden units of unit times weight, plus the bias. -/
theorem outStage_apply (H : FVec Ideal S1024x2048 .f32) (w : FVec Ideal S1024x1 .f32) (b : FVec Ideal S1x1 .f32) (j : Fin 2048) :
    outStage H w b (ix2 (0 : Fin 1) j)
      = (∑ r : Fin 1024, H (ix2 r j) * w (ix2 r (0 : Fin 1))) + b (ix2 (0 : Fin 1) (0 : Fin 1)) := by
  unfold outStage
  rw [addf_apply]
  refine congrArg₂ (· + ·) ?_ (broadcastTo_a1_ab_apply b _ (0 : Fin 1) j)
  refine (shapeCast_a_1a_apply _ _ (0 : Fin 1) j).trans ?_
  refine (sum_rows_apply _ _ _ _ j).trans ?_
  refine Finset.sum_congr rfl fun r _ => ?_
  rw [mulf_apply]
  refine congrArg (H (ix2 r j) * ·) ?_
  refine (broadcastTo_a1_ab_apply _ _ r j).trans ?_
  exact congrFun (shapeCast_self w _) _

/-- A `tanh` of a matrix, at an entry, is the extended reals' `tanh` of the entry. -/
theorem tanh_apply {s : Shape} {φ : FTy} (x : FVec Ideal s φ) (i : s.Idx) : tanh x i = Ideal.tanh (x i) := rfl

/-- The hidden units from a product `P` and a broadcast bias `B`, at `(r, j)`. -/
theorem tanh_addf_apply (P B : FVec Ideal S1024x2048 .f32) (r : Fin 1024) (j : Fin 2048) :
    tanh (addf P B) (ix2 r j) = Ideal.tanh (P (ix2 r j) + B (ix2 r j)) := by
  rw [tanh_apply, addf_apply]

/-- The controller's hidden stage on a block: `tanh` of the joined weights `W` times the stacked delay lines `X`, plus
    the bias column `b`. -/
def hidStage192 (W : FVec Ideal S1024x192 .bf16) (X : FVec Ideal S192x2048 .f32) (b : FVec Ideal S1024x1 .f32) :
    FVec Ideal S1024x2048 .f32 :=
  tanh (addf
    (matmul dot_S1024x192_S192x2048_S1024x2048_1_0_0_1_n_n none
      (shapeCast S1024x192 W shapeCasts_S1024x192_S1024x192) (truncf .bf16 X bitsLt_bf16_f32)
      (constant (F := Ideal) S1024x2048 .f32 0x00000000#32))
    (broadcastTo S1024x2048 b broadcasts_S1024x1_S1024x2048))

/-- The controller's hidden stage at `(r, j)`. -/
theorem hidStage192_apply (W : FVec Ideal S1024x192 .bf16) (X : FVec Ideal S192x2048 .f32) (b : FVec Ideal S1024x1 .f32)
    (r : Fin 1024) (j : Fin 2048) :
    hidStage192 W X b (ix2 r j) = Ideal.tanh ((∑ k : Fin 192, W (ix2 r k) * X (ix2 k j)) + b (ix2 r (0 : Fin 1))) := by
  unfold hidStage192
  refine (tanh_addf_apply _ _ r j).trans ?_
  refine congrArg Ideal.tanh (congrArg₂ (· + ·) ?_ (broadcastTo_a1_ab_apply b _ r j))
  refine (matmul192_apply _ _ r j).trans ?_
  refine Finset.sum_congr rfl fun k _ => ?_
  rw [shapeCast_self]
  rfl

/-- The plant's product on a block, before the bias: the joined weights `W` times the stacked lines `X`, at `(r, j)`. -/
theorem plantProduct_apply (W : FVec Ideal S1024x128 .bf16) (X : FVec Ideal S128x2048 .f32) (r : Fin 1024) (j : Fin 2048) :
    matmul dot_S1024x128_S128x2048_S1024x2048_1_0_0_1_n_n none
      (shapeCast S1024x128 W shapeCasts_S1024x128_S1024x128) (truncf .bf16 X bitsLt_bf16_f32)
      (constant (F := Ideal) S1024x2048 .f32 0x00000000#32) (ix2 r j)
      = ∑ k : Fin 128, W (ix2 r k) * X (ix2 k j) := by
  refine (matmul128_apply _ _ r j).trans ?_
  refine Finset.sum_congr rfl fun k _ => ?_
  rw [shapeCast_self]
  rfl

/-! ## The payloads are these stages -/

/-- The controller's output payload is the output stage of the hidden stage of the three stacked delay lines. -/
theorem k0_pay2_eq (v1 v2 v3 : Vec Ideal S64x2048 .f32) (v8 : Vec Ideal S1024x192 .bf16) (v11 v15 : Vec Ideal S1024x1 .f32)
    (v21 : Vec Ideal S1x1 .f32) :
    k0_pay2 (F := Ideal) v1 v2 v3 v8 v11 v15 v21
      = outStage (hidStage192 v8
          (concatenate S192x2048 0 [⟨S64x2048, v1⟩, ⟨S64x2048, v2⟩, ⟨S64x2048, v3⟩]
            concatenates_S64x2048_S64x2048_S64x2048_S192x2048_d0) v11) v15 v21 := rfl

/-- The plant's output payload is the output stage of `tanh` of product plus bias. -/
theorem k0_pay5_eq (v29 v31 : FVec Ideal S1024x2048 .f32) (v34 : Vec Ideal S1024x1 .f32) (v40 : Vec Ideal S1x1 .f32) :
    k0_pay5 (F := Ideal) v29 v31 v34 v40 = outStage (tanh (addf v29 v31)) v34 v40 := rfl

end Cert.PaySide

end
-- ==== Proof.LibSumBlocks.lean ====
/-
  Sums over a range of indices cut into consecutive blocks.

  A finite sum over `Fin n`, where `n = a + b` (or `n = a + b + c`), is the sum over the first `a` indices, plus the
  sum over the next `b` (plus the sum over the last `c`), the partial sums added left to right. This holds in every
  additive commutative monoid: only associativity and commutativity of `+` are used, never subtraction and never
  distributivity, so it applies to the extended reals with no finiteness hypothesis.

  Each law comes in two forms: the `split` form names the blocks' terms by the position in the whole range
  (`f ⟨a + i, _⟩`), the `of_blocks` form takes the blocks' terms as functions of their own and one hypothesis per block
  saying that the whole range's term at that position is the block's term. The instances at the end are the two cuts
  `192 = 64 + 64 + 64` and `128 = 64 + 64` with the offsets written as literals.
-/
import Mathlib.Algebra.BigOperators.Fin

open scoped BigOperators

namespace Cert.SumBlocks

variable {M : Type*} [AddCommMonoid M]

/-- A sum over `n = a + b` indices is the sum over the first `a` plus the sum over the last `b`. -/
theorem sum_split_two {n : ℕ} (a b : ℕ) (hn : n = a + b) (f : Fin n → M) :
    ∑ k, f k = (∑ i : Fin a, f ⟨i.val, by have := i.isLt; omega⟩)
      + ∑ i : Fin b, f ⟨a + i.val, by have := i.isLt; omega⟩ := by
  subst hn
  exact Fin.sum_univ_add f

/-- A sum over `n = a + b + c` indices is the sum over the first `a`, plus the sum over the next `b`, plus the sum
    over the last `c`, added left to right. -/
theorem sum_split_three {n : ℕ} (a b c : ℕ) (hn : n = a + b + c) (f : Fin n → M) :
    ∑ k, f k = ((∑ i : Fin a, f ⟨i.val, by have := i.isLt; omega⟩)
      + ∑ i : Fin b, f ⟨a + i.val, by have := i.isLt; omega⟩)
      + ∑ i : Fin c, f ⟨a + b + i.val, by have := i.isLt; omega⟩ := by
  subst hn
  rw [Fin.sum_univ_add, Fin.sum_univ_add]
  rfl

/-- A sum over `n = a + b` indices whose terms are given block by block — `g₁` on the first `a` positions, `g₂` on
    the last `b` — is the sum of `g₁` plus the sum of `g₂`. -/
theorem sum_of_two_blocks {n : ℕ} (a b : ℕ) (hn : n = a + b) (f : Fin n → M) (g₁ : Fin a → M) (g₂ : Fin b → M)
    (h₁ : ∀ i : Fin a, f ⟨i.val, by have := i.isLt; omega⟩ = g₁ i)
    (h₂ : ∀ i : Fin b, f ⟨a + i.val, by have := i.isLt; omega⟩ = g₂ i) :
    ∑ k, f k = (∑ i, g₁ i) + ∑ i, g₂ i := by
  rw [sum_split_two a b hn f]
  exact congrArg₂ (· + ·) (Finset.sum_congr rfl fun i _ => h₁ i) (Finset.sum_congr rfl fun i _ => h₂ i)

/-- A sum over `n = a + b + c` indices whose terms are given block by block is the three blocks' sums added left to
    right. -/
theorem sum_of_three_blocks {n : ℕ} (a b c : ℕ) (hn : n = a + b + c) (f : Fin n → M)
    (g₁ : Fin a → M) (g₂ : Fin b → M) (g₃ : Fin c → M)
    (h₁ : ∀ i : Fin a, f ⟨i.val, by have := i.isLt; omega⟩ = g₁ i)
    (h₂ : ∀ i : Fin b, f ⟨a + i.val, by have := i.isLt; omega⟩ = g₂ i)
    (h₃ : ∀ i : Fin c, f ⟨a + b + i.val, by have := i.isLt; omega⟩ = g₃ i) :
    ∑ k, f k = ((∑ i, g₁ i) + ∑ i, g₂ i) + ∑ i, g₃ i := by
  rw [sum_split_three a b c hn f]
  exact congrArg₂ (· + ·)
    (congrArg₂ (· + ·) (Finset.sum_congr rfl fun i _ => h₁ i) (Finset.sum_congr rfl fun i _ => h₂ i))
    (Finset.sum_congr rfl fun i _ => h₃ i)

/-! ## The two cuts used by a joined matrix product: `192 = 64 + 64 + 64` and `128 = 64 + 64` -/

/-- A sum over 192 indices given as three blocks of 64 (positions `i`, `64 + i`, `128 + i`). -/
theorem sum_fin192_of_blocks (f : Fin 192 → M) (g₁ g₂ g₃ : Fin 64 → M)
    (h₁ : ∀ i : Fin 64, f ⟨i.val, by have := i.isLt; omega⟩ = g₁ i)
    (h₂ : ∀ i : Fin 64, f ⟨64 + i.val, by have := i.isLt; omega⟩ = g₂ i)
    (h₃ : ∀ i : Fin 64, f ⟨128 + i.val, by have := i.isLt; omega⟩ = g₃ i) :
    ∑ k, f k = ((∑ i, g₁ i) + ∑ i, g₂ i) + ∑ i, g₃ i :=
  sum_of_three_blocks 64 64 64 rfl f g₁ g₂ g₃ h₁ h₂ (fun i => h₃ i)

/-- A sum over 128 indices given as two blocks of 64 (positions `i`, `64 + i`). -/
theorem sum_fin128_of_blocks (f : Fin 128 → M) (g₁ g₂ : Fin 64 → M)
    (h₁ : ∀ i : Fin 64, f ⟨i.val, by have := i.isLt; omega⟩ = g₁ i)
    (h₂ : ∀ i : Fin 64, f ⟨64 + i.val, by have := i.isLt; omega⟩ = g₂ i) :
    ∑ k, f k = (∑ i, g₁ i) + ∑ i, g₂ i :=
  sum_of_two_blocks 64 64 rfl f g₁ g₂ h₁ h₂

end Cert.SumBlocks
-- ==== Proof.CellSpec.lean ====
/-
  The controller cell as mathematics, on the extended reals, over coordinates.

  One step of the cell: a controller network reads three delay lines (64 rows each, one column per simulation),
  its hidden layer is `tanh` of three matrix products and a bias, its output `u` a weighted sum of the hidden
  units plus a bias. The plant network reads its own input line — 63 carried rows with `u` appended as row 63 —
  and its output line, the same way, and gives `y`. Every delay line is then shifted down by one row with a new
  sample put in row 0: `u` into the controller-input and plant-input lines, the reference signal into the
  reference line, `y` into the controller-output and plant-output lines.

  Everything here is a function of coordinates (`Fin`), with no program in sight: the two programs' arrays are
  read into `Args` by `argsOf`, and each result array is one of the `out…` functions below.
-/
import Idealize.ShloMosaic.PureOps.Ideal
import Idealize.ShloMosaic.Lib.ValueIdx

noncomputable section

open scoped BigOperators

namespace Cert.CellSpec

open Idealize.ShloMosaic Idealize.ShloMosaic.ValueIdx

/-- The seventeen argument arrays by coordinates: the reference signal, the five delay lines, and the two
    networks' weights and biases (a bias column `[1024, 1]` or a weight row `[1, 1024]` as a function of its one
    long coordinate, a `[1, 1]` bias as its one entry). -/
structure Args where
  ref : Fin 16384 → EReal
  ci : Fin 64 → Fin 16384 → EReal
  cr : Fin 64 → Fin 16384 → EReal
  co : Fin 64 → Fin 16384 → EReal
  pi : Fin 63 → Fin 16384 → EReal
  po : Fin 64 → Fin 16384 → EReal
  ciw : Fin 1024 → Fin 64 → EReal
  crw : Fin 1024 → Fin 64 → EReal
  cow : Fin 1024 → Fin 64 → EReal
  cb1 : Fin 1024 → EReal
  clw : Fin 1024 → EReal
  cb2 : EReal
  piw : Fin 1024 → Fin 64 → EReal
  pow : Fin 1024 → Fin 64 → EReal
  pb1 : Fin 1024 → EReal
  plw : Fin 1024 → EReal
  pb2 : EReal

/-- The controller's hidden unit `h` for simulation `b`: `tanh` of the three delay lines' products plus the bias,
    the three sums added left to right. -/
def ctrlHidden (A : Args) (h : Fin 1024) (b : Fin 16384) : EReal :=
  Ideal.tanh ((((∑ k : Fin 64, A.ciw h k * A.ci k b) + (∑ k : Fin 64, A.crw h k * A.cr k b))
    + (∑ k : Fin 64, A.cow h k * A.co k b)) + A.cb1 h)

/-- The controller's output `u` for simulation `b`. -/
def ctrlOut (A : Args) (b : Fin 16384) : EReal :=
  (∑ h : Fin 1024, A.clw h * ctrlHidden A h b) + A.cb2

/-- The plant's input line as the plant reads it: the 63 carried rows, then `u` as row 63. -/
def plantDelay (A : Args) (r : Fin 64) (b : Fin 16384) : EReal :=
  if h : r.val < 63 then A.pi ⟨r.val, h⟩ b else ctrlOut A b

/-- The plant's hidden unit `h` for simulation `b`. -/
def plantHidden (A : Args) (h : Fin 1024) (b : Fin 16384) : EReal :=
  Ideal.tanh (((∑ k : Fin 64, A.piw h k * plantDelay A k b) + (∑ k : Fin 64, A.pow h k * A.po k b)) + A.pb1 h)

/-- The plant's output `y` for simulation `b`. -/
def plantOut (A : Args) (b : Fin 16384) : EReal :=
  (∑ h : Fin 1024, A.plw h * plantHidden A h b) + A.pb2

/-- A delay line of `n` rows shifted down by one with the sample `x` put in row 0 (the last row drops out). -/
def shiftIn {n : Nat} (x : Fin 16384 → EReal) (line : Fin n → Fin 16384 → EReal) (r : Fin n) (b : Fin 16384) : EReal :=
  if h : r.val = 0 then x b else line ⟨r.val - 1, by have := r.isLt; omega⟩ b

/-! ## The arrays -/

/-- The argument arrays read by coordinates. -/
def argsOf (x0 : (⟨2, ![1, 16384]⟩ : Shape).Idx → EReal) (x1 x2 x3 : (⟨2, ![64, 16384]⟩ : Shape).Idx → EReal)
    (x4 : (⟨2, ![63, 16384]⟩ : Shape).Idx → EReal) (x5 : (⟨2, ![64, 16384]⟩ : Shape).Idx → EReal)
    (x6 x7 x8 : (⟨2, ![1024, 64]⟩ : Shape).Idx → EReal) (x9 : (⟨2, ![1024, 1]⟩ : Shape).Idx → EReal)
    (x10 : (⟨2, ![1, 1024]⟩ : Shape).Idx → EReal) (x11 : (⟨2, ![1, 1]⟩ : Shape).Idx → EReal)
    (x12 x13 : (⟨2, ![1024, 64]⟩ : Shape).Idx → EReal) (x14 : (⟨2, ![1024, 1]⟩ : Shape).Idx → EReal)
    (x15 : (⟨2, ![1, 1024]⟩ : Shape).Idx → EReal) (x16 : (⟨2, ![1, 1]⟩ : Shape).Idx → EReal) : Args where
  ref b := x0 (ix2 (0 : Fin 1) b)
  ci k b := x1 (ix2 k b)
  cr k b := x2 (ix2 k b)
  co k b := x3 (ix2 k b)
  pi k b := x4 (ix2 k b)
  po k b := x5 (ix2 k b)
  ciw h k := x6 (ix2 h k)
  crw h k := x7 (ix2 h k)
  cow h k := x8 (ix2 h k)
  cb1 h := x9 (ix2 h (0 : Fin 1))
  clw h := x10 (ix2 (0 : Fin 1) h)
  cb2 := x11 (ix2 (0 : Fin 1) (0 : Fin 1))
  piw h k := x12 (ix2 h k)
  pow h k := x13 (ix2 h k)
  pb1 h := x14 (ix2 h (0 : Fin 1))
  plw h := x15 (ix2 (0 : Fin 1) h)
  pb2 := x16 (ix2 (0 : Fin 1) (0 : Fin 1))

/-- Result 0, `[1, 16384]`: the plant's output. -/
def outY (A : Args) : (⟨2, ![1, 16384]⟩ : Shape).Idx → EReal := fun i => plantOut A (i 1)
/-- Result 1, `[64, 16384]`: the controller-input line with `u` shifted in. -/
def outCi (A : Args) : (⟨2, ![64, 16384]⟩ : Shape).Idx → EReal := fun i => shiftIn (ctrlOut A) A.ci (i 0) (i 1)
/-- Result 2, `[64, 16384]`: the reference line with the reference signal shifted in. -/
def outCr (A : Args) : (⟨2, ![64, 16384]⟩ : Shape).Idx → EReal := fun i => shiftIn A.ref A.cr (i 0) (i 1)
/-- Result 3, `[64, 16384]`: the controller-output line with `y` shifted in. -/
def outCo (A : Args) : (⟨2, ![64, 16384]⟩ : Shape).Idx → EReal := fun i => shiftIn (plantOut A) A.co (i 0) (i 1)
/-- Result 4, `[63, 16384]`: the plant-input line with `u` shifted in. -/
def outPi (A : Args) : (⟨2, ![63, 16384]⟩ : Shape).Idx → EReal := fun i => shiftIn (ctrlOut A) A.pi (i 0) (i 1)
/-- Result 5, `[64, 16384]`: the plant-output line with `y` shifted in. -/
def outPo (A : Args) : (⟨2, ![64, 16384]⟩ : Shape).Idx → EReal := fun i => shiftIn (plantOut A) A.po (i 0) (i 1)

end Cert.CellSpec

end
-- ==== Proof.PayCtrl.lean ====
/-
  The controller on one block of columns: the kernel's value is the specification's.

  The kernel multiplies the three controller weight matrices, joined side by side into `[1024, 192]`, by the three
  delay lines stacked into `[192, 2048]`: one sum over 192 positions per hidden unit. Cut into its three blocks of 64
  it is the specification's three sums added left to right. The output multiplies hidden unit by weight where the
  specification multiplies weight by hidden unit: the product commutes.
-/
import proofs.«176798_j42125039239689_2_alg».proof.Proof.PayLayers
import proofs.«176798_j42125039239689_2_alg».proof.Proof.LibSumBlocks
import proofs.«176798_j42125039239689_2_alg».proof.Proof.CellSpec

noncomputable section

open scoped BigOperators

namespace Cert.PaySide

open Cert.KernelIdeal Cert.KernelIdeal.Gen Cert.CellSpec Idealize.ShloMosaic Idealize.ShloMosaic.ValueIdx

/-- The joined controller weights, first block: columns `0 … 63` are the input-line weights. -/
theorem ctrl_w0 (A : Args) (v8 : Vec Ideal S1024x192 .bf16)
    (h8 : ∀ (h : Fin 1024) (k : Fin 192), v8 (ix2 h k)
      = if hk : k.val < 64 then A.ciw h ⟨k.val, hk⟩
        else if hk2 : k.val < 128 then A.crw h ⟨k.val - 64, by omega⟩
        else A.cow h ⟨k.val - 128, by have := k.isLt; omega⟩)
    (r : Fin 1024) (i : Fin 64) : v8 (ix2 r (⟨i.val, by have := i.isLt; omega⟩ : Fin 192)) = A.ciw r i := by
  rw [h8]
  split
  · rfl
  · next hk => exact absurd i.isLt hk

/-- … second block: columns `64 … 127` are the reference-line weights. -/
theorem ctrl_w1 (A : Args) (v8 : Vec Ideal S1024x192 .bf16)
    (h8 : ∀ (h : Fin 1024) (k : Fin 192), v8 (ix2 h k)
      = if hk : k.val < 64 then A.ciw h ⟨k.val, hk⟩
        else if hk2 : k.val < 128 then A.crw h ⟨k.val - 64, by omega⟩
        else A.cow h ⟨k.val - 128, by have := k.isLt; omega⟩)
    (r : Fin 1024) (i : Fin 64) : v8 (ix2 r (⟨64 + i.val, by have := i.isLt; omega⟩ : Fin 192)) = A.crw r i := by
  rw [h8]
  split
  · next hk => exact absurd hk (by show ¬ 64 + i.val < 64; omega)
  · split
    · exact congrArg (A.crw r) (Fin.ext (by show 64 + i.val - 64 = i.val; omega))
    · next hk2 => exact absurd (show 64 + i.val < 128 by have := i.isLt; omega) hk2

/-- … third block: columns `128 … 191` are the output-line weights. -/
theorem ctrl_w2 (A : Args) (v8 : Vec Ideal S1024x192 .bf16)
    (h8 : ∀ (h : Fin 1024) (k : Fin 192), v8 (ix2 h k)
      = if hk : k.val < 64 then A.ciw h ⟨k.val, hk⟩
        else if hk2 : k.val < 128 then A.crw h ⟨k.val - 64, by omega⟩
        else A.cow h ⟨k.val - 128, by have := k.isLt; omega⟩)
    (r : Fin 1024) (i : Fin 64) : v8 (ix2 r (⟨128 + i.val, by have := i.isLt; omega⟩ : Fin 192)) = A.cow r i := by
  rw [h8]
  split
  · next hk => exact absurd hk (by show ¬ 128 + i.val < 64; omega)
  · split
    · next hk2 => exact absurd hk2 (by show ¬ 128 + i.val < 128; omega)
    · exact congrArg (A.cow r) (Fin.ext (by show 128 + i.val - 128 = i.val; omega))

/-- The kernel's hidden unit `r` at column `j` of the block that starts at column `c0` is the specification's hidden
    unit for simulation `c0 + j`. -/
theorem ctrl_hidden_block (A : Args) (c0 : ℕ) (hc0 : c0 + 2048 ≤ 16384)
    (v1 v2 v3 : Vec Ideal S64x2048 .f32) (v8 : Vec Ideal S1024x192 .bf16) (v11 : Vec Ideal S1024x1 .f32)
    (h1 : ∀ (k : Fin 64) (j : Fin 2048), v1 (ix2 k j) = A.ci k ⟨c0 + j.val, by have := j.isLt; omega⟩)
    (h2 : ∀ (k : Fin 64) (j : Fin 2048), v2 (ix2 k j) = A.cr k ⟨c0 + j.val, by have := j.isLt; omega⟩)
    (h3 : ∀ (k : Fin 64) (j : Fin 2048), v3 (ix2 k j) = A.co k ⟨c0 + j.val, by have := j.isLt; omega⟩)
    (h8 : ∀ (h : Fin 1024) (k : Fin 192), v8 (ix2 h k)
      = if hk : k.val < 64 then A.ciw h ⟨k.val, hk⟩
        else if hk2 : k.val < 128 then A.crw h ⟨k.val - 64, by omega⟩
        else A.cow h ⟨k.val - 128, by have := k.isLt; omega⟩)
    (h11 : ∀ h : Fin 1024, v11 (ix2 h (0 : Fin 1)) = A.cb1 h)
    (r : Fin 1024) (j : Fin 2048) :
    hidStage192 v8 (concatenate S192x2048 0 [⟨S64x2048, v1⟩, ⟨S64x2048, v2⟩, ⟨S64x2048, v3⟩]
        concatenates_S64x2048_S64x2048_S64x2048_S192x2048_d0) v11 (ix2 r j)
      = ctrlHidden A r ⟨c0 + j.val, by have := j.isLt; omega⟩ := by
  rw [hidStage192_apply]
  unfold ctrlHidden
  refine congrArg Ideal.tanh (congrArg₂ (· + ·) ?_ (h11 r))
  refine SumBlocks.sum_fin192_of_blocks _ _ _ _ (fun i => ?_) (fun i => ?_) (fun i => ?_)
  · exact congrArg₂ (· * ·) (ctrl_w0 A v8 h8 r i) ((stack3_apply_0 v1 v2 v3 _ i j).trans (h1 i j))
  · exact congrArg₂ (· * ·) (ctrl_w1 A v8 h8 r i) ((stack3_apply_1 v1 v2 v3 _ i j).trans (h2 i j))
  · exact congrArg₂ (· * ·) (ctrl_w2 A v8 h8 r i) ((stack3_apply_2 v1 v2 v3 _ i j).trans (h3 i j))

/-- **The controller on a block.** With the block's loaded values the specification's arrays at columns
    `c0 … c0 + 2047`, the kernel's controller output at column `j` is the specification's `u` for simulation `c0 + j`. -/
theorem ctrl_block (A : Args) (c0 : ℕ) (hc0 : c0 + 2048 ≤ 16384)
    (v1 v2 v3 : Vec Ideal S64x2048 .f32) (v8 : Vec Ideal S1024x192 .bf16) (v11 v15 : Vec Ideal S1024x1 .f32)
    (v21 : Vec Ideal S1x1 .f32)
    (h1 : ∀ (k : Fin 64) (j : Fin 2048), v1 (ix2 k j) = A.ci k ⟨c0 + j.val, by have := j.isLt; omega⟩)
    (h2 : ∀ (k : Fin 64) (j : Fin 2048), v2 (ix2 k j) = A.cr k ⟨c0 + j.val, by have := j.isLt; omega⟩)
    (h3 : ∀ (k : Fin 64) (j : Fin 2048), v3 (ix2 k j) = A.co k ⟨c0 + j.val, by have := j.isLt; omega⟩)
    (h8 : ∀ (h : Fin 1024) (k : Fin 192), v8 (ix2 h k)
      = if hk : k.val < 64 then A.ciw h ⟨k.val, hk⟩
        else if hk2 : k.val < 128 then A.crw h ⟨k.val - 64, by omega⟩
        else A.cow h ⟨k.val - 128, by have := k.isLt; omega⟩)
    (h11 : ∀ h : Fin 1024, v11 (ix2 h (0 : Fin 1)) = A.cb1 h)
    (h15 : ∀ h : Fin 1024, v15 (ix2 h (0 : Fin 1)) = A.clw h)
    (h21 : v21 (ix2 (0 : Fin 1) (0 : Fin 1)) = A.cb2) (j : Fin 2048) :
    k0_pay2 (F := Ideal) v1 v2 v3 v8 v11 v15 v21 (ix2 (0 : Fin 1) j) = ctrlOut A ⟨c0 + j.val, by have := j.isLt; omega⟩ := by
  rw [k0_pay2_eq, outStage_apply]
  unfold ctrlOut
  refine congrArg₂ (· + ·) (Finset.sum_congr rfl fun r _ => ?_) h21
  rw [h15 r, mul_comm _ (A.clw r)]
  exact congrArg (A.clw r * ·) (ctrl_hidden_block A c0 hc0 v1 v2 v3 v8 v11 h1 h2 h3 h8 h11 r j)

end Cert.PaySide

end
-- ==== Proof.PayPlant.lean ====
/-
  The plant on one block of columns: the kernel's value is the specification's.

  The kernel multiplies the two plant weight matrices, joined side by side into `[1024, 128]`, by the plant's two lines
  stacked into `[128, 2048]`: the input line — its 63 carried rows with the controller's output put under them as row
  63 — on top of the output line. The one sum over 128 positions, cut into its two blocks of 64, is the specification's
  two sums; row 63 of the first block is the controller's output on this block, already known to be the
  specification's `u`.
-/
import proofs.«176798_j42125039239689_2_alg».proof.Proof.PayCtrl

noncomputable section

open scoped BigOperators

namespace Cert.PaySide

open Cert.KernelIdeal Cert.KernelIdeal.Gen Cert.CellSpec Idealize.ShloMosaic Idealize.ShloMosaic.ValueIdx

/-- The plant's two lines stacked: the carried rows `x` with the row `u` under them, on top of the output line `y`. -/
def plantLines (x : FVec Ideal S63x2048 .f32) (u : FVec Ideal S1x2048 .f32) (y : FVec Ideal S64x2048 .f32) :
    FVec Ideal S128x2048 .f32 :=
  concatenate S128x2048 0
    [⟨S64x2048, concatenate S64x2048 0 [⟨S63x2048, x⟩, ⟨S1x2048, u⟩] concatenates_S63x2048_S1x2048_S64x2048_d0⟩,
      ⟨S64x2048, y⟩]
    concatenates_S64x2048_S64x2048_S128x2048_d0

/-- Row `i` of the stacked lines, `i` below 64: a carried row, or for `i = 63` the added row. -/
theorem plantLines_apply_0 (x : FVec Ideal S63x2048 .f32) (u : FVec Ideal S1x2048 .f32) (y : FVec Ideal S64x2048 .f32)
    (i : Fin 64) (j : Fin 2048) :
    plantLines x u y (ix2 (⟨i.val, by have := i.isLt; omega⟩ : Fin 128) j)
      = if h : i.val < 63 then x (ix2 (⟨i.val, h⟩ : Fin 63) j) else u (ix2 (0 : Fin 1) j) := by
  unfold plantLines
  refine (stack2_apply_0 _ _ _ i j).trans ?_
  by_cases hi : i.val < 63
  · rw [dif_pos hi]; exact append_row_apply_lt x u _ i hi j
  · rw [dif_neg hi]; exact append_row_apply_last x u _ i hi j

/-- Row `64 + i` of the stacked lines is row `i` of the output line. -/
theorem plantLines_apply_1 (x : FVec Ideal S63x2048 .f32) (u : FVec Ideal S1x2048 .f32) (y : FVec Ideal S64x2048 .f32)
    (i : Fin 64) (j : Fin 2048) :
    plantLines x u y (ix2 (⟨64 + i.val, by have := i.isLt; omega⟩ : Fin 128) j) = y (ix2 i j) := by
  unfold plantLines
  exact stack2_apply_1 _ _ _ i j

/-- The plant's product payload is the joined weights times the stacked lines, into the zero matrix. -/
theorem k0_pay3_eq (v1 v2 v3 : Vec Ideal S64x2048 .f32) (v4 : Vec Ideal S63x2048 .f32) (v5 : Vec Ideal S64x2048 .f32)
    (v8 : Vec Ideal S1024x192 .bf16) (v11 v15 : Vec Ideal S1024x1 .f32) (v21 : Vec Ideal S1x1 .f32)
    (v27 : Vec Ideal S1024x128 .bf16) :
    k0_pay3 (F := Ideal) v1 v2 v3 v4 v5 v8 v11 v15 v21 v27
      = matmul (F := Ideal) (φ₁ := .bf16) dot_S1024x128_S128x2048_S1024x2048_1_0_0_1_n_n none
          (shapeCast (α := Ideal .bf16) S1024x128 v27 shapeCasts_S1024x128_S1024x128)
          (truncf .bf16 (plantLines v4 (k0_pay2 (F := Ideal) v1 v2 v3 v8 v11 v15 v21) v5) bitsLt_bf16_f32)
          (constant (F := Ideal) S1024x2048 .f32 0x00000000#32) := rfl

/-- The joined plant weights, first block: columns `0 … 63` are the input-line weights. -/
theorem plant_w0 (A : Args) (v27 : Vec Ideal S1024x128 .bf16)
    (h27 : ∀ (h : Fin 1024) (k : Fin 128), v27 (ix2 h k)
      = if hk : k.val < 64 then A.piw h ⟨k.val, hk⟩ else A.pow h ⟨k.val - 64, by have := k.isLt; omega⟩)
    (r : Fin 1024) (i : Fin 64) : v27 (ix2 r (⟨i.val, by have := i.isLt; omega⟩ : Fin 128)) = A.piw r i := by
  rw [h27]
  split
  · rfl
  · next hk => exact absurd i.isLt hk

/-- … second block: columns `64 … 127` are the output-line weights. -/
theorem plant_w1 (A : Args) (v27 : Vec Ideal S1024x128 .bf16)
    (h27 : ∀ (h : Fin 1024) (k : Fin 128), v27 (ix2 h k)
      = if hk : k.val < 64 then A.piw h ⟨k.val, hk⟩ else A.pow h ⟨k.val - 64, by have := k.isLt; omega⟩)
    (r : Fin 1024) (i : Fin 64) : v27 (ix2 r (⟨64 + i.val, by have := i.isLt; omega⟩ : Fin 128)) = A.pow r i := by
  rw [h27]
  split
  · next hk => exact absurd hk (by show ¬ 64 + i.val < 64; omega)
  · exact congrArg (A.pow r) (Fin.ext (by show 64 + i.val - 64 = i.val; omega))

/-- The kernel's plant product for hidden unit `r` at column `j` of the block that starts at column `c0` is the
    specification's two sums for simulation `c0 + j`, added left to right. -/
theorem plant_product_block (A : Args) (c0 : ℕ) (hc0 : c0 + 2048 ≤ 16384)
    (v1 v2 v3 : Vec Ideal S64x2048 .f32) (v4 : Vec Ideal S63x2048 .f32) (v5 : Vec Ideal S64x2048 .f32)
    (v8 : Vec Ideal S1024x192 .bf16) (v11 v15 : Vec Ideal S1024x1 .f32) (v21 : Vec Ideal S1x1 .f32)
    (v27 : Vec Ideal S1024x128 .bf16)
    (h1 : ∀ (k : Fin 64) (j : Fin 2048), v1 (ix2 k j) = A.ci k ⟨c0 + j.val, by have := j.isLt; omega⟩)
    (h2 : ∀ (k : Fin 64) (j : Fin 2048), v2 (ix2 k j) = A.cr k ⟨c0 + j.val, by have := j.isLt; omega⟩)
    (h3 : ∀ (k : Fin 64) (j : Fin 2048), v3 (ix2 k j) = A.co k ⟨c0 + j.val, by have := j.isLt; omega⟩)
    (h8 : ∀ (h : Fin 1024) (k : Fin 192), v8 (ix2 h k)
      = if hk : k.val < 64 then A.ciw h ⟨k.val, hk⟩
        else if hk2 : k.val < 128 then A.crw h ⟨k.val - 64, by omega⟩
        else A.cow h ⟨k.val - 128, by have := k.isLt; omega⟩)
    (h11 : ∀ h : Fin 1024, v11 (ix2 h (0 : Fin 1)) = A.cb1 h)
    (h15 : ∀ h : Fin 1024, v15 (ix2 h (0 : Fin 1)) = A.clw h)
    (h21 : v21 (ix2 (0 : Fin 1) (0 : Fin 1)) = A.cb2)
    (h4 : ∀ (k : Fin 63) (j : Fin 2048), v4 (ix2 k j) = A.pi k ⟨c0 + j.val, by have := j.isLt; omega⟩)
    (h5 : ∀ (k : Fin 64) (j : Fin 2048), v5 (ix2 k j) = A.po k ⟨c0 + j.val, by have := j.isLt; omega⟩)
    (h27 : ∀ (h : Fin 1024) (k : Fin 128), v27 (ix2 h k)
      = if hk : k.val < 64 then A.piw h ⟨k.val, hk⟩ else A.pow h ⟨k.val - 64, by have := k.isLt; omega⟩)
    (r : Fin 1024) (j : Fin 2048) :
    k0_pay3 (F := Ideal) v1 v2 v3 v4 v5 v8 v11 v15 v21 v27 (ix2 r j)
      = (∑ k : Fin 64, A.piw r k * plantDelay A k ⟨c0 + j.val, by have := j.isLt; omega⟩)
        + ∑ k : Fin 64, A.pow r k * A.po k ⟨c0 + j.val, by have := j.isLt; omega⟩ := by
  rw [k0_pay3_eq]
  refine (plantProduct_apply _ _ r j).trans ?_
  refine SumBlocks.sum_fin128_of_blocks _ _ _ (fun i => ?_) (fun i => ?_)
  · refine congrArg₂ (· * ·) (plant_w0 A v27 h27 r i) ?_
    refine (plantLines_apply_0 _ _ _ i j).trans ?_
    unfold plantDelay
    by_cases hi : i.val < 63
    · rw [dif_pos hi, dif_pos hi]; exact h4 ⟨i.val, hi⟩ j
    · rw [dif_neg hi, dif_neg hi]
      exact ctrl_block A c0 hc0 v1 v2 v3 v8 v11 v15 v21 h1 h2 h3 h8 h11 h15 h21 j
  · exact congrArg₂ (· * ·) (plant_w1 A v27 h27 r i) ((plantLines_apply_1 _ _ _ i j).trans (h5 i j))

/-- **The plant on a block.** With the block's loaded values the specification's arrays at columns
    `c0 … c0 + 2047`, the kernel's plant output at column `j` is the specification's `y` for simulation `c0 + j`. -/
theorem plant_block (A : Args) (c0 : ℕ) (hc0 : c0 + 2048 ≤ 16384)
    (v1 v2 v3 : Vec Ideal S64x2048 .f32) (v4 : Vec Ideal S63x2048 .f32) (v5 : Vec Ideal S64x2048 .f32)
    (v8 : Vec Ideal S1024x192 .bf16) (v11 v15 : Vec Ideal S1024x1 .f32) (v21 : Vec Ideal S1x1 .f32)
    (v27 : Vec Ideal S1024x128 .bf16) (v30 v34 : Vec Ideal S1024x1 .f32) (v40 : Vec Ideal S1x1 .f32)
    (h1 : ∀ (k : Fin 64) (j : Fin 2048), v1 (ix2 k j) = A.ci k ⟨c0 + j.val, by have := j.isLt; omega⟩)
    (h2 : ∀ (k : Fin 64) (j : Fin 2048), v2 (ix2 k j) = A.cr k ⟨c0 + j.val, by have := j.isLt; omega⟩)
    (h3 : ∀ (k : Fin 64) (j : Fin 2048), v3 (ix2 k j) = A.co k ⟨c0 + j.val, by have := j.isLt; omega⟩)
    (h8 : ∀ (h : Fin 1024) (k : Fin 192), v8 (ix2 h k)
      = if hk : k.val < 64 then A.ciw h ⟨k.val, hk⟩
        else if hk2 : k.val < 128 then A.crw h ⟨k.val - 64, by omega⟩
        else A.cow h ⟨k.val - 128, by have := k.isLt; omega⟩)
    (h11 : ∀ h : Fin 1024, v11 (ix2 h (0 : Fin 1)) = A.cb1 h)
    (h15 : ∀ h : Fin 1024, v15 (ix2 h (0 : Fin 1)) = A.clw h)
    (h21 : v21 (ix2 (0 : Fin 1) (0 : Fin 1)) = A.cb2)
    (h4 : ∀ (k : Fin 63) (j : Fin 2048), v4 (ix2 k j) = A.pi k ⟨c0 + j.val, by have := j.isLt; omega⟩)
    (h5 : ∀ (k : Fin 64) (j : Fin 2048), v5 (ix2 k j) = A.po k ⟨c0 + j.val, by have := j.isLt; omega⟩)
    (h27 : ∀ (h : Fin 1024) (k : Fin 128), v27 (ix2 h k)
      = if hk : k.val < 64 then A.piw h ⟨k.val, hk⟩ else A.pow h ⟨k.val - 64, by have := k.isLt; omega⟩)
    (h30 : ∀ h : Fin 1024, v30 (ix2 h (0 : Fin 1)) = A.pb1 h)
    (h34 : ∀ h : Fin 1024, v34 (ix2 h (0 : Fin 1)) = A.plw h)
    (h40 : v40 (ix2 (0 : Fin 1) (0 : Fin 1)) = A.pb2) (j : Fin 2048) :
    k0_pay5 (F := Ideal) (k0_pay3 v1 v2 v3 v4 v5 v8 v11 v15 v21 v27) (k0_pay4 v30) v34 v40 (ix2 (0 : Fin 1) j)
      = plantOut A ⟨c0 + j.val, by have := j.isLt; omega⟩ := by
  rw [k0_pay5_eq, outStage_apply]
  unfold plantOut
  refine congrArg₂ (· + ·) (Finset.sum_congr rfl fun r _ => ?_) h40
  rw [h34 r, mul_comm _ (A.plw r)]
  refine congrArg (A.plw r * ·) ?_
  refine (tanh_addf_apply _ _ r j).trans ?_
  unfold plantHidden
  refine congrArg Ideal.tanh (congrArg₂ (· + ·)
    (plant_product_block A c0 hc0 v1 v2 v3 v4 v5 v8 v11 v15 v21 v27 h1 h2 h3 h8 h11 h15 h21 h4 h5 h27 r j) ?_)
  unfold k0_pay4
  exact (broadcastTo_a1_ab_apply v30 _ r j).trans (h30 r)

end Cert.PaySide

end
-- ==== Proof.PaySlices.lean ====
/-
  The five shifted-line payloads read at an entry.

  Each delay line is stored back one row lower: the stored rows are the line's first rows (all but the last), cut out
  as a slice that starts at row 0. Read at `(r, j)` such a slice is the line at `(r, j)`. These hold for every float
  instance: a slice moves entries and computes nothing.
-/
import proofs.«176798_j42125039239689_2_alg».proof.Proof.Gen.KernelIdeal.Skeleton
import Idealize.ShloMosaic.Lib.ValueIdx
import Idealize.ShloMosaic.Lib.ValueLayout

noncomputable section

open scoped BigOperators

namespace Cert.PaySide

open Cert.KernelIdeal Cert.KernelIdeal.Gen Idealize.ShloMosaic Idealize.ShloMosaic.ValueIdx

variable {F : FTy → Type} [FloatOps F]

/-- Payload 1 is the first 63 rows of its `[64, 2048]` operand: at `(r, j)` it is the operand at `(r, j)`. -/
theorem pay1_apply (v : Vec F S64x2048 .f32) (r : Fin 63) (j : Fin 2048) :
    k0_pay1 v (ix2 r j) = v (ix2 (⟨r.val, by have := r.isLt; omega⟩ : Fin 64) j) := by
  unfold k0_pay1
  exact slice2_axis0_apply 0 v _ r j _ (Nat.zero_add _).symm

/-- Payload 6 is the first 63 rows of its `[64, 2048]` operand: at `(r, j)` it is the operand at `(r, j)`. -/
theorem pay6_apply (v : Vec F S64x2048 .f32) (r : Fin 63) (j : Fin 2048) :
    k0_pay6 v (ix2 r j) = v (ix2 (⟨r.val, by have := r.isLt; omega⟩ : Fin 64) j) := by
  unfold k0_pay6
  exact slice2_axis0_apply 0 v _ r j _ (Nat.zero_add _).symm

/-- Payload 7 is the first 63 rows of its `[64, 2048]` operand: at `(r, j)` it is the operand at `(r, j)`. -/
theorem pay7_apply (v : Vec F S64x2048 .f32) (r : Fin 63) (j : Fin 2048) :
    k0_pay7 v (ix2 r j) = v (ix2 (⟨r.val, by have := r.isLt; omega⟩ : Fin 64) j) := by
  unfold k0_pay7
  exact slice2_axis0_apply 0 v _ r j _ (Nat.zero_add _).symm

/-- Payload 8 is the first 63 rows of its `[64, 2048]` operand: at `(r, j)` it is the operand at `(r, j)`. -/
theorem pay8_apply (v : Vec F S64x2048 .f32) (r : Fin 63) (j : Fin 2048) :
    k0_pay8 v (ix2 r j) = v (ix2 (⟨r.val, by have := r.isLt; omega⟩ : Fin 64) j) := by
  unfold k0_pay8
  exact slice2_axis0_apply 0 v _ r j _ (Nat.zero_add _).symm

/-- Payload 9 is the first 62 rows of its `[63, 2048]` operand: at `(r, j)` it is the operand at `(r, j)`. -/
theorem pay9_apply (v : Vec F S63x2048 .f32) (r : Fin 62) (j : Fin 2048) :
    k0_pay9 v (ix2 r j) = v (ix2 (⟨r.val, by have := r.isLt; omega⟩ : Fin 63) j) := by
  unfold k0_pay9
  exact slice2_axis0_apply 0 v _ r j _ (Nat.zero_add _).symm

end Cert.PaySide

end
-- ==== Proof.KernelIdealPieces.lean ====
/-
  What the body of `KernelIdeal` leaves in each output buffer, read against the specification, on the extended reals.

  Fix the block of columns `c0 … c0 + 2047`. Suppose the fourteen input buffers hold that block of the argument
  arrays (`BlockOf`: a delay-line block entry `(k, j)` is the line's entry `(k, c0 + j)`; the joined weights hold the
  weight matrices side by side; the columns hold the biases and the output weights). Then each output buffer's
  stores, read at row `r` and column `j`, are the specification's result array at row `r` and column `c0 + j`:
  row 0 is the freshly computed sample — the controller output or the plant output for that column, or the
  reference signal — and row `r + 1` is row `r` of the old line.
-/
import proofs.«176798_j42125039239689_2_alg».proof.Proof.KernelIdealBody
import proofs.«176798_j42125039239689_2_alg».proof.Proof.PayPlant
import proofs.«176798_j42125039239689_2_alg».proof.Proof.PaySlices
import proofs.«176798_j42125039239689_2_alg».proof.Proof.CellSpec
import Idealize.ShloMosaic.Lib.Pipeline.Value

-- membership in rectangles of these extents is decided structurally, one step per coordinate of the long axes
set_option maxRecDepth 16384

noncomputable section

namespace Cert.KernelIdeal.Val

open Cert.KernelIdeal Cert.KernelIdeal.Gen Cert.KernelIdeal.Frm Cert.CellSpec Cert.PaySide
open Idealize.ShloMosaic Idealize.ShloMosaic.ValueIdx

/-! ## The specification's shift, case by case -/

/-- Row 0 of a shifted line is the new sample. -/
theorem shiftIn_zero {n : Nat} (x : Fin 16384 → EReal) (line : Fin n → Fin 16384 → EReal) (r : Fin n) (b : Fin 16384)
    (h : r.val = 0) : shiftIn x line r b = x b := dif_pos h

/-- Row `r' + 1` of a shifted line is row `r'` of the old line. -/
theorem shiftIn_succ {n : Nat} (x : Fin 16384 → EReal) (line : Fin n → Fin 16384 → EReal) (r r' : Fin n) (b : Fin 16384)
    (h : r.val = r'.val + 1) : shiftIn x line r b = line r' b := by
  unfold shiftIn
  rw [dif_neg (by omega)]
  exact congrArg (fun q => line q b) (Fin.ext (by show r.val - 1 = r'.val; omega))

/-! ## The input buffers hold a block of the arguments -/

/-- The zero offsets, however spelt. -/
theorem hz0 : (![0, 0] : Fin 2 → Nat) = fun _ => 0 := funext fun a => by fin_cases a <;> rfl

/-- Column `j` of the block that starts at column `c0`. -/
abbrev colOf (c0 : ℕ) (hc0 : c0 + 2048 ≤ 16384) (j : Fin 2048) : Fin 16384 := ⟨c0 + j.val, by have := j.isLt; omega⟩

/-- The fourteen input buffers hold the block of columns from `c0` of the arguments `A`. -/
structure BlockOf (A : Args) (c0 : ℕ) (hc0 : c0 + 2048 ≤ 16384) (x0 : Vec Ideal S1x2048 .f32) (x1 : Vec Ideal S64x2048 .f32) (x2 : Vec Ideal S64x2048 .f32) (x3 : Vec Ideal S64x2048 .f32) (x4 : Vec Ideal S63x2048 .f32) (x5 : Vec Ideal S64x2048 .f32) (x6 : Vec Ideal S1024x192 .bf16) (x7 : Vec Ideal S1024x1 .f32) (x8 : Vec Ideal S1024x1 .f32) (x9 : Vec Ideal S1x1 .f32) (x10 : Vec Ideal S1024x128 .bf16) (x11 : Vec Ideal S1024x1 .f32) (x12 : Vec Ideal S1024x1 .f32) (x13 : Vec Ideal S1x1 .f32) : Prop where
  h0 : ∀ j : Fin 2048, x0 (ix2 (0 : Fin 1) j) = A.ref (colOf c0 hc0 j)
  h1 : ∀ (k : Fin 64) (j : Fin 2048), x1 (ix2 k j) = A.ci k (colOf c0 hc0 j)
  h2 : ∀ (k : Fin 64) (j : Fin 2048), x2 (ix2 k j) = A.cr k (colOf c0 hc0 j)
  h3 : ∀ (k : Fin 64) (j : Fin 2048), x3 (ix2 k j) = A.co k (colOf c0 hc0 j)
  h4 : ∀ (k : Fin 63) (j : Fin 2048), x4 (ix2 k j) = A.pi k (colOf c0 hc0 j)
  h5 : ∀ (k : Fin 64) (j : Fin 2048), x5 (ix2 k j) = A.po k (colOf c0 hc0 j)
  h6 : ∀ (h : Fin 1024) (k : Fin 192), x6 (ix2 h k) = if hk : k.val < 64 then A.ciw h ⟨k.val, hk⟩ else if hk2 : k.val < 128 then A.crw h ⟨k.val - 64, by omega⟩ else A.cow h ⟨k.val - 128, by have := k.isLt; omega⟩
  h7 : ∀ h : Fin 1024, x7 (ix2 h (0 : Fin 1)) = A.cb1 h
  h8 : ∀ h : Fin 1024, x8 (ix2 h (0 : Fin 1)) = A.clw h
  h9 : x9 (ix2 (0 : Fin 1) (0 : Fin 1)) = A.cb2
  h10 : ∀ (h : Fin 1024) (k : Fin 128), x10 (ix2 h k) = if hk : k.val < 64 then A.piw h ⟨k.val, hk⟩ else A.pow h ⟨k.val - 64, by have := k.isLt; omega⟩
  h11 : ∀ h : Fin 1024, x11 (ix2 h (0 : Fin 1)) = A.pb1 h
  h12 : ∀ h : Fin 1024, x12 (ix2 h (0 : Fin 1)) = A.plw h
  h13 : x13 (ix2 (0 : Fin 1) (0 : Fin 1)) = A.pb2

variable {A : Args} {c0 : ℕ} {hc0 : c0 + 2048 ≤ 16384} {x0 : Vec Ideal S1x2048 .f32} {x1 : Vec Ideal S64x2048 .f32} {x2 : Vec Ideal S64x2048 .f32} {x3 : Vec Ideal S64x2048 .f32} {x4 : Vec Ideal S63x2048 .f32} {x5 : Vec Ideal S64x2048 .f32} {x6 : Vec Ideal S1024x192 .bf16} {x7 : Vec Ideal S1024x1 .f32} {x8 : Vec Ideal S1024x1 .f32} {x9 : Vec Ideal S1x1 .f32} {x10 : Vec Ideal S1024x128 .bf16} {x11 : Vec Ideal S1024x1 .f32} {x12 : Vec Ideal S1024x1 .f32} {x13 : Vec Ideal S1x1 .f32}

/-- The controller output row the body computes is the specification's, column by column. -/
theorem bodyU_apply (hB : BlockOf A c0 hc0 x0 x1 x2 x3 x4 x5 x6 x7 x8 x9 x10 x11 x12 x13) (j : Fin 2048) :
    bodyU (F := Ideal) x1 x2 x3 x6 x7 x8 x9 (ix2 (0 : Fin 1) j) = ctrlOut A (colOf c0 hc0 j) := by
  unfold bodyU
  simp only [View.ld_unit_zero (S := S64x2048) hz0, View.ld_unit_zero (S := S1024x192) hz0, View.ld_unit_zero (S := S1024x1) hz0, View.ld_unit_zero (S := S1x1) hz0]
  exact ctrl_block A c0 hc0 x1 x2 x3 x6 x7 x8 x9 hB.h1 hB.h2 hB.h3 hB.h6 hB.h7 hB.h8 hB.h9 j

/-- The plant output row the body computes is the specification's, column by column. -/
theorem bodyY_apply (hB : BlockOf A c0 hc0 x0 x1 x2 x3 x4 x5 x6 x7 x8 x9 x10 x11 x12 x13) (j : Fin 2048) :
    bodyY (F := Ideal) x1 x2 x3 x4 x5 x6 x7 x8 x9 x10 x11 x12 x13 (ix2 (0 : Fin 1) j) = plantOut A (colOf c0 hc0 j) := by
  unfold bodyY
  simp only [View.ld_unit_zero (S := S64x2048) hz0, View.ld_unit_zero (S := S63x2048) hz0, View.ld_unit_zero (S := S1024x192) hz0, View.ld_unit_zero (S := S1024x128) hz0, View.ld_unit_zero (S := S1024x1) hz0, View.ld_unit_zero (S := S1x1) hz0]
  exact plant_block A c0 hc0 x1 x2 x3 x4 x5 x6 x7 x8 x9 x10 x11 x12 x13 hB.h1 hB.h2 hB.h3 hB.h6 hB.h7 hB.h8 hB.h9 hB.h4 hB.h5 hB.h10 hB.h11 hB.h12 hB.h13 j

/-! ## The output buffers, read -/

/-- Output window 14's buffer at `(0, j)` is the plant output for column `c0 + j`. -/
theorem out14_apply (hB : BlockOf A c0 hc0 x0 x1 x2 x3 x4 x5 x6 x7 x8 x9 x10 x11 x12 x13) (y : S1x2048.Idx) :
    (out0_14 (F := Ideal) x0 x1 x2 x3 x4 x5 x6 x7 x8 x9 x10 x11 x12 x13 y : EReal) = outY A (ix2 (y 0) (colOf c0 hc0 (y 1))) := by
  unfold out0_14
  refine View.canon_apply_of_pieces (Val := Elt Ideal) (S := S1x2048) (e := .f32) (fun y : S1x2048.Idx => outY A (ix2 (y 0) (colOf c0 hc0 (y 1)))) _ ?_ y (cover0_14 _ y)
  intro p hp x
  simp only [List.mem_cons, List.mem_nil_iff, or_false] at hp
  obtain rfl := hp
  obtain ⟨r, j, rfl⟩ : ∃ (r : Fin 1) (j : Fin 2048), x = ix2 r j := ⟨x 0, x 1, eq_ix2 x⟩
  obtain rfl : r = 0 := Subsingleton.elim _ _
  show bodyY (F := Ideal) x1 x2 x3 x4 x5 x6 x7 x8 x9 x10 x11 x12 x13 (ix2 (0 : Fin 1) j) = plantOut A (colOf c0 hc0 (rRow.emb (ix2 (0 : Fin 1) j) 1))
  rw [bodyY_apply hB j]
  exact congrArg (plantOut A) (Fin.ext (by show c0 + j.val = c0 + (0 + 1 * j.val); omega))

/-! ## The five delay lines -/

/-- Output window 15's buffer at `(r, j)` is the controller-input line with the controller output shifted in, at row `r` and column `c0 + j`. -/
theorem out15_apply (hB : BlockOf A c0 hc0 x0 x1 x2 x3 x4 x5 x6 x7 x8 x9 x10 x11 x12 x13) (y : S64x2048.Idx) :
    (out0_15 (F := Ideal) x0 x1 x2 x3 x4 x5 x6 x7 x8 x9 x10 x11 x12 x13 y : EReal) = outCi A (ix2 (y 0) (colOf c0 hc0 (y 1))) := by
  unfold out0_15
  refine View.canon_apply_of_pieces (Val := Elt Ideal) (S := S64x2048) (e := .f32) (fun y : S64x2048.Idx => outCi A (ix2 (y 0) (colOf c0 hc0 (y 1)))) _ ?_ y (cover64 _ _ y)
  intro p hp x
  simp only [List.mem_cons, List.mem_nil_iff, or_false] at hp
  rcases hp with rfl | rfl
  · -- rows 1 … 63: the old line's rows 0 … 62
    obtain ⟨r, j, rfl⟩ : ∃ (r : Fin 63) (j : Fin 2048), x = ix2 r j := ⟨x 0, x 1, eq_ix2 x⟩
    show k0_pay6 (View.ld x1 rAll64) (ix2 r j) = shiftIn (ctrlOut A) A.ci (rRest64.emb (ix2 r j) 0) (colOf c0 hc0 (rRest64.emb (ix2 r j) 1))
    rw [View.ld_unit_zero (S := S64x2048) hz0, pay6_apply,
      shiftIn_succ (ctrlOut A) A.ci (rRest64.emb (ix2 r j) 0) ⟨r.val, by have := r.isLt; omega⟩ _ (by show 1 + 1 * r.val = r.val + 1; omega),
      hB.h1]
    exact congrArg (A.ci _) (Fin.ext (by show c0 + j.val = c0 + (0 + 1 * j.val); omega))
  · -- row 0: the new sample
    obtain ⟨r, j, rfl⟩ : ∃ (r : Fin 1) (j : Fin 2048), x = ix2 r j := ⟨x 0, x 1, eq_ix2 x⟩
    obtain rfl : r = 0 := Subsingleton.elim _ _
    show bodyU (F := Ideal) x1 x2 x3 x6 x7 x8 x9 (ix2 (0 : Fin 1) j) = shiftIn (ctrlOut A) A.ci (rTop64.emb (ix2 (0 : Fin 1) j) 0) (colOf c0 hc0 (rTop64.emb (ix2 (0 : Fin 1) j) 1))
    rw [bodyU_apply hB j, shiftIn_zero (ctrlOut A) A.ci (rTop64.emb (ix2 (0 : Fin 1) j) 0) _ (by show 0 + 1 * 0 = 0; omega)]
    exact congrArg (ctrlOut A) (Fin.ext (by show c0 + j.val = c0 + (0 + 1 * j.val); omega))

/-- Output window 16's buffer at `(r, j)` is the reference line with the reference signal shifted in, at row `r` and column `c0 + j`. -/
theorem out16_apply (hB : BlockOf A c0 hc0 x0 x1 x2 x3 x4 x5 x6 x7 x8 x9 x10 x11 x12 x13) (y : S64x2048.Idx) :
    (out0_16 (F := Ideal) x0 x1 x2 x3 x4 x5 x6 x7 x8 x9 x10 x11 x12 x13 y : EReal) = outCr A (ix2 (y 0) (colOf c0 hc0 (y 1))) := by
  unfold out0_16
  refine View.canon_apply_of_pieces (Val := Elt Ideal) (S := S64x2048) (e := .f32) (fun y : S64x2048.Idx => outCr A (ix2 (y 0) (colOf c0 hc0 (y 1)))) _ ?_ y (cover64 _ _ y)
  intro p hp x
  simp only [List.mem_cons, List.mem_nil_iff, or_false] at hp
  rcases hp with rfl | rfl
  · -- rows 1 … 63: the old line's rows 0 … 62
    obtain ⟨r, j, rfl⟩ : ∃ (r : Fin 63) (j : Fin 2048), x = ix2 r j := ⟨x 0, x 1, eq_ix2 x⟩
    show k0_pay7 (View.ld x2 rAll64) (ix2 r j) = shiftIn (A.ref) A.cr (rRest64.emb (ix2 r j) 0) (colOf c0 hc0 (rRest64.emb (ix2 r j) 1))
    rw [View.ld_unit_zero (S := S64x2048) hz0, pay7_apply,
      shiftIn_succ (A.ref) A.cr (rRest64.emb (ix2 r j) 0) ⟨r.val, by have := r.isLt; omega⟩ _ (by show 1 + 1 * r.val = r.val + 1; omega),
      hB.h2]
    exact congrArg (A.cr _) (Fin.ext (by show c0 + j.val = c0 + (0 + 1 * j.val); omega))
  · -- row 0: the new sample
    obtain ⟨r, j, rfl⟩ : ∃ (r : Fin 1) (j : Fin 2048), x = ix2 r j := ⟨x 0, x 1, eq_ix2 x⟩
    obtain rfl : r = 0 := Subsingleton.elim _ _
    show View.ld x0 rRow (ix2 (0 : Fin 1) j) = shiftIn (A.ref) A.cr (rTop64.emb (ix2 (0 : Fin 1) j) 0) (colOf c0 hc0 (rTop64.emb (ix2 (0 : Fin 1) j) 1))
    rw [View.ld_unit_zero (S := S1x2048) hz0, hB.h0 j, shiftIn_zero (A.ref) A.cr (rTop64.emb (ix2 (0 : Fin 1) j) 0) _ (by show 0 + 1 * 0 = 0; omega)]
    exact congrArg (A.ref) (Fin.ext (by show c0 + j.val = c0 + (0 + 1 * j.val); omega))

/-- Output window 17's buffer at `(r, j)` is the controller-output line with the plant output shifted in, at row `r` and column `c0 + j`. -/
theorem out17_apply (hB : BlockOf A c0 hc0 x0 x1 x2 x3 x4 x5 x6 x7 x8 x9 x10 x11 x12 x13) (y : S64x2048.Idx) :
    (out0_17 (F := Ideal) x0 x1 x2 x3 x4 x5 x6 x7 x8 x9 x10 x11 x12 x13 y : EReal) = outCo A (ix2 (y 0) (colOf c0 hc0 (y 1))) := by
  unfold out0_17
  refine View.canon_apply_of_pieces (Val := Elt Ideal) (S := S64x2048) (e := .f32) (fun y : S64x2048.Idx => outCo A (ix2 (y 0) (colOf c0 hc0 (y 1)))) _ ?_ y (cover64 _ _ y)
  intro p hp x
  simp only [List.mem_cons, List.mem_nil_iff, or_false] at hp
  rcases hp with rfl | rfl
  · -- rows 1 … 63: the old line's rows 0 … 62
    obtain ⟨r, j, rfl⟩ : ∃ (r : Fin 63) (j : Fin 2048), x = ix2 r j := ⟨x 0, x 1, eq_ix2 x⟩
    show k0_pay8 (View.ld x3 rAll64) (ix2 r j) = shiftIn (plantOut A) A.co (rRest64.emb (ix2 r j) 0) (colOf c0 hc0 (rRest64.emb (ix2 r j) 1))
    rw [View.ld_unit_zero (S := S64x2048) hz0, pay8_apply,
      shiftIn_succ (plantOut A) A.co (rRest64.emb (ix2 r j) 0) ⟨r.val, by have := r.isLt; omega⟩ _ (by show 1 + 1 * r.val = r.val + 1; omega),
      hB.h3]
    exact congrArg (A.co _) (Fin.ext (by show c0 + j.val = c0 + (0 + 1 * j.val); omega))
  · -- row 0: the new sample
    obtain ⟨r, j, rfl⟩ : ∃ (r : Fin 1) (j : Fin 2048), x = ix2 r j := ⟨x 0, x 1, eq_ix2 x⟩
    obtain rfl : r = 0 := Subsingleton.elim _ _
    show bodyY (F := Ideal) x1 x2 x3 x4 x5 x6 x7 x8 x9 x10 x11 x12 x13 (ix2 (0 : Fin 1) j) = shiftIn (plantOut A) A.co (rTop64.emb (ix2 (0 : Fin 1) j) 0) (colOf c0 hc0 (rTop64.emb (ix2 (0 : Fin 1) j) 1))
    rw [bodyY_apply hB j, shiftIn_zero (plantOut A) A.co (rTop64.emb (ix2 (0 : Fin 1) j) 0) _ (by show 0 + 1 * 0 = 0; omega)]
    exact congrArg (plantOut A) (Fin.ext (by show c0 + j.val = c0 + (0 + 1 * j.val); omega))

/-- Output window 18's buffer at `(r, j)` is the plant-input line with the controller output shifted in, at row `r` and column `c0 + j`. -/
theorem out18_apply (hB : BlockOf A c0 hc0 x0 x1 x2 x3 x4 x5 x6 x7 x8 x9 x10 x11 x12 x13) (y : S63x2048.Idx) :
    (out0_18 (F := Ideal) x0 x1 x2 x3 x4 x5 x6 x7 x8 x9 x10 x11 x12 x13 y : EReal) = outPi A (ix2 (y 0) (colOf c0 hc0 (y 1))) := by
  unfold out0_18
  refine View.canon_apply_of_pieces (Val := Elt Ideal) (S := S63x2048) (e := .f32) (fun y : S63x2048.Idx => outPi A (ix2 (y 0) (colOf c0 hc0 (y 1)))) _ ?_ y (cover63 _ _ y)
  intro p hp x
  simp only [List.mem_cons, List.mem_nil_iff, or_false] at hp
  rcases hp with rfl | rfl
  · -- rows 1 … 62: the old line's rows 0 … 61
    obtain ⟨r, j, rfl⟩ : ∃ (r : Fin 62) (j : Fin 2048), x = ix2 r j := ⟨x 0, x 1, eq_ix2 x⟩
    show k0_pay9 (View.ld x4 rAll63) (ix2 r j) = shiftIn (ctrlOut A) A.pi (rRest63.emb (ix2 r j) 0) (colOf c0 hc0 (rRest63.emb (ix2 r j) 1))
    rw [View.ld_unit_zero (S := S63x2048) hz0, pay9_apply,
      shiftIn_succ (ctrlOut A) A.pi (rRest63.emb (ix2 r j) 0) ⟨r.val, by have := r.isLt; omega⟩ _ (by show 1 + 1 * r.val = r.val + 1; omega),
      hB.h4]
    exact congrArg (A.pi _) (Fin.ext (by show c0 + j.val = c0 + (0 + 1 * j.val); omega))
  · -- row 0: the new sample
    obtain ⟨r, j, rfl⟩ : ∃ (r : Fin 1) (j : Fin 2048), x = ix2 r j := ⟨x 0, x 1, eq_ix2 x⟩
    obtain rfl : r = 0 := Subsingleton.elim _ _
    show bodyU (F := Ideal) x1 x2 x3 x6 x7 x8 x9 (ix2 (0 : Fin 1) j) = shiftIn (ctrlOut A) A.pi (rTop63.emb (ix2 (0 : Fin 1) j) 0) (colOf c0 hc0 (rTop63.emb (ix2 (0 : Fin 1) j) 1))
    rw [bodyU_apply hB j, shiftIn_zero (ctrlOut A) A.pi (rTop63.emb (ix2 (0 : Fin 1) j) 0) _ (by show 0 + 1 * 0 = 0; omega)]
    exact congrArg (ctrlOut A) (Fin.ext (by show c0 + j.val = c0 + (0 + 1 * j.val); omega))

/-- Output window 19's buffer at `(r, j)` is the plant-output line with the plant output shifted in, at row `r` and column `c0 + j`. -/
theorem out19_apply (hB : BlockOf A c0 hc0 x0 x1 x2 x3 x4 x5 x6 x7 x8 x9 x10 x11 x12 x13) (y : S64x2048.Idx) :
    (out0_19 (F := Ideal) x0 x1 x2 x3 x4 x5 x6 x7 x8 x9 x10 x11 x12 x13 y : EReal) = outPo A (ix2 (y 0) (colOf c0 hc0 (y 1))) := by
  unfold out0_19
  refine View.canon_apply_of_pieces (Val := Elt Ideal) (S := S64x2048) (e := .f32) (fun y : S64x2048.Idx => outPo A (ix2 (y 0) (colOf c0 hc0 (y 1)))) _ ?_ y (cover64 _ _ y)
  intro p hp x
  simp only [List.mem_cons, List.mem_nil_iff, or_false] at hp
  rcases hp with rfl | rfl
  · -- rows 1 … 63: the old line's rows 0 … 62
    obtain ⟨r, j, rfl⟩ : ∃ (r : Fin 63) (j : Fin 2048), x = ix2 r j := ⟨x 0, x 1, eq_ix2 x⟩
    show k0_pay1 (View.ld x5 rAll64) (ix2 r j) = shiftIn (plantOut A) A.po (rRest64.emb (ix2 r j) 0) (colOf c0 hc0 (rRest64.emb (ix2 r j) 1))
    rw [View.ld_unit_zero (S := S64x2048) hz0, pay1_apply,
      shiftIn_succ (plantOut A) A.po (rRest64.emb (ix2 r j) 0) ⟨r.val, by have := r.isLt; omega⟩ _ (by show 1 + 1 * r.val = r.val + 1; omega),
      hB.h5]
    exact congrArg (A.po _) (Fin.ext (by show c0 + j.val = c0 + (0 + 1 * j.val); omega))
  · -- row 0: the new sample
    obtain ⟨r, j, rfl⟩ : ∃ (r : Fin 1) (j : Fin 2048), x = ix2 r j := ⟨x 0, x 1, eq_ix2 x⟩
    obtain rfl : r = 0 := Subsingleton.elim _ _
    show bodyY (F := Ideal) x1 x2 x3 x4 x5 x6 x7 x8 x9 x10 x11 x12 x13 (ix2 (0 : Fin 1) j) = shiftIn (plantOut A) A.po (rTop64.emb (ix2 (0 : Fin 1) j) 0) (colOf c0 hc0 (rTop64.emb (ix2 (0 : Fin 1) j) 1))
    rw [bodyY_apply hB j, shiftIn_zero (plantOut A) A.po (rTop64.emb (ix2 (0 : Fin 1) j) 0) _ (by show 0 + 1 * 0 = 0; omega)]
    exact congrArg (plantOut A) (Fin.ext (by show c0 + j.val = c0 + (0 + 1 * j.val); omega))

end Cert.KernelIdeal.Val

end
-- ==== Proof.KernelIdealRun.lean ====
/-
  The run of `KernelIdeal`'s one region and its frame, at any float instance.

  The proof data of the pipeline: every window's array is what the region finds; after the body at grid point `t`
  an input's staging buffer still holds its block and an output's holds its stores over the point's input blocks
  (`dats`). The body's triple then gives the pipeline's obligation at every point (`body_obligation`), the launch
  theorem runs @main to the end — no fault, every weakly fair execution terminating — with every staged array at what
  the pipeline computes from the proof data and every other buffer as the region found it (`run_main`), and since no
  host operation and no write-back touches an argument array, each ends as launched (`frame`).
-/
import proofs.«176798_j42125039239689_2_alg».proof.Proof.KernelIdealBody

-- membership in rectangles of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 20, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, every weakly fair execution of @main terminates without a fault, every staged
    array ending at what the pipeline computes from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Frm

end
-- ==== Proof.KernelIdealBlocks.lean ====
/-
  The blocks of `KernelIdeal`'s windows as pieces of their arrays, at any float instance.

  The grid has eight points. At point `t` a delay line's window (and the reference row's, and every output's) is the
  block of all its rows and the 2048 columns `2048·t … 2048·t + 2047`; a weight, bias or output-weight window is its
  whole array at every point. So an input block read at row `r` and column `j` is its array — as the region finds
  it — at row `r` and column `2048·t + j`, or at `(r, j)` for a window that does not move.
-/
import proofs.«176798_j42125039239689_2_alg».proof.Proof.KernelIdealRun
import Idealize.ShloMosaic.Lib.Pipeline.Value
import Idealize.ShloMosaic.Lib.ValueIdx

-- membership in rectangles of these extents is decided structurally, one step per coordinate of the long axes
set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The zero offsets, however spelt. -/
theorem hz : (![0, 0] : Fin 2 → Nat) = fun _ => 0 := funext fun a => by fin_cases a <;> rfl

/-- The moving windows' block index at point `t` is `(0, t)`: decided over the eight points. -/
theorem idx_moving : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_14.index t (0 : Fin 2) = 0 ∧ win0_14.index t (1 : Fin 2) = t.val
    ∧ win0_15.index t (0 : Fin 2) = 0 ∧ win0_15.index t (1 : Fin 2) = t.val
    ∧ win0_16.index t (0 : Fin 2) = 0 ∧ win0_16.index t (1 : Fin 2) = t.val
    ∧ win0_17.index t (0 : Fin 2) = 0 ∧ win0_17.index t (1 : Fin 2) = t.val
    ∧ win0_18.index t (0 : Fin 2) = 0 ∧ win0_18.index t (1 : Fin 2) = t.val
    ∧ win0_19.index t (0 : Fin 2) = 0 ∧ win0_19.index t (1 : Fin 2) = t.val :=
  (by decide +kernel : ∀ t : Fin grid0.N, _)

/-- The other windows' block index is `(0, 0)` at every point. -/
theorem idx_fixed : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- Input window 0's block at point `t`, read at an index, is its array at the same row and column `2048·t + j`. -/
theorem iblk0_apply (c : Dev nD) (t : Fin cfg0.N) (x : S1x2048.Idx) (k : S1x16384.Idx)
    (hk0 : (k 0).val = (x 0).val) (hk1 : (k 1).val = 2048 * t.val + (x 1).val) :
    (iblk m c 0 t : Vec F S1x2048 .f32) x = (V m c main_arg0 : S1x16384.Idx → Elt F .f32) k := by
  have hi : win0_0.index t (0 : Fin 2) = 0 ∧ win0_0.index t (1 : Fin 2) = t.val := by
    have h := idx_moving t
    tauto
  unfold iblk
  rw [View.read_apply]
  show V m c main_arg0 _ = V m c main_arg0 _
  congr 1
  funext a
  apply Fin.ext
  match a with
  | ⟨0, _⟩ => show win0_0.index t (0 : Fin 2) * 1 + 1 * (x 0).val = (k 0).val; rw [hi.1, hk0]; omega
  | ⟨1, _⟩ => show win0_0.index t (1 : Fin 2) * 2048 + 1 * (x 1).val = (k 1).val; rw [hi.2, hk1]; omega

/-- Input window 1's block at point `t`, read at an index, is its array at the same row and column `2048·t + j`. -/
theorem iblk1_apply (c : Dev nD) (t : Fin cfg0.N) (x : S64x2048.Idx) (k : S64x16384.Idx)
    (hk0 : (k 0).val = (x 0).val) (hk1 : (k 1).val = 2048 * t.val + (x 1).val) :
    (iblk m c 1 t : Vec F S64x2048 .f32) x = (V m c main_arg1 : S64x16384.Idx → Elt F .f32) k := by
  have hi : win0_1.index t (0 : Fin 2) = 0 ∧ win0_1.index t (1 : Fin 2) = t.val := by
    have h := idx_moving t
    tauto
  unfold iblk
  rw [View.read_apply]
  show V m c main_arg1 _ = V m c main_arg1 _
  congr 1
  funext a
  apply Fin.ext
  match a with
  | ⟨0, _⟩ => show win0_1.index t (0 : Fin 2) * 64 + 1 * (x 0).val = (k 0).val; rw [hi.1, hk0]; omega
  | ⟨1, _⟩ => show win0_1.index t (1 : Fin 2) * 2048 + 1 * (x 1).val = (k 1).val; rw [hi.2, hk1]; omega

/-- Input window 2's block at point `t`, read at an index, is its array at the same row and column `2048·t + j`. -/
theorem iblk2_apply (c : Dev nD) (t : Fin cfg0.N) (x : S64x2048.Idx) (k : S64x16384.Idx)
    (hk0 : (k 0).val = (x 0).val) (hk1 : (k 1).val = 2048 * t.val + (x 1).val) :
    (iblk m c 2 t : Vec F S64x2048 .f32) x = (V m c main_arg2 : S64x16384.Idx → Elt F .f32) k := by
  have hi : win0_2.index t (0 : Fin 2) = 0 ∧ win0_2.index t (1 : Fin 2) = t.val := by
    have h := idx_moving t
    tauto
  unfold iblk
  rw [View.read_apply]
  show V m c main_arg2 _ = V m c main_arg2 _
  congr 1
  funext a
  apply Fin.ext
  match a with
  | ⟨0, _⟩ => show win0_2.index t (0 : Fin 2) * 64 + 1 * (x 0).val = (k 0).val; rw [hi.1, hk0]; omega
  | ⟨1, _⟩ => show win0_2.index t (1 : Fin 2) * 2048 + 1 * (x 1).val = (k 1).val; rw [hi.2, hk1]; omega

/-- Input window 3's block at point `t`, read at an index, is its array at the same row and column `2048·t + j`. -/
theorem iblk3_apply (c : Dev nD) (t : Fin cfg0.N) (x : S64x2048.Idx) (k : S64x16384.Idx)
    (hk0 : (k 0).val = (x 0).val) (hk1 : (k 1).val = 2048 * t.val + (x 1).val) :
    (iblk m c 3 t : Vec F S64x2048 .f32) x = (V m c main_arg3 : S64x16384.Idx → Elt F .f32) k := by
  have hi : win0_3.index t (0 : Fin 2) = 0 ∧ win0_3.index t (1 : Fin 2) = t.val := by
    have h := idx_moving t
    tauto
  unfold iblk
  rw [View.read_apply]
  show V m c main_arg3 _ = V m c main_arg3 _
  congr 1
  funext a
  apply Fin.ext
  match a with
  | ⟨0, _⟩ => show win0_3.index t (0 : Fin 2) * 64 + 1 * (x 0).val = (k 0).val; rw [hi.1, hk0]; omega
  | ⟨1, _⟩ => show win0_3.index t (1 : Fin 2) * 2048 + 1 * (x 1).val = (k 1).val; rw [hi.2, hk1]; omega

/-- Input window 4's block at point `t`, read at an index, is its array at the same row and column `2048·t + j`. -/
theorem iblk4_apply (c : Dev nD) (t : Fin cfg0.N) (x : S63x2048.Idx) (k : S63x16384.Idx)
    (hk0 : (k 0).val = (x 0).val) (hk1 : (k 1).val = 2048 * t.val + (x 1).val) :
    (iblk m c 4 t : Vec F S63x2048 .f32) x = (V m c main_arg4 : S63x16384.Idx → Elt F .f32) k := by
  have hi : win0_4.index t (0 : Fin 2) = 0 ∧ win0_4.index t (1 : Fin 2) = t.val := by
    have h := idx_moving t
    tauto
  unfold iblk
  rw [View.read_apply]
  show V m c main_arg4 _ = V m c main_arg4 _
  congr 1
  funext a
  apply Fin.ext
  match a with
  | ⟨0, _⟩ => show win0_4.index t (0 : Fin 2) * 63 + 1 * (x 0).val = (k 0).val; rw [hi.1, hk0]; omega
  | ⟨1, _⟩ => show win0_4.index t (1 : Fin 2) * 2048 + 1 * (x 1).val = (k 1).val; rw [hi.2, hk1]; omega

/-- Input window 5's block at point `t`, read at an index, is its array at the same row and column `2048·t + j`. -/
theorem iblk5_apply (c : Dev nD) (t : Fin cfg0.N) (x : S64x2048.Idx) (k : S64x16384.Idx)
    (hk0 : (k 0).val = (x 0).val) (hk1 : (k 1).val = 2048 * t.val + (x 1).val) :
    (iblk m c 5 t : Vec F S64x2048 .f32) x = (V m c main_arg5 : S64x16384.Idx → Elt F .f32) k := by
  have hi : win0_5.index t (0 : Fin 2) = 0 ∧ win0_5.index t (1 : Fin 2) = t.val := by
    have h := idx_moving t
    tauto
  unfold iblk
  rw [View.read_apply]
  show V m c main_arg5 _ = V m c main_arg5 _
  congr 1
  funext a
  apply Fin.ext
  match a with
  | ⟨0, _⟩ => show win0_5.index t (0 : Fin 2) * 64 + 1 * (x 0).val = (k 0).val; rw [hi.1, hk0]; omega
  | ⟨1, _⟩ => show win0_5.index t (1 : Fin 2) * 2048 + 1 * (x 1).val = (k 1).val; rw [hi.2, hk1]; omega

/-- Input window 6's block at point `t`, read at an index, is its array at the same index. -/
theorem iblk6_apply (c : Dev nD) (t : Fin cfg0.N) (x : S1024x192.Idx) (k : S1024x192.Idx)
    (hk0 : (k 0).val = (x 0).val) (hk1 : (k 1).val = (x 1).val) :
    (iblk m c 6 t : Vec F S1024x192 .bf16) x = (V m c main_v1 : S1024x192.Idx → Elt F .bf16) k := by
  have hi : win0_6.index t (0 : Fin 2) = 0 ∧ win0_6.index t (1 : Fin 2) = 0 := by
    have h := idx_fixed t
    tauto
  unfold iblk
  rw [View.read_apply]
  show V m c main_v1 _ = V m c main_v1 _
  congr 1
  funext a
  apply Fin.ext
  match a with
  | ⟨0, _⟩ => show win0_6.index t (0 : Fin 2) * 1024 + 1 * (x 0).val = (k 0).val; rw [hi.1, hk0]; omega
  | ⟨1, _⟩ => show win0_6.index t (1 : Fin 2) * 192 + 1 * (x 1).val = (k 1).val; rw [hi.2, hk1]; omega

/-- Input window 7's block at point `t`, read at an index, is its array at the same index. -/
theorem iblk7_apply (c : Dev nD) (t : Fin cfg0.N) (x : S1024x1.Idx) (k : S1024x1.Idx)
    (hk0 : (k 0).val = (x 0).val) (hk1 : (k 1).val = (x 1).val) :
    (iblk m c 7 t : Vec F S1024x1 .f32) x = (V m c main_arg9 : S1024x1.Idx → Elt F .f32) k := by
  have hi : win0_7.index t (0 : Fin 2) = 0 ∧ win0_7.index t (1 : Fin 2) = 0 := by
    have h := idx_fixed t
    tauto
  unfold iblk
  rw [View.read_apply]
  show V m c main_arg9 _ = V m c main_arg9 _
  congr 1
  funext a
  apply Fin.ext
  match a with
  | ⟨0, _⟩ => show win0_7.index t (0 : Fin 2) * 1024 + 1 * (x 0).val = (k 0).val; rw [hi.1, hk0]; omega
  | ⟨1, _⟩ => show win0_7.index t (1 : Fin 2) * 1 + 1 * (x 1).val = (k 1).val; rw [hi.2, hk1]; omega

/-- Input window 8's block at point `t`, read at an index, is its array at the same index. -/
theorem iblk8_apply (c : Dev nD) (t : Fin cfg0.N) (x : S1024x1.Idx) (k : S1024x1.Idx)
    (hk0 : (k 0).val = (x 0).val) (hk1 : (k 1).val = (x 1).val) :
    (iblk m c 8 t : Vec F S1024x1 .f32) x = (V m c main_v4 : S1024x1.Idx → Elt F .f32) k := by
  have hi : win0_8.index t (0 : Fin 2) = 0 ∧ win0_8.index t (1 : Fin 2) = 0 := by
    have h := idx_fixed t
    tauto
  unfold iblk
  rw [View.read_apply]
  show V m c main_v4 _ = V m c main_v4 _
  congr 1
  funext a
  apply Fin.ext
  match a with
  | ⟨0, _⟩ => show win0_8.index t (0 : Fin 2) * 1024 + 1 * (x 0).val = (k 0).val; rw [hi.1, hk0]; omega
  | ⟨1, _⟩ => show win0_8.index t (1 : Fin 2) * 1 + 1 * (x 1).val = (k 1).val; rw [hi.2, hk1]; omega

/-- Input window 9's block at point `t`, read at an index, is its array at the same index. -/
theorem iblk9_apply (c : Dev nD) (t : Fin cfg0.N) (x : S1x1.Idx) (k : S1x1.Idx)
    (hk0 : (k 0).val = (x 0).val) (hk1 : (k 1).val = (x 1).val) :
    (iblk m c 9 t : Vec F S1x1 .f32) x = (V m c main_arg11 : S1x1.Idx → Elt F .f32) k := by
  have hi : win0_9.index t (0 : Fin 2) = 0 ∧ win0_9.index t (1 : Fin 2) = 0 := by
    have h := idx_fixed t
    tauto
  unfold iblk
  rw [View.read_apply]
  show V m c main_arg11 _ = V m c main_arg11 _
  congr 1
  funext a
  apply Fin.ext
  match a with
  | ⟨0, _⟩ => show win0_9.index t (0 : Fin 2) * 1 + 1 * (x 0).val = (k 0).val; rw [hi.1, hk0]; omega
  | ⟨1, _⟩ => show win0_9.index t (1 : Fin 2) * 1 + 1 * (x 1).val = (k 1).val; rw [hi.2, hk1]; omega

/-- Input window 10's block at point `t`, read at an index, is its array at the same index. -/
theorem iblk10_apply (c : Dev nD) (t : Fin cfg0.N) (x : S1024x128.Idx) (k : S1024x128.Idx)
    (hk0 : (k 0).val = (x 0).val) (hk1 : (k 1).val = (x 1).val) :
    (iblk m c 10 t : Vec F S1024x128 .bf16) x = (V m c main_v3 : S1024x128.Idx → Elt F .bf16) k := by
  have hi : win0_10.index t (0 : Fin 2) = 0 ∧ win0_10.index t (1 : Fin 2) = 0 := by
    have h := idx_fixed t
    tauto
  unfold iblk
  rw [View.read_apply]
  show V m c main_v3 _ = V m c main_v3 _
  congr 1
  funext a
  apply Fin.ext
  match a with
  | ⟨0, _⟩ => show win0_10.index t (0 : Fin 2) * 1024 + 1 * (x 0).val = (k 0).val; rw [hi.1, hk0]; omega
  | ⟨1, _⟩ => show win0_10.index t (1 : Fin 2) * 128 + 1 * (x 1).val = (k 1).val; rw [hi.2, hk1]; omega

/-- Input window 11's block at point `t`, read at an index, is its array at the same index. -/
theorem iblk11_apply (c : Dev nD) (t : Fin cfg0.N) (x : S1024x1.Idx) (k : S1024x1.Idx)
    (hk0 : (k 0).val = (x 0).val) (hk1 : (k 1).val = (x 1).val) :
    (iblk m c 11 t : Vec F S1024x1 .f32) x = (V m c main_arg14 : S1024x1.Idx → Elt F .f32) k := by
  have hi : win0_11.index t (0 : Fin 2) = 0 ∧ win0_11.index t (1 : Fin 2) = 0 := by
    have h := idx_fixed t
    tauto
  unfold iblk
  rw [View.read_apply]
  show V m c main_arg14 _ = V m c main_arg14 _
  congr 1
  funext a
  apply Fin.ext
  match a with
  | ⟨0, _⟩ => show win0_11.index t (0 : Fin 2) * 1024 + 1 * (x 0).val = (k 0).val; rw [hi.1, hk0]; omega
  | ⟨1, _⟩ => show win0_11.index t (1 : Fin 2) * 1 + 1 * (x 1).val = (k 1).val; rw [hi.2, hk1]; omega

/-- Input window 12's block at point `t`, read at an index, is its array at the same index. -/
theorem iblk12_apply (c : Dev nD) (t : Fin cfg0.N) (x : S1024x1.Idx) (k : S1024x1.Idx)
    (hk0 : (k 0).val = (x 0).val) (hk1 : (k 1).val = (x 1).val) :
    (iblk m c 12 t : Vec F S1024x1 .f32) x = (V m c main_v5 : S1024x1.Idx → Elt F .f32) k := by
  have hi : win0_12.index t (0 : Fin 2) = 0 ∧ win0_12.index t (1 : Fin 2) = 0 := by
    have h := idx_fixed t
    tauto
  unfold iblk
  rw [View.read_apply]
  show V m c main_v5 _ = V m c main_v5 _
  congr 1
  funext a
  apply Fin.ext
  match a with
  | ⟨0, _⟩ => show win0_12.index t (0 : Fin 2) * 1024 + 1 * (x 0).val = (k 0).val; rw [hi.1, hk0]; omega
  | ⟨1, _⟩ => show win0_12.index t (1 : Fin 2) * 1 + 1 * (x 1).val = (k 1).val; rw [hi.2, hk1]; omega

/-- Input window 13's block at point `t`, read at an index, is its array at the same index. -/
theorem iblk13_apply (c : Dev nD) (t : Fin cfg0.N) (x : S1x1.Idx) (k : S1x1.Idx)
    (hk0 : (k 0).val = (x 0).val) (hk1 : (k 1).val = (x 1).val) :
    (iblk m c 13 t : Vec F S1x1 .f32) x = (V m c main_arg16 : S1x1.Idx → Elt F .f32) k := by
  have hi : win0_13.index t (0 : Fin 2) = 0 ∧ win0_13.index t (1 : Fin 2) = 0 := by
    have h := idx_fixed t
    tauto
  unfold iblk
  rw [View.read_apply]
  show V m c main_arg16 _ = V m c main_arg16 _
  congr 1
  funext a
  apply Fin.ext
  match a with
  | ⟨0, _⟩ => show win0_13.index t (0 : Fin 2) * 1 + 1 * (x 0).val = (k 0).val; rw [hi.1, hk0]; omega
  | ⟨1, _⟩ => show win0_13.index t (1 : Fin 2) * 1 + 1 * (x 1).val = (k 1).val; rw [hi.2, hk1]; omega

end Cert.KernelIdeal.Val

end
-- ==== Proof.KernelIdealPrefix.lean ====
/-
  What the region of `KernelIdeal` finds in the four buffers @main computes before it, on the extended reals.

  The joined controller weights `[1024, 192]` are the three controller weight matrices side by side — columns
  0 … 63 the input-line weights, 64 … 127 the reference-line weights, 128 … 191 the output-line weights — and the
  narrowing that follows is the identity on the extended reals. The joined plant weights `[1024, 128]` are the two
  plant weight matrices side by side the same way. The two output weight columns `[1024, 1]` are the output weight
  rows `[1, 1024]` transposed: entry `(h, 0)` of the column is entry `(0, h)` of the row.
-/
import proofs.«176798_j42125039239689_2_alg».proof.Proof.KernelIdealBlocks
import Idealize.ShloMosaic.Lib.StableHlo.Run
import Idealize.ShloMosaic.Lib.ValueLayout

-- membership in rectangles of these extents is decided structurally, one step per coordinate of the long axes
set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The joined controller weights as the region finds them: the three matrices side by side, narrowed. -/
theorem V_v1_eq (c : Dev nD) : (V m c main_v1 : S1024x192.Idx → EReal)
    = (truncf (F := Ideal) .bf16 (concatenate S1024x192 1 [⟨S1024x64, (m ((c : Thread nD τ).loc main_arg6) : S1024x64.Idx → EReal)⟩, ⟨S1024x64, (m ((c : Thread nD τ).loc main_arg7) : S1024x64.Idx → EReal)⟩, ⟨S1024x64, (m ((c : Thread nD τ).loc main_arg8) : S1024x64.Idx → EReal)⟩]
        concatenates_S1024x64_S1024x64_S1024x64_S1024x192_d1 : FVec Ideal S1024x192 .f32) bitsLt_bf16_f32 : S1024x192.Idx → EReal) := by
  dsimp only [V, hostOps0]; after_results; try rfl

/-- The joined plant weights as the region finds them. -/
theorem V_v3_eq (c : Dev nD) : (V m c main_v3 : S1024x128.Idx → EReal)
    = (truncf (F := Ideal) .bf16 (concatenate S1024x128 1 [⟨S1024x64, (m ((c : Thread nD τ).loc main_arg12) : S1024x64.Idx → EReal)⟩, ⟨S1024x64, (m ((c : Thread nD τ).loc main_arg13) : S1024x64.Idx → EReal)⟩]
        concatenates_S1024x64_S1024x64_S1024x128_d1 : FVec Ideal S1024x128 .f32) bitsLt_bf16_f32 : S1024x128.Idx → EReal) := by
  dsimp only [V, hostOps0]; after_results; try rfl

/-- The controller's output weight column: the weight row transposed. -/
theorem V_v4_eq (c : Dev nD) : (V m c main_v4 : S1024x1.Idx → EReal)
    = transpose S1024x1 [1, 0] (m ((c : Thread nD τ).loc main_arg10) : S1x1024.Idx → EReal) transposes_S1x1024_S1024x1_1_0 := by
  dsimp only [V, hostOps0]; after_results; try rfl

/-- The plant's output weight column: the weight row transposed. -/
theorem V_v5_eq (c : Dev nD) : (V m c main_v5 : S1024x1.Idx → EReal)
    = transpose S1024x1 [1, 0] (m ((c : Thread nD τ).loc main_arg15) : S1x1024.Idx → EReal) transposes_S1x1024_S1024x1_1_0 := by
  dsimp only [V, hostOps0]; after_results; try rfl

/-- Entry `(h, k)` of the joined controller weights: the matrix whose 64 columns hold `k`, at column `k` less its
    offset. -/
theorem V_v1_apply (c : Dev nD) (h : Fin 1024) (k : Fin 192) :
    (V m c main_v1 : S1024x192.Idx → EReal) (ix2 h k)
      = if hk : k.val < 64 then (m ((c : Thread nD τ).loc main_arg6) : S1024x64.Idx → EReal) (ix2 h ⟨k.val, hk⟩)
        else if hk2 : k.val < 128 then (m ((c : Thread nD τ).loc main_arg7) : S1024x64.Idx → EReal) (ix2 h ⟨k.val - 64, by omega⟩)
        else (m ((c : Thread nD τ).loc main_arg8) : S1024x64.Idx → EReal) (ix2 h ⟨k.val - 128, by have := k.isLt; omega⟩) := by
  rw [V_v1_eq, truncf_apply]
  split_ifs with hk hk2
  · refine concatenate_apply_piece (1 : Fin 2) _ _ (ix2 h k) 0 ?_ S1024x64 (m ((c : Thread nD τ).loc main_arg6) : S1024x64.Idx → EReal) ?_ rfl 0 ?_ (ix2 h ⟨k.val, hk⟩) ?_ ?_
    · simp
    · rfl
    · rfl
    · intro b hb; match b with | ⟨0, _⟩ => rfl | ⟨1, _⟩ => exact absurd rfl hb
    · show 0 + (k.val) = k.val; omega
  · refine concatenate_apply_piece (1 : Fin 2) _ _ (ix2 h k) 1 ?_ S1024x64 (m ((c : Thread nD τ).loc main_arg7) : S1024x64.Idx → EReal) ?_ rfl 64 ?_ (ix2 h ⟨k.val - 64, by omega⟩) ?_ ?_
    · simp
    · rfl
    · rfl
    · intro b hb; match b with | ⟨0, _⟩ => rfl | ⟨1, _⟩ => exact absurd rfl hb
    · show 64 + (k.val - 64) = k.val; omega
  · refine concatenate_apply_piece (1 : Fin 2) _ _ (ix2 h k) 2 ?_ S1024x64 (m ((c : Thread nD τ).loc main_arg8) : S1024x64.Idx → EReal) ?_ rfl 128 ?_ (ix2 h ⟨k.val - 128, by have := k.isLt; omega⟩) ?_ ?_
    · simp
    · rfl
    · rfl
    · intro b hb; match b with | ⟨0, _⟩ => rfl | ⟨1, _⟩ => exact absurd rfl hb
    · show 128 + (k.val - 128) = k.val; omega

/-- Entry `(h, k)` of the joined plant weights. -/
theorem V_v3_apply (c : Dev nD) (h : Fin 1024) (k : Fin 128) :
    (V m c main_v3 : S1024x128.Idx → EReal) (ix2 h k)
      = if hk : k.val < 64 then (m ((c : Thread nD τ).loc main_arg12) : S1024x64.Idx → EReal) (ix2 h ⟨k.val, hk⟩)
        else (m ((c : Thread nD τ).loc main_arg13) : S1024x64.Idx → EReal) (ix2 h ⟨k.val - 64, by have := k.isLt; omega⟩) := by
  rw [V_v3_eq, truncf_apply]
  split_ifs with hk
  · refine concatenate_apply_piece (1 : Fin 2) _ _ (ix2 h k) 0 ?_ S1024x64 (m ((c : Thread nD τ).loc main_arg12) : S1024x64.Idx → EReal) ?_ rfl 0 ?_ (ix2 h ⟨k.val, hk⟩) ?_ ?_
    · simp
    · rfl
    · rfl
    · intro b hb; match b with | ⟨0, _⟩ => rfl | ⟨1, _⟩ => exact absurd rfl hb
    · show 0 + (k.val) = k.val; omega
  · refine concatenate_apply_piece (1 : Fin 2) _ _ (ix2 h k) 1 ?_ S1024x64 (m ((c : Thread nD τ).loc main_arg13) : S1024x64.Idx → EReal) ?_ rfl 64 ?_ (ix2 h ⟨k.val - 64, by have := k.isLt; omega⟩) ?_ ?_
    · simp
    · rfl
    · rfl
    · intro b hb; match b with | ⟨0, _⟩ => rfl | ⟨1, _⟩ => exact absurd rfl hb
    · show 64 + (k.val - 64) = k.val; omega

/-- Entry `(h, 0)` of the controller's output weight column is entry `(0, h)` of the weight row. -/
theorem V_v4_apply (c : Dev nD) (h : Fin 1024) :
    (V m c main_v4 : S1024x1.Idx → EReal) (ix2 h (0 : Fin 1)) = (m ((c : Thread nD τ).loc main_arg10) : S1x1024.Idx → EReal) (ix2 (0 : Fin 1) h) := by
  rw [V_v4_eq]; exact transpose_ix2_apply _ _ h 0

/-- Entry `(h, 0)` of the plant's output weight column is entry `(0, h)` of the weight row. -/
theorem V_v5_apply (c : Dev nD) (h : Fin 1024) :
    (V m c main_v5 : S1024x1.Idx → EReal) (ix2 h (0 : Fin 1)) = (m ((c : Thread nD τ).loc main_arg15) : S1x1024.Idx → EReal) (ix2 (0 : Fin 1) h) := by
  rw [V_v5_eq]; exact transpose_ix2_apply _ _ h 0

end Cert.KernelIdeal.Val

end
-- ==== Proof.KernelIdealOutputs.lean ====
/-
  The result arrays of `KernelIdeal` after its run, on the extended reals.

  At grid point `t` the fourteen input buffers hold the block of columns `2048·t … 2048·t + 2047` of the argument
  arrays (`blockOf_iblk`), so what the point writes back to each result array is that block of the specification's
  array (`flushedW_eq`). The eight points' blocks cover every column of a result array — column `b` lies in the block
  of point `b / 2048` — so after the run each result array IS the specification's array of the arguments
  (`finalW`), and the run can be stated with those six equations and the arguments unchanged (`run`).
-/
import proofs.«176798_j42125039239689_2_alg».proof.Proof.KernelIdealPieces
import proofs.«176798_j42125039239689_2_alg».proof.Proof.KernelIdealPrefix

-- membership in rectangles of these extents is decided structurally, one step per coordinate of the long axes
set_option maxRecDepth 16384

noncomputable section

namespace Cert.KernelIdeal.Val

open Cert.KernelIdeal Cert.KernelIdeal.Gen Cert.KernelIdeal.Frm Cert.CellSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The seventeen argument arrays on core `c`, by coordinates. -/
abbrev A (c : Dev nD) : Args :=
  argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The grid has eight points, so every point's block of 2048 columns lies inside the 16384 columns. -/
theorem hcol (t : Fin cfg0.N) : 2048 * t.val + 2048 ≤ 16384 := by
  have h8 : cfg0.N = 8 := N_0
  have := t.isLt
  omega

/-- At point `t` the input buffers hold the block of columns from `2048·t` of the arguments. -/
theorem blockOf_iblk (c : Dev nD) (t : Fin cfg0.N) : BlockOf (A m c) (2048 * t.val) (hcol t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  h0 j := by rw [iblk0_apply m c t (ix2 (0 : Fin 1) j) (ix2 (0 : Fin 1) (colOf (2048 * t.val) (hcol t) j)) rfl rfl, V_main_arg0]; rfl
  h1 k j := by rw [iblk1_apply m c t (ix2 k j) (ix2 k (colOf (2048 * t.val) (hcol t) j)) rfl rfl, V_main_arg1]; rfl
  h2 k j := by rw [iblk2_apply m c t (ix2 k j) (ix2 k (colOf (2048 * t.val) (hcol t) j)) rfl rfl, V_main_arg2]; rfl
  h3 k j := by rw [iblk3_apply m c t (ix2 k j) (ix2 k (colOf (2048 * t.val) (hcol t) j)) rfl rfl, V_main_arg3]; rfl
  h4 k j := by rw [iblk4_apply m c t (ix2 k j) (ix2 k (colOf (2048 * t.val) (hcol t) j)) rfl rfl, V_main_arg4]; rfl
  h5 k j := by rw [iblk5_apply m c t (ix2 k j) (ix2 k (colOf (2048 * t.val) (hcol t) j)) rfl rfl, V_main_arg5]; rfl
  h6 h k := by rw [iblk6_apply m c t (ix2 h k) (ix2 h k) rfl rfl]; exact V_v1_apply m c h k
  h7 h := by rw [iblk7_apply m c t (ix2 h (0 : Fin 1)) (ix2 h (0 : Fin 1)) rfl rfl, V_main_arg9]; rfl
  h8 h := by rw [iblk8_apply m c t (ix2 h (0 : Fin 1)) (ix2 h (0 : Fin 1)) rfl rfl]; exact V_v4_apply m c h
  h9 := by rw [iblk9_apply m c t (ix2 (0 : Fin 1) (0 : Fin 1)) (ix2 (0 : Fin 1) (0 : Fin 1)) rfl rfl, V_main_arg11]; rfl
  h10 h k := by rw [iblk10_apply m c t (ix2 h k) (ix2 h k) rfl rfl]; exact V_v3_apply m c h k
  h11 h := by rw [iblk11_apply m c t (ix2 h (0 : Fin 1)) (ix2 h (0 : Fin 1)) rfl rfl, V_main_arg14]; rfl
  h12 h := by rw [iblk12_apply m c t (ix2 h (0 : Fin 1)) (ix2 h (0 : Fin 1)) rfl rfl]; exact V_v5_apply m c h
  h13 := by rw [iblk13_apply m c t (ix2 (0 : Fin 1) (0 : Fin 1)) (ix2 (0 : Fin 1) (0 : Fin 1)) rfl rfl, V_main_arg16]; rfl

/-- A moving window's block index at point `t`, for one window. -/
theorem idx_of (t : Fin cfg0.N) :
    (win0_14.index t (0 : Fin 2) = 0 ∧ win0_14.index t (1 : Fin 2) = t.val)
    ∧ (win0_15.index t (0 : Fin 2) = 0 ∧ win0_15.index t (1 : Fin 2) = t.val)
    ∧ (win0_16.index t (0 : Fin 2) = 0 ∧ win0_16.index t (1 : Fin 2) = t.val)
    ∧ (win0_17.index t (0 : Fin 2) = 0 ∧ win0_17.index t (1 : Fin 2) = t.val)
    ∧ (win0_18.index t (0 : Fin 2) = 0 ∧ win0_18.index t (1 : Fin 2) = t.val)
    ∧ (win0_19.index t (0 : Fin 2) = 0 ∧ win0_19.index t (1 : Fin 2) = t.val) := by
  have h := idx_moving t
  tauto

/-! ## Result array 0 (window 14) -/

/-- What point `t` writes back is block `t` of the specification's array. -/
theorem flushed14_eq (c : Dev nD) (t : Fin cfg0.N) :
    (dats m 0 c).flushed 14 t = ((cfg0.win 14).blk t).view.read (Elt Ideal) (outY (A m c)) := by
  show (cfg0.win 14).cut (grid0.coords t) ((dats m 0 c).after 14 t) = _
  rw [after0_14]
  funext y
  show (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y : EReal) = outY (A m c) (((cfg0.win 14).blk t).view.emb y)
  rw [out14_apply (blockOf_iblk m c t) y]
  have hi : win0_14.index t (0 : Fin 2) = 0 ∧ win0_14.index t (1 : Fin 2) = t.val := (idx_of t).1
  refine congrArg (outY (A m c)) (funext fun a => Fin.ext ?_)
  match a with
  | ⟨0, _⟩ => show (y 0).val = win0_14.index t (0 : Fin 2) * 1 + 1 * (y 0).val; rw [hi.1]; omega
  | ⟨1, _⟩ => show 2048 * t.val + (y 1).val = win0_14.index t (1 : Fin 2) * 2048 + 1 * (y 1).val; rw [hi.2]; omega

/-- An index of the array is in point `t`'s block iff each coordinate is in the block's range on its axis. -/
theorem mem_blk14 (t : Fin cfg0.N) (i : S1x16384.Idx) :
    i ∈ ((cfg0.win 14).blk t).view.set ↔ ∀ a : Fin 2, win0_14.index t a * S1x2048.size a ≤ (i a).val ∧ (i a).val < win0_14.index t a * S1x2048.size a + S1x2048.size a := by
  show i ∈ ((View.whole main_v6_0).slice (win0_14.rect t)).set ↔ _
  rw [View.set_slice_whole, Rect.mem_set_unit]
  exact Iff.rfl

/-- Every index of the array is in the block of the point its column names. -/
theorem cover14 (i : S1x16384.Idx) : ∃ t : Fin cfg0.N, (cfg0.win 14).flush t = true ∧ i ∈ ((cfg0.win 14).blk t).view.set := by
  have h8 : cfg0.N = 8 := N_0
  have hi0 : (i 0).val < 1 := (i 0).isLt
  have hi1 : (i 1).val < 16384 := (i 1).isLt
  let t : Fin cfg0.N := ⟨(i 1).val / 2048, by rw [h8]; omega⟩
  have hi : win0_14.index t (0 : Fin 2) = 0 ∧ win0_14.index t (1 : Fin 2) = t.val := (idx_of t).1
  have ht : t.val = (i 1).val / 2048 := rfl
  refine ⟨t, flush0_14 t, ?_⟩
  rw [mem_blk14]
  intro a
  match a with
  | ⟨0, _⟩ => show win0_14.index t (0 : Fin 2) * 1 ≤ (i 0).val ∧ (i 0).val < win0_14.index t (0 : Fin 2) * 1 + 1; rw [hi.1]; omega
  | ⟨1, _⟩ => show win0_14.index t (1 : Fin 2) * 2048 ≤ (i 1).val ∧ (i 1).val < win0_14.index t (1 : Fin 2) * 2048 + 2048; rw [hi.2, ht]; omega

/-- After the run the array is the specification's array of the arguments. -/
theorem final14 (c : Dev nD) : (dats m 0 c).arrAt 14 cfg0.N = outY (A m c) :=
  (dats m 0 c).arrAt_eq_of_cover 14 (outY (A m c)) (fun t _ => flushed14_eq m c t) (cover14)

/-! ## Result array 1 (window 15) -/

/-- What point `t` writes back is block `t` of the specification's array. -/
theorem flushed15_eq (c : Dev nD) (t : Fin cfg0.N) :
    (dats m 0 c).flushed 15 t = ((cfg0.win 15).blk t).view.read (Elt Ideal) (outCi (A m c)) := by
  show (cfg0.win 15).cut (grid0.coords t) ((dats m 0 c).after 15 t) = _
  rw [after0_15]
  funext y
  show (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y : EReal) = outCi (A m c) (((cfg0.win 15).blk t).view.emb y)
  rw [out15_apply (blockOf_iblk m c t) y]
  have hi : win0_15.index t (0 : Fin 2) = 0 ∧ win0_15.index t (1 : Fin 2) = t.val := (idx_of t).2.1
  refine congrArg (outCi (A m c)) (funext fun a => Fin.ext ?_)
  match a with
  | ⟨0, _⟩ => show (y 0).val = win0_15.index t (0 : Fin 2) * 64 + 1 * (y 0).val; rw [hi.1]; omega
  | ⟨1, _⟩ => show 2048 * t.val + (y 1).val = win0_15.index t (1 : Fin 2) * 2048 + 1 * (y 1).val; rw [hi.2]; omega

/-- An index of the array is in point `t`'s block iff each coordinate is in the block's range on its axis. -/
theorem mem_blk15 (t : Fin cfg0.N) (i : S64x16384.Idx) :
    i ∈ ((cfg0.win 15).blk t).view.set ↔ ∀ a : Fin 2, win0_15.index t a * S64x2048.size a ≤ (i a).val ∧ (i a).val < win0_15.index t a * S64x2048.size a + S64x2048.size a := by
  show i ∈ ((View.whole main_v6_1).slice (win0_15.rect t)).set ↔ _
  rw [View.set_slice_whole, Rect.mem_set_unit]
  exact Iff.rfl

/-- Every index of the array is in the block of the point its column names. -/
theorem cover15 (i : S64x16384.Idx) : ∃ t : Fin cfg0.N, (cfg0.win 15).flush t = true ∧ i ∈ ((cfg0.win 15).blk t).view.set := by
  have h8 : cfg0.N = 8 := N_0
  have hi0 : (i 0).val < 64 := (i 0).isLt
  have hi1 : (i 1).val < 16384 := (i 1).isLt
  let t : Fin cfg0.N := ⟨(i 1).val / 2048, by rw [h8]; omega⟩
  have hi : win0_15.index t (0 : Fin 2) = 0 ∧ win0_15.index t (1 : Fin 2) = t.val := (idx_of t).2.1
  have ht : t.val = (i 1).val / 2048 := rfl
  refine ⟨t, flush0_15 t, ?_⟩
  rw [mem_blk15]
  intro a
  match a with
  | ⟨0, _⟩ => show win0_15.index t (0 : Fin 2) * 64 ≤ (i 0).val ∧ (i 0).val < win0_15.index t (0 : Fin 2) * 64 + 64; rw [hi.1]; omega
  | ⟨1, _⟩ => show win0_15.index t (1 : Fin 2) * 2048 ≤ (i 1).val ∧ (i 1).val < win0_15.index t (1 : Fin 2) * 2048 + 2048; rw [hi.2, ht]; omega

/-- After the run the array is the specification's array of the arguments. -/
theorem final15 (c : Dev nD) : (dats m 0 c).arrAt 15 cfg0.N = outCi (A m c) :=
  (dats m 0 c).arrAt_eq_of_cover 15 (outCi (A m c)) (fun t _ => flushed15_eq m c t) (cover15)

/-! ## Result array 2 (window 16) -/

/-- What point `t` writes back is block `t` of the specification's array. -/
theorem flushed16_eq (c : Dev nD) (t : Fin cfg0.N) :
    (dats m 0 c).flushed 16 t = ((cfg0.win 16).blk t).view.read (Elt Ideal) (outCr (A m c)) := by
  show (cfg0.win 16).cut (grid0.coords t) ((dats m 0 c).after 16 t) = _
  rw [after0_16]
  funext y
  show (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y : EReal) = outCr (A m c) (((cfg0.win 16).blk t).view.emb y)
  rw [out16_apply (blockOf_iblk m c t) y]
  have hi : win0_16.index t (0 : Fin 2) = 0 ∧ win0_16.index t (1 : Fin 2) = t.val := (idx_of t).2.2.1
  refine congrArg (outCr (A m c)) (funext fun a => Fin.ext ?_)
  match a with
  | ⟨0, _⟩ => show (y 0).val = win0_16.index t (0 : Fin 2) * 64 + 1 * (y 0).val; rw [hi.1]; omega
  | ⟨1, _⟩ => show 2048 * t.val + (y 1).val = win0_16.index t (1 : Fin 2) * 2048 + 1 * (y 1).val; rw [hi.2]; omega

/-- An index of the array is in point `t`'s block iff each coordinate is in the block's range on its axis. -/
theorem mem_blk16 (t : Fin cfg0.N) (i : S64x16384.Idx) :
    i ∈ ((cfg0.win 16).blk t).view.set ↔ ∀ a : Fin 2, win0_16.index t a * S64x2048.size a ≤ (i a).val ∧ (i a).val < win0_16.index t a * S64x2048.size a + S64x2048.size a := by
  show i ∈ ((View.whole main_v6_2).slice (win0_16.rect t)).set ↔ _
  rw [View.set_slice_whole, Rect.mem_set_unit]
  exact Iff.rfl

/-- Every index of the array is in the block of the point its column names. -/
theorem cover16 (i : S64x16384.Idx) : ∃ t : Fin cfg0.N, (cfg0.win 16).flush t = true ∧ i ∈ ((cfg0.win 16).blk t).view.set := by
  have h8 : cfg0.N = 8 := N_0
  have hi0 : (i 0).val < 64 := (i 0).isLt
  have hi1 : (i 1).val < 16384 := (i 1).isLt
  let t : Fin cfg0.N := ⟨(i 1).val / 2048, by rw [h8]; omega⟩
  have hi : win0_16.index t (0 : Fin 2) = 0 ∧ win0_16.index t (1 : Fin 2) = t.val := (idx_of t).2.2.1
  have ht : t.val = (i 1).val / 2048 := rfl
  refine ⟨t, flush0_16 t, ?_⟩
  rw [mem_blk16]
  intro a
  match a with
  | ⟨0, _⟩ => show win0_16.index t (0 : Fin 2) * 64 ≤ (i 0).val ∧ (i 0).val < win0_16.index t (0 : Fin 2) * 64 + 64; rw [hi.1]; omega
  | ⟨1, _⟩ => show win0_16.index t (1 : Fin 2) * 2048 ≤ (i 1).val ∧ (i 1).val < win0_16.index t (1 : Fin 2) * 2048 + 2048; rw [hi.2, ht]; omega

/-- After the run the array is the specification's array of the arguments. -/
theorem final16 (c : Dev nD) : (dats m 0 c).arrAt 16 cfg0.N = outCr (A m c) :=
  (dats m 0 c).arrAt_eq_of_cover 16 (outCr (A m c)) (fun t _ => flushed16_eq m c t) (cover16)

/-! ## Result array 3 (window 17) -/

/-- What point `t` writes back is block `t` of the specification's array. -/
theorem flushed17_eq (c : Dev nD) (t : Fin cfg0.N) :
    (dats m 0 c).flushed 17 t = ((cfg0.win 17).blk t).view.read (Elt Ideal) (outCo (A m c)) := by
  show (cfg0.win 17).cut (grid0.coords t) ((dats m 0 c).after 17 t) = _
  rw [after0_17]
  funext y
  show (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y : EReal) = outCo (A m c) (((cfg0.win 17).blk t).view.emb y)
  rw [out17_apply (blockOf_iblk m c t) y]
  have hi : win0_17.index t (0 : Fin 2) = 0 ∧ win0_17.index t (1 : Fin 2) = t.val := (idx_of t).2.2.2.1
  refine congrArg (outCo (A m c)) (funext fun a => Fin.ext ?_)
  match a with
  | ⟨0, _⟩ => show (y 0).val = win0_17.index t (0 : Fin 2) * 64 + 1 * (y 0).val; rw [hi.1]; omega
  | ⟨1, _⟩ => show 2048 * t.val + (y 1).val = win0_17.index t (1 : Fin 2) * 2048 + 1 * (y 1).val; rw [hi.2]; omega

/-- An index of the array is in point `t`'s block iff each coordinate is in the block's range on its axis. -/
theorem mem_blk17 (t : Fin cfg0.N) (i : S64x16384.Idx) :
    i ∈ ((cfg0.win 17).blk t).view.set ↔ ∀ a : Fin 2, win0_17.index t a * S64x2048.size a ≤ (i a).val ∧ (i a).val < win0_17.index t a * S64x2048.size a + S64x2048.size a := by
  show i ∈ ((View.whole main_v6_3).slice (win0_17.rect t)).set ↔ _
  rw [View.set_slice_whole, Rect.mem_set_unit]
  exact Iff.rfl

/-- Every index of the array is in the block of the point its column names. -/
theorem cover17 (i : S64x16384.Idx) : ∃ t : Fin cfg0.N, (cfg0.win 17).flush t = true ∧ i ∈ ((cfg0.win 17).blk t).view.set := by
  have h8 : cfg0.N = 8 := N_0
  have hi0 : (i 0).val < 64 := (i 0).isLt
  have hi1 : (i 1).val < 16384 := (i 1).isLt
  let t : Fin cfg0.N := ⟨(i 1).val / 2048, by rw [h8]; omega⟩
  have hi : win0_17.index t (0 : Fin 2) = 0 ∧ win0_17.index t (1 : Fin 2) = t.val := (idx_of t).2.2.2.1
  have ht : t.val = (i 1).val / 2048 := rfl
  refine ⟨t, flush0_17 t, ?_⟩
  rw [mem_blk17]
  intro a
  match a with
  | ⟨0, _⟩ => show win0_17.index t (0 : Fin 2) * 64 ≤ (i 0).val ∧ (i 0).val < win0_17.index t (0 : Fin 2) * 64 + 64; rw [hi.1]; omega
  | ⟨1, _⟩ => show win0_17.index t (1 : Fin 2) * 2048 ≤ (i 1).val ∧ (i 1).val < win0_17.index t (1 : Fin 2) * 2048 + 2048; rw [hi.2, ht]; omega

/-- After the run the array is the specification's array of the arguments. -/
theorem final17 (c : Dev nD) : (dats m 0 c).arrAt 17 cfg0.N = outCo (A m c) :=
  (dats m 0 c).arrAt_eq_of_cover 17 (outCo (A m c)) (fun t _ => flushed17_eq m c t) (cover17)

/-! ## Result array 4 (window 18) -/

/-- What point `t` writes back is block `t` of the specification's array. -/
theorem flushed18_eq (c : Dev nD) (t : Fin cfg0.N) :
    (dats m 0 c).flushed 18 t = ((cfg0.win 18).blk t).view.read (Elt Ideal) (outPi (A m c)) := by
  show (cfg0.win 18).cut (grid0.coords t) ((dats m 0 c).after 18 t) = _
  rw [after0_18]
  funext y
  show (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y : EReal) = outPi (A m c) (((cfg0.win 18).blk t).view.emb y)
  rw [out18_apply (blockOf_iblk m c t) y]
  have hi : win0_18.index t (0 : Fin 2) = 0 ∧ win0_18.index t (1 : Fin 2) = t.val := (idx_of t).2.2.2.2.1
  refine congrArg (outPi (A m c)) (funext fun a => Fin.ext ?_)
  match a with
  | ⟨0, _⟩ => show (y 0).val = win0_18.index t (0 : Fin 2) * 63 + 1 * (y 0).val; rw [hi.1]; omega
  | ⟨1, _⟩ => show 2048 * t.val + (y 1).val = win0_18.index t (1 : Fin 2) * 2048 + 1 * (y 1).val; rw [hi.2]; omega

/-- An index of the array is in point `t`'s block iff each coordinate is in the block's range on its axis. -/
theorem mem_blk18 (t : Fin cfg0.N) (i : S63x16384.Idx) :
    i ∈ ((cfg0.win 18).blk t).view.set ↔ ∀ a : Fin 2, win0_18.index t a * S63x2048.size a ≤ (i a).val ∧ (i a).val < win0_18.index t a * S63x2048.size a + S63x2048.size a := by
  show i ∈ ((View.whole main_v6_4).slice (win0_18.rect t)).set ↔ _
  rw [View.set_slice_whole, Rect.mem_set_unit]
  exact Iff.rfl

/-- Every index of the array is in the block of the point its column names. -/
theorem cover18 (i : S63x16384.Idx) : ∃ t : Fin cfg0.N, (cfg0.win 18).flush t = true ∧ i ∈ ((cfg0.win 18).blk t).view.set := by
  have h8 : cfg0.N = 8 := N_0
  have hi0 : (i 0).val < 63 := (i 0).isLt
  have hi1 : (i 1).val < 16384 := (i 1).isLt
  let t : Fin cfg0.N := ⟨(i 1).val / 2048, by rw [h8]; omega⟩
  have hi : win0_18.index t (0 : Fin 2) = 0 ∧ win0_18.index t (1 : Fin 2) = t.val := (idx_of t).2.2.2.2.1
  have ht : t.val = (i 1).val / 2048 := rfl
  refine ⟨t, flush0_18 t, ?_⟩
  rw [mem_blk18]
  intro a
  match a with
  | ⟨0, _⟩ => show win0_18.index t (0 : Fin 2) * 63 ≤ (i 0).val ∧ (i 0).val < win0_18.index t (0 : Fin 2) * 63 + 63; rw [hi.1]; omega
  | ⟨1, _⟩ => show win0_18.index t (1 : Fin 2) * 2048 ≤ (i 1).val ∧ (i 1).val < win0_18.index t (1 : Fin 2) * 2048 + 2048; rw [hi.2, ht]; omega

/-- After the run the array is the specification's array of the arguments. -/
theorem final18 (c : Dev nD) : (dats m 0 c).arrAt 18 cfg0.N = outPi (A m c) :=
  (dats m 0 c).arrAt_eq_of_cover 18 (outPi (A m c)) (fun t _ => flushed18_eq m c t) (cover18)

/-! ## Result array 5 (window 19) -/

/-- What point `t` writes back is block `t` of the specification's array. -/
theorem flushed19_eq (c : Dev nD) (t : Fin cfg0.N) :
    (dats m 0 c).flushed 19 t = ((cfg0.win 19).blk t).view.read (Elt Ideal) (outPo (A m c)) := by
  show (cfg0.win 19).cut (grid0.coords t) ((dats m 0 c).after 19 t) = _
  rw [after0_19]
  funext y
  show (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y : EReal) = outPo (A m c) (((cfg0.win 19).blk t).view.emb y)
  rw [out19_apply (blockOf_iblk m c t) y]
  have hi : win0_19.index t (0 : Fin 2) = 0 ∧ win0_19.index t (1 : Fin 2) = t.val := (idx_of t).2.2.2.2.2
  refine congrArg (outPo (A m c)) (funext fun a => Fin.ext ?_)
  match a with
  | ⟨0, _⟩ => show (y 0).val = win0_19.index t (0 : Fin 2) * 64 + 1 * (y 0).val; rw [hi.1]; omega
  | ⟨1, _⟩ => show 2048 * t.val + (y 1).val = win0_19.index t (1 : Fin 2) * 2048 + 1 * (y 1).val; rw [hi.2]; omega

/-- An index of the array is in point `t`'s block iff each coordinate is in the block's range on its axis. -/
theorem mem_blk19 (t : Fin cfg0.N) (i : S64x16384.Idx) :
    i ∈ ((cfg0.win 19).blk t).view.set ↔ ∀ a : Fin 2, win0_19.index t a * S64x2048.size a ≤ (i a).val ∧ (i a).val < win0_19.index t a * S64x2048.size a + S64x2048.size a := by
  show i ∈ ((View.whole main_v6_5).slice (win0_19.rect t)).set ↔ _
  rw [View.set_slice_whole, Rect.mem_set_unit]
  exact Iff.rfl

/-- Every index of the array is in the block of the point its column names. -/
theorem cover19 (i : S64x16384.Idx) : ∃ t : Fin cfg0.N, (cfg0.win 19).flush t = true ∧ i ∈ ((cfg0.win 19).blk t).view.set := by
  have h8 : cfg0.N = 8 := N_0
  have hi0 : (i 0).val < 64 := (i 0).isLt
  have hi1 : (i 1).val < 16384 := (i 1).isLt
  let t : Fin cfg0.N := ⟨(i 1).val / 2048, by rw [h8]; omega⟩
  have hi : win0_19.index t (0 : Fin 2) = 0 ∧ win0_19.index t (1 : Fin 2) = t.val := (idx_of t).2.2.2.2.2
  have ht : t.val = (i 1).val / 2048 := rfl
  refine ⟨t, flush0_19 t, ?_⟩
  rw [mem_blk19]
  intro a
  match a with
  | ⟨0, _⟩ => show win0_19.index t (0 : Fin 2) * 64 ≤ (i 0).val ∧ (i 0).val < win0_19.index t (0 : Fin 2) * 64 + 64; rw [hi.1]; omega
  | ⟨1, _⟩ => show win0_19.index t (1 : Fin 2) * 2048 ≤ (i 1).val ∧ (i 1).val < win0_19.index t (1 : Fin 2) * 2048 + 2048; rw [hi.2, ht]; omega

/-- After the run the array is the specification's array of the arguments. -/
theorem final19 (c : Dev nD) : (dats m 0 c).arrAt 19 cfg0.N = outPo (A m c) :=
  (dats m 0 c).arrAt_eq_of_cover 19 (outPo (A m c)) (fun t _ => flushed19_eq m c t) (cover19)

/-! ## The run, read -/

/-- After the frame run, result array 0 is the specification's array. -/
theorem post14 (r : PUnit × MemSt nD τ sig (Elt Ideal)) (h : Pipeline.FramePost cfgs (dats m) 0 (V m) r) (c : Dev nD) :
    r.2.mem ((c.tc : Thread nD τ).loc main_v6_0) = outY (A m c) :=
  ((h c).1 14).trans (final14 m c)
/-- After the frame run, result array 1 is the specification's array. -/
theorem post15 (r : PUnit × MemSt nD τ sig (Elt Ideal)) (h : Pipeline.FramePost cfgs (dats m) 0 (V m) r) (c : Dev nD) :
    r.2.mem ((c.tc : Thread nD τ).loc main_v6_1) = outCi (A m c) :=
  ((h c).1 15).trans (final15 m c)
/-- After the frame run, result array 2 is the specification's array. -/
theorem post16 (r : PUnit × MemSt nD τ sig (Elt Ideal)) (h : Pipeline.FramePost cfgs (dats m) 0 (V m) r) (c : Dev nD) :
    r.2.mem ((c.tc : Thread nD τ).loc main_v6_2) = outCr (A m c) :=
  ((h c).1 16).trans (final16 m c)
/-- After the frame run, result array 3 is the specification's array. -/
theorem post17 (r : PUnit × MemSt nD τ sig (Elt Ideal)) (h : Pipeline.FramePost cfgs (dats m) 0 (V m) r) (c : Dev nD) :
    r.2.mem ((c.tc : Thread nD τ).loc main_v6_3) = outCo (A m c) :=
  ((h c).1 17).trans (final17 m c)
/-- After the frame run, result array 4 is the specification's array. -/
theorem post18 (r : PUnit × MemSt nD τ sig (Elt Ideal)) (h : Pipeline.FramePost cfgs (dats m) 0 (V m) r) (c : Dev nD) :
    r.2.mem ((c.tc : Thread nD τ).loc main_v6_4) = outPi (A m c) :=
  ((h c).1 18).trans (final18 m c)
/-- After the frame run, result array 5 is the specification's array. -/
theorem post19 (r : PUnit × MemSt nD τ sig (Elt Ideal)) (h : Pipeline.FramePost cfgs (dats m) 0 (V m) r) (c : Dev nD) :
    r.2.mem ((c.tc : Thread nD τ).loc main_v6_5) = outPo (A m c) :=
  ((h c).1 19).trans (final19 m c)
/-- After the frame run, argument 0 is as launched. -/
theorem kept0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- After the frame run, argument 1 is as launched. -/
theorem kept1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- After the frame run, argument 2 is as launched. -/
theorem kept2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- After the frame run, argument 3 is as launched. -/
theorem kept3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))
/-- After the frame run, argument 4 is as launched. -/
theorem kept4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))
/-- After the frame run, argument 5 is as launched. -/
theorem kept5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))
/-- After the frame run, argument 6 is as launched. -/
theorem kept6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
/-- After the frame run, argument 7 is as launched. -/
theorem kept7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
/-- After the frame run, argument 8 is as launched. -/
theorem kept8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
/-- After the frame run, argument 9 is as launched. -/
theorem kept9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).1 7).trans (((dats m 0 c).arrAt_in 7 rfl _).trans ((A_eq m c 7).trans (V_main_arg9 m c)))
/-- After the frame run, argument 10 is as launched. -/
theorem kept10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
/-- After the frame run, argument 11 is as launched. -/
theorem kept11 (r : PUnit × MemSt nD τ sig (Elt Ideal)) (h : Pipeline.FramePost cfgs (dats m) 0 (V m) r) (c : Dev nD) :
    r.2.mem ((c.tc : Thread nD τ).loc main_arg11) = m ((c.tc : Thread nD τ).loc main_arg11) :=
  ((h c).1 9).trans (((dats m 0 c).arrAt_in 9 rfl _).trans ((A_eq m c 9).trans (V_main_arg11 m c)))
/-- After the frame run, argument 12 is as launched. -/
theorem kept12 (r : PUnit × MemSt nD τ sig (Elt Ideal)) (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)
/-- After the frame run, argument 13 is as launched. -/
theorem kept13 (r : PUnit × MemSt nD τ sig (Elt Ideal)) (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)
/-- After the frame run, argument 14 is as launched. -/
theorem kept14 (r : PUnit × MemSt nD τ sig (Elt Ideal)) (h : Pipeline.FramePost cfgs (dats m) 0 (V m) r) (c : Dev nD) :
    r.2.mem ((c.tc : Thread nD τ).loc main_arg14) = m ((c.tc : Thread nD τ).loc main_arg14) :=
  ((h c).1 11).trans (((dats m 0 c).arrAt_in 11 rfl _).trans ((A_eq m c 11).trans (V_main_arg14 m c)))
/-- After the frame run, argument 15 is as launched. -/
theorem kept15 (r : PUnit × MemSt nD τ sig (Elt Ideal)) (h : Pipeline.FramePost cfgs (dats m) 0 (V m) r) (c : Dev nD) :
    r.2.mem ((c.tc : Thread nD τ).loc main_arg15) = m ((c.tc : Thread nD τ).loc main_arg15) :=
  ((h c).2 main_arg15 (Pipeline.mem_restRefs_of main_arg15 (by decide) (by decide))).trans (V_main_arg15 m c)
/-- After the frame run, argument 16 is as launched. -/
theorem kept16 (r : PUnit × MemSt nD τ sig (Elt Ideal)) (h : Pipeline.FramePost cfgs (dats m) 0 (V m) r) (c : Dev nD) :
    r.2.mem ((c.tc : Thread nD τ).loc main_arg16) = m ((c.tc : Thread nD τ).loc main_arg16) :=
  ((h c).1 13).trans (((dats m 0 c).arrAt_in 13 rfl _).trans ((A_eq m c 13).trans (V_main_arg16 m c)))

/-- Every weakly fair execution of @main terminates without a fault, each result array ending at the specification's
    array of the arguments and every argument array as launched. -/
theorem run : θ_run defs (onTc (τ := τ) (main (F := Ideal))) ⟨m, fun _ => 0, ρ⟩ fun r => ∀ c : Dev nD,
      r.2.mem ((c.tc : Thread nD τ).loc main_v6_0) = outY (A m c)
      ∧ r.2.mem ((c.tc : Thread nD τ).loc main_v6_1) = outCi (A m c)
      ∧ r.2.mem ((c.tc : Thread nD τ).loc main_v6_2) = outCr (A m c)
      ∧ r.2.mem ((c.tc : Thread nD τ).loc main_v6_3) = outCo (A m c)
      ∧ r.2.mem ((c.tc : Thread nD τ).loc main_v6_4) = outPi (A m c)
      ∧ r.2.mem ((c.tc : Thread nD τ).loc main_v6_5) = outPo (A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨post14 m r h c, post15 m r h c, post16 m r h c, post17 m r h c, post18 m r h c, post19 m r h c,
      kept0 m r h c, kept1 m r h c, kept2 m r h c, kept3 m r h c, kept4 m r h c, kept5 m r h c, kept6 m r h c, kept7 m r h c, kept8 m r h c, kept9 m r h c, kept10 m r h c, kept11 m r h c, kept12 m r h c, kept13 m r h c, kept14 m r h c, kept15 m r h c, kept16 m r h c⟩)
    (run_main m ρ)

end Cert.KernelIdeal.Val

end
-- ==== Proof.RefOps.lean ====
/-
  The reference program as a list: its 31 host operations in order, and the small vocabulary its results are written in.
  The two networks' outputs are given as compositions of whole-array operations over the argument arrays:
  `ctrlU` is the controller's output row, `plantY` the plant's output row given the controller's.
-/
import proofs.«176798_j42125039239689_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 31 operations, in order. -/
abbrev ops : List (HloOp τ sig (Elt F)) :=
  [ binary main_arg6 main_arg1 main_v0 ((fun l r => Host.dotGeneral dot_S1024x64_S64x16384_S1024x16384_1_0_0_1_n_n none l r) : (⟨S1024x64, .f32⟩ : BufTy).Contents (Elt F) → (⟨S64x16384, .f32⟩ : BufTy).Contents (Elt F) → (⟨S1024x16384, .f32⟩ : BufTy).Contents (Elt F)),
    binary main_arg7 main_arg2 main_v1 ((fun l r => Host.dotGeneral dot_S1024x64_S64x16384_S1024x16384_1_0_0_1_n_n none l r) : (⟨S1024x64, .f32⟩ : BufTy).Contents (Elt F) → (⟨S64x16384, .f32⟩ : BufTy).Contents (Elt F) → (⟨S1024x16384, .f32⟩ : BufTy).Contents (Elt F)),
    binary main_v0 main_v1 main_v2 (addf : (⟨S1024x16384, .f32⟩ : BufTy).Contents (Elt F) → (⟨S1024x16384, .f32⟩ : BufTy).Contents (Elt F) → (⟨S1024x16384, .f32⟩ : BufTy).Contents (Elt F)),
    binary main_arg8 main_arg3 main_v3 ((fun l r => Host.dotGeneral dot_S1024x64_S64x16384_S1024x16384_1_0_0_1_n_n none l r) : (⟨S1024x64, .f32⟩ : BufTy).Contents (Elt F) → (⟨S64x16384, .f32⟩ : BufTy).Contents (Elt F) → (⟨S1024x16384, .f32⟩ : BufTy).Contents (Elt F)),
    binary main_v2 main_v3 main_v4 (addf : (⟨S1024x16384, .f32⟩ : BufTy).Contents (Elt F) → (⟨S1024x16384, .f32⟩ : BufTy).Contents (Elt F) → (⟨S1024x16384, .f32⟩ : BufTy).Contents (Elt F)),
    unary main_arg9 main_v5 (broadcastInDim S1024x16384 ![0, 1] bcast_S1024x1_S1024x16384_0_1 : (⟨S1024x1, .f32⟩ : BufTy).Contents (Elt F) → (⟨S1024x16384, .f32⟩ : BufTy).Contents (Elt F)),
    binary main_v4 main_v5 main_v6 (addf : (⟨S1024x16384, .f32⟩ : BufTy).Contents (Elt F) → (⟨S1024x16384, .f32⟩ : BufTy).Contents (Elt F) → (⟨S1024x16384, .f32⟩ : BufTy).Contents (Elt F)),
    unary main_v6 main_v7 (Host.tanh : (⟨S1024x16384, .f32⟩ : BufTy).Contents (Elt F) → (⟨S1024x16384, .f32⟩ : BufTy).Contents (Elt F)),
    binary main_arg10 main_v7 main_v8 ((fun l r => Host.dotGeneral dot_S1x1024_S1024x16384_S1x16384_1_0_0_1_n_n none l r) : (⟨S1x1024, .f32⟩ : BufTy).Contents (Elt F) → (⟨S1024x16384, .f32⟩ : BufTy).Contents (Elt F) → (⟨S1x16384, .f32⟩ : BufTy).Contents (Elt F)),
    unary main_arg11 main_v9 (broadcastInDim S1x16384 ![0, 1] bcast_S1x1_S1x16384_0_1 : (⟨S1x1, .f32⟩ : BufTy).Contents (Elt F) → (⟨S1x16384, .f32⟩ : BufTy).Contents (Elt F)),
    binary main_v8 main_v9 main_v10 (addf : (⟨S1x16384, .f32⟩ : BufTy).Contents (Elt F) → (⟨S1x16384, .f32⟩ : BufTy).Contents (Elt F) → (⟨S1x16384, .f32⟩ : BufTy).Contents (Elt F)),
    binary main_arg4 main_v10 main_v11 ((fun a b => concatenate S64x16384 0 [⟨S63x16384, a⟩, ⟨S1x16384, b⟩] concatenates_S63x16384_S1x16384_S64x16384_d0) : (⟨S63x16384, .f32⟩ : BufTy).Contents (Elt F) → (⟨S1x16384, .f32⟩ : BufTy).Contents (Elt F) → (⟨S64x16384, .f32⟩ : BufTy).Contents (Elt F)),
    binary main_arg12 main_v11 main_v12 ((fun l r => Host.dotGeneral dot_S1024x64_S64x16384_S1024x16384_1_0_0_1_n_n none l r) : (⟨S1024x64, .f32⟩ : BufTy).Contents (Elt F) → (⟨S64x16384, .f32⟩ : BufTy).Contents (Elt F) → (⟨S1024x16384, .f32⟩ : BufTy).Contents (Elt F)),
    binary main_arg13 main_arg5 main_v13 ((fun l r => Host.dotGeneral dot_S1024x64_S64x16384_S1024x16384_1_0_0_1_n_n none l r) : (⟨S1024x64, .f32⟩ : BufTy).Contents (Elt F) → (⟨S64x16384, .f32⟩ : BufTy).Contents (Elt F) → (⟨S1024x16384, .f32⟩ : BufTy).Contents (Elt F)),
    binary main_v12 main_v13 main_v14 (addf : (⟨S1024x16384, .f32⟩ : BufTy).Contents (Elt F) → (⟨S1024x16384, .f32⟩ : BufTy).Contents (Elt F) → (⟨S1024x16384, .f32⟩ : BufTy).Contents (Elt F)),
    unary main_arg14 main_v15 (broadcastInDim S1024x16384 ![0, 1] bcast_S1024x1_S1024x16384_0_1 : (⟨S1024x1, .f32⟩ : BufTy).Contents (Elt F) → (⟨S1024x16384, .f32⟩ : BufTy).Contents (Elt F)),
    binary main_v14 main_v15 main_v16 (addf : (⟨S1024x16384, .f32⟩ : BufTy).Contents (Elt F) → (⟨S1024x16384, .f32⟩ : BufTy).Contents (Elt F) → (⟨S1024x16384, .f32⟩ : BufTy).Contents (Elt F)),
    unary main_v16 main_v17 (Host.tanh : (⟨S1024x16384, .f32⟩ : BufTy).Contents (Elt F) → (⟨S1024x16384, .f32⟩ : BufTy).Contents (Elt F)),
    binary main_arg15 main_v17 main_v18 ((fun l r => Host.dotGeneral dot_S1x1024_S1024x16384_S1x16384_1_0_0_1_n_n none l r) : (⟨S1x1024, .f32⟩ : BufTy).Contents (Elt F) → (⟨S1024x16384, .f32⟩ : BufTy).Contents (Elt F) → (⟨S1x16384, .f32⟩ : BufTy).Contents (Elt F)),
    unary main_arg16 main_v19 (broadcastInDim S1x16384 ![0, 1] bcast_S1x1_S1x16384_0_1 : (⟨S1x1, .f32⟩ : BufTy).Contents (Elt F) → (⟨S1x16384, .f32⟩ : BufTy).Contents (Elt F)),
    binary main_v18 main_v19 main_v20 (addf : (⟨S1x16384, .f32⟩ : BufTy).Contents (Elt F) → (⟨S1x16384, .f32⟩ : BufTy).Contents (Elt F) → (⟨S1x16384, .f32⟩ : BufTy).Contents (Elt F)),
    unary main_arg1 main_v21 ((extractStridedSlice S63x16384 ![0, 0] · slices_S64x16384_S63x16384_0_0) : (⟨S64x16384, .f32⟩ : BufTy).Contents (Elt F) → (⟨S63x16384, .f32⟩ : BufTy).Contents (Elt F)),
    binary main_v10 main_v21 main_v22 ((fun a b => concatenate S64x16384 0 [⟨S1x16384, a⟩, ⟨S63x16384, b⟩] concatenates_S1x16384_S63x16384_S64x16384_d0) : (⟨S1x16384, .f32⟩ : BufTy).Contents (Elt F) → (⟨S63x16384, .f32⟩ : BufTy).Contents (Elt F) → (⟨S64x16384, .f32⟩ : BufTy).Contents (Elt F)),
    unary main_arg2 main_v23 ((extractStridedSlice S63x16384 ![0, 0] · slices_S64x16384_S63x16384_0_0) : (⟨S64x16384, .f32⟩ : BufTy).Contents (Elt F) → (⟨S63x16384, .f32⟩ : BufTy).Contents (Elt F)),
    binary main_arg0 main_v23 main_v24 ((fun a b => concatenate S64x16384 0 [⟨S1x16384, a⟩, ⟨S63x16384, b⟩] concatenates_S1x16384_S63x16384_S64x16384_d0) : (⟨S1x16384, .f32⟩ : BufTy).Contents (Elt F) → (⟨S63x16384, .f32⟩ : BufTy).Contents (Elt F) → (⟨S64x16384, .f32⟩ : BufTy).Contents (Elt F)),
    unary main_arg3 main_v25 ((extractStridedSlice S63x16384 ![0, 0] · slices_S64x16384_S63x16384_0_0) : (⟨S64x16384, .f32⟩ : BufTy).Contents (Elt F) → (⟨S63x16384, .f32⟩ : BufTy).Contents (Elt F)),
    binary main_v20 main_v25 main_v26 ((fun a b => concatenate S64x16384 0 [⟨S1x16384, a⟩, ⟨S63x16384, b⟩] concatenates_S1x16384_S63x16384_S64x16384_d0) : (⟨S1x16384, .f32⟩ : BufTy).Contents (Elt F) → (⟨S63x16384, .f32⟩ : BufTy).Contents (Elt F) → (⟨S64x16384, .f32⟩ : BufTy).Contents (Elt F)),
    unary main_arg4 main_v27 ((extractStridedSlice S62x16384 ![0, 0] · slices_S63x16384_S62x16384_0_0) : (⟨S63x16384, .f32⟩ : BufTy).Contents (Elt F) → (⟨S62x16384, .f32⟩ : BufTy).Contents (Elt F)),
    binary main_v10 main_v27 main_v28 ((fun a b => concatenate S63x16384 0 [⟨S1x16384, a⟩, ⟨S62x16384, b⟩] concatenates_S1x16384_S62x16384_S63x16384_d0) : (⟨S1x16384, .f32⟩ : BufTy).Contents (Elt F) → (⟨S62x16384, .f32⟩ : BufTy).Contents (Elt F) → (⟨S63x16384, .f32⟩ : BufTy).Contents (Elt F)),
    unary main_arg5 main_v29 ((extractStridedSlice S63x16384 ![0, 0] · slices_S64x16384_S63x16384_0_0) : (⟨S64x16384, .f32⟩ : BufTy).Contents (Elt F) → (⟨S63x16384, .f32⟩ : BufTy).Contents (Elt F)),
    binary main_v20 main_v29 main_v30 ((fun a b => concatenate S64x16384 0 [⟨S1x16384, a⟩, ⟨S63x16384, b⟩] concatenates_S1x16384_S63x16384_S64x16384_d0) : (⟨S1x16384, .f32⟩ : BufTy).Contents (Elt F) → (⟨S63x16384, .f32⟩ : BufTy).Contents (Elt F) → (⟨S64x16384, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., binary_bufs_sub .., binary_bufs_sub .., binary_bufs_sub .., unary_bufs_sub .., binary_bufs_sub .., unary_bufs_sub .., binary_bufs_sub .., unary_bufs_sub .., binary_bufs_sub .., binary_bufs_sub .., binary_bufs_sub .., binary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩

/-! ## The whole-array operations the program is made of -/

/-- An f32 array of shape `s`. -/
abbrev Arr (F : FTy → Type) (s : Shape) : Type := (⟨s, .f32⟩ : BufTy).Contents (Elt F)

/-- A `[1024, 64]` weight matrix times a `[64, 16384]` delay line. -/
def dotA (l : Arr F S1024x64) (r : Arr F S64x16384) : Arr F S1024x16384 :=
  Host.dotGeneral dot_S1024x64_S64x16384_S1024x16384_1_0_0_1_n_n none l r
/-- A `[1, 1024]` weight row times a `[1024, 16384]` hidden layer. -/
def dotB (l : Arr F S1x1024) (r : Arr F S1024x16384) : Arr F S1x16384 :=
  Host.dotGeneral dot_S1x1024_S1024x16384_S1x16384_1_0_0_1_n_n none l r
/-- A bias column repeated along the simulations. -/
def bcCol (x : Arr F S1024x1) : Arr F S1024x16384 := broadcastInDim S1024x16384 ![0, 1] bcast_S1024x1_S1024x16384_0_1 x
/-- A single bias repeated along the simulations. -/
def bcOne (x : Arr F S1x1) : Arr F S1x16384 := broadcastInDim S1x16384 ![0, 1] bcast_S1x1_S1x16384_0_1 x
/-- The first 63 rows of a 64-row line. -/
def sl63 (x : Arr F S64x16384) : Arr F S63x16384 := extractStridedSlice S63x16384 ![0, 0] x slices_S64x16384_S63x16384_0_0
/-- The first 62 rows of a 63-row line. -/
def sl62 (x : Arr F S63x16384) : Arr F S62x16384 := extractStridedSlice S62x16384 ![0, 0] x slices_S63x16384_S62x16384_0_0
/-- 63 rows with one row appended. -/
def catEnd (a : Arr F S63x16384) (b : Arr F S1x16384) : Arr F S64x16384 :=
  concatenate S64x16384 0 [⟨S63x16384, a⟩, ⟨S1x16384, b⟩] concatenates_S63x16384_S1x16384_S64x16384_d0
/-- One row put in front of 63 rows. -/
def catFront64 (a : Arr F S1x16384) (b : Arr F S63x16384) : Arr F S64x16384 :=
  concatenate S64x16384 0 [⟨S1x16384, a⟩, ⟨S63x16384, b⟩] concatenates_S1x16384_S63x16384_S64x16384_d0
/-- One row put in front of 62 rows. -/
def catFront63 (a : Arr F S1x16384) (b : Arr F S62x16384) : Arr F S63x16384 :=
  concatenate S63x16384 0 [⟨S1x16384, a⟩, ⟨S62x16384, b⟩] concatenates_S1x16384_S62x16384_S63x16384_d0
/-- The entrywise sum of two arrays. -/
def addA {s : Shape} (a b : Arr F s) : Arr F s := addf (F := F) (s := s) (φ := .f32) a b
/-- The entrywise `tanh` of an array. -/
def tanhA {s : Shape} (a : Arr F s) : Arr F s := Host.tanh (F := F) (s := s) (φ := .f32) a

/-- The controller's output row: the hidden layer is `tanh` of the three products added left to right plus the bias
    column, the output the weight row times it plus the bias. -/
def ctrlU (x1 x2 x3 : Arr F S64x16384) (x6 x7 x8 : Arr F S1024x64) (x9 : Arr F S1024x1) (x10 : Arr F S1x1024) (x11 : Arr F S1x1) :
    Arr F S1x16384 :=
  addA (dotB x10 (tanhA (addA (addA (addA (dotA x6 x1) (dotA x7 x2)) (dotA x8 x3)) (bcCol x9)))) (bcOne x11)

/-- The plant's output row, given the controller's output row `u` (appended to the plant's input line). -/
def plantY (u : Arr F S1x16384) (x4 : Arr F S63x16384) (x5 : Arr F S64x16384) (x12 x13 : Arr F S1024x64) (x14 : Arr F S1024x1)
    (x15 : Arr F S1x1024) (x16 : Arr F S1x1) : Arr F S1x16384 :=
  addA (dotB x15 (tanhA (addA (addA (dotA x12 (catEnd x4 u)) (dotA x13 x5)) (bcCol x14)))) (bcOne x16)

/-! ## The same over a device's buffer contents -/

/-- The contents of reference `b` in a device's buffers. -/
abbrev rd (V : Valuation τ sig (Elt F)) (b : Ref sig .tc) := V (Proc.devRef .tc b)

/-- The controller's output row over the buffers. -/
def uV (V : Valuation τ sig (Elt F)) : Arr F S1x16384 :=
  ctrlU (rd V main_arg1) (rd V main_arg2) (rd V main_arg3) (rd V main_arg6) (rd V main_arg7) (rd V main_arg8)
    (rd V main_arg9) (rd V main_arg10) (rd V main_arg11)

/-- The plant's output row over the buffers. -/
def yV (V : Valuation τ sig (Elt F)) : Arr F S1x16384 :=
  plantY (uV V) (rd V main_arg4) (rd V main_arg5) (rd V main_arg12) (rd V main_arg13) (rd V main_arg14)
    (rd V main_arg15) (rd V main_arg16)

end Cert.RefSide

end
-- ==== Proof.RefAfter.lean ====
/-
  What the six result buffers hold once the 31 operations have run in order from any contents of the device's buffers:
  each operation's result read back through the operations after it, which write other buffers.
-/
import proofs.«176798_j42125039239689_2_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Result 2: the reference signal in front of the reference line's first 63 rows. -/
theorem after_v24 (V : Valuation τ sig (Elt F)) :
    after ops V (Proc.devRef .tc main_v24) = catFront64 (rd V main_arg0) (sl63 (rd V main_arg2)) := by
  after_results
  all_goals rfl

set_option maxHeartbeats 4000000 in
/-- Result 1: the controller's output in front of the controller-input line's first 63 rows. -/
theorem after_v22 (V : Valuation τ sig (Elt F)) :
    after ops V (Proc.devRef .tc main_v22) = catFront64 (uV V) (sl63 (rd V main_arg1)) := by
  after_results
  all_goals rfl

set_option maxHeartbeats 4000000 in
/-- Result 4: the controller's output in front of the plant-input line's first 62 rows. -/
theorem after_v28 (V : Valuation τ sig (Elt F)) :
    after ops V (Proc.devRef .tc main_v28) = catFront63 (uV V) (sl62 (rd V main_arg4)) := by
  after_results
  all_goals rfl

set_option maxHeartbeats 4000000 in
/-- Result 0: the plant's output. -/
theorem after_v20 (V : Valuation τ sig (Elt F)) :
    after ops V (Proc.devRef .tc main_v20) = yV V := by
  after_results
  all_goals rfl

set_option maxHeartbeats 4000000 in
/-- Result 3: the plant's output in front of the controller-output line's first 63 rows. -/
theorem after_v26 (V : Valuation τ sig (Elt F)) :
    after ops V (Proc.devRef .tc main_v26) = catFront64 (yV V) (sl63 (rd V main_arg3)) := by
  after_results
  all_goals rfl

set_option maxHeartbeats 4000000 in
/-- Result 5: the plant's output in front of the plant-output line's first 63 rows. -/
theorem after_v30 (V : Valuation τ sig (Elt F)) :
    after ops V (Proc.devRef .tc main_v30) = catFront64 (yV V) (sl63 (rd V main_arg5)) := by
  after_results
  all_goals rfl

end Cert.RefSide

end
-- ==== Proof.RefRun.lean ====
/-
  The reference program's run: every weakly fair execution of its 31 operations terminates with the six result buffers at
  the compositions of the whole-array operations over the arguments' launch contents, the arguments unchanged.
-/
import proofs.«176798_j42125039239689_2_alg».proof.Proof.RefAfter

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- On every device, from any memory with zero counters: every weakly fair execution of @main terminates with each
    result at the operations' composition over the arguments and the arguments unchanged. -/
theorem runTerms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = yV (launchContents m c)
      ∧ r.2.mem ((c.tc : Thread nD τ).loc main_v22) = catFront64 (uV (launchContents m c)) (sl63 (rd (launchContents m c) main_arg1))
      ∧ r.2.mem ((c.tc : Thread nD τ).loc main_v24) = catFront64 (rd (launchContents m c) main_arg0) (sl63 (rd (launchContents m c) main_arg2))
      ∧ r.2.mem ((c.tc : Thread nD τ).loc main_v26) = catFront64 (yV (launchContents m c)) (sl63 (rd (launchContents m c) main_arg3))
      ∧ r.2.mem ((c.tc : Thread nD τ).loc main_v28) = catFront63 (uV (launchContents m c)) (sl62 (rd (launchContents m c) main_arg4))
      ∧ r.2.mem ((c.tc : Thread nD τ).loc main_v30) = catFront64 (yV (launchContents m c)) (sl63 (rd (launchContents m c) main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v20).trans (after_v20 _),
      (h c main_v22).trans (after_v22 _),
      (h c main_v24).trans (after_v24 _),
      (h c main_v26).trans (after_v26 _),
      (h c main_v28).trans (after_v28 _),
      (h c main_v30).trans (after_v30 _),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl),
      (h c main_arg5).trans (by after_results <;> rfl),
      (h c main_arg6).trans (by after_results <;> rfl),
      (h c main_arg7).trans (by after_results <;> rfl),
      (h c main_arg8).trans (by after_results <;> rfl),
      (h c main_arg9).trans (by after_results <;> rfl),
      (h c main_arg10).trans (by after_results <;> rfl),
      (h c main_arg11).trans (by after_results <;> rfl),
      (h c main_arg12).trans (by after_results <;> rfl),
      (h c main_arg13).trans (by after_results <;> rfl),
      (h c main_arg14).trans (by after_results <;> rfl),
      (h c main_arg15).trans (by after_results <;> rfl),
      (h c main_arg16).trans (by after_results <;> rfl)⟩)
    (run_seq scopedRefs_eq scopedSems_eq defs main (fun _ => ops) main_eq (fun _ => ops_sub) m ρ)

end Cert.RefSide

end
-- ==== Proof.RefReads.lean ====
/-
  The reference's whole-array operations read at an entry, on the extended reals: a matrix product is the sum over
  the contracted coordinate, a repeated bias its one entry, a slice the same entry of its operand, a concatenation
  the entry of the piece the row falls in, a sum and `tanh` entrywise.
-/
import proofs.«176798_j42125039239689_2_alg».proof.Proof.RefOps
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.ValueIdx

/-! ## The two matrix products -/

theorem dotA_lhs0 (i : S1024x16384.Idx) (q : dot_S1024x64_S64x16384_S1024x16384_1_0_0_1_n_n.contr.Idx) : (dot_S1024x64_S64x16384_S1024x16384_1_0_0_1_n_n.lhsIdx i q 0).val = (i 0).val := by
  unfold DotDims.lhsIdx
  rw [dif_neg (show ¬(0 : Fin S1024x64.rank) ∈ dot_S1024x64_S64x16384_S1024x16384_1_0_0_1_n_n.lhsBatch by decide), dif_pos (show (0 : Fin S1024x64.rank) ∈ dot_S1024x64_S64x16384_S1024x16384_1_0_0_1_n_n.lhsNonContracting by decide)]
  rfl
theorem dotA_lhs1 (i : S1024x16384.Idx) (q : dot_S1024x64_S64x16384_S1024x16384_1_0_0_1_n_n.contr.Idx) : (dot_S1024x64_S64x16384_S1024x16384_1_0_0_1_n_n.lhsIdx i q 1).val = (q ⟨0, by decide⟩).val :=
  dot_S1024x64_S64x16384_S1024x16384_1_0_0_1_n_n.lhsIdx_val_of_single rfl i q
theorem dotA_rhs0 (i : S1024x16384.Idx) (q : dot_S1024x64_S64x16384_S1024x16384_1_0_0_1_n_n.contr.Idx) : (dot_S1024x64_S64x16384_S1024x16384_1_0_0_1_n_n.rhsIdx i q 0).val = (q ⟨0, by decide⟩).val :=
  dot_S1024x64_S64x16384_S1024x16384_1_0_0_1_n_n.rhsIdx_val_of_single rfl i q
theorem dotA_rhs1 (i : S1024x16384.Idx) (q : dot_S1024x64_S64x16384_S1024x16384_1_0_0_1_n_n.contr.Idx) : (dot_S1024x64_S64x16384_S1024x16384_1_0_0_1_n_n.rhsIdx i q 1).val = (i 1).val := by
  unfold DotDims.rhsIdx
  rw [dif_neg (show ¬(1 : Fin S64x16384.rank) ∈ dot_S1024x64_S64x16384_S1024x16384_1_0_0_1_n_n.rhsBatch by decide), dif_pos (show (1 : Fin S64x16384.rank) ∈ dot_S1024x64_S64x16384_S1024x16384_1_0_0_1_n_n.rhsNonContracting by decide)]
  rfl

/-- The product at an entry: the sum over the contracted coordinate of left entry times right entry. -/
theorem dotA_apply (l : Arr Ideal S1024x64) (r : Arr Ideal S64x16384) (i : S1024x16384.Idx) :
    dotA (F := Ideal) l r i = ∑ k : Fin 64, l (ix2 (i 0) k) * r (ix2 k (i 1)) := by
  unfold dotA
  simp only [Host.dotGeneral]
  rw [Ideal.dotGeneral_apply, ← Equiv.sum_comp (contrEquiv1 dot_S1024x64_S64x16384_S1024x16384_1_0_0_1_n_n 64 rfl rfl).symm]
  refine Finset.sum_congr rfl fun k _ => ?_
  have hk := contrEquiv1_symm_val dot_S1024x64_S64x16384_S1024x16384_1_0_0_1_n_n 64 rfl rfl k
  have el : dot_S1024x64_S64x16384_S1024x16384_1_0_0_1_n_n.lhsIdx i ((contrEquiv1 dot_S1024x64_S64x16384_S1024x16384_1_0_0_1_n_n 64 rfl rfl).symm k) = ix2 (i 0) k := funext fun a => Fin.ext (by
    match a with
    | ⟨0, _⟩ => exact dotA_lhs0 _ _
    | ⟨1, _⟩ => exact (dotA_lhs1 _ _).trans hk)
  have er : dot_S1024x64_S64x16384_S1024x16384_1_0_0_1_n_n.rhsIdx i ((contrEquiv1 dot_S1024x64_S64x16384_S1024x16384_1_0_0_1_n_n 64 rfl rfl).symm k) = ix2 k (i 1) := funext fun a => Fin.ext (by
    match a with
    | ⟨0, _⟩ => exact (dotA_rhs0 _ _).trans hk
    | ⟨1, _⟩ => exact dotA_rhs1 _ _)
  rw [el, er]
  rfl

theorem dotB_lhs0 (i : S1x16384.Idx) (q : dot_S1x1024_S1024x16384_S1x16384_1_0_0_1_n_n.contr.Idx) : (dot_S1x1024_S1024x16384_S1x16384_1_0_0_1_n_n.lhsIdx i q 0).val = (i 0).val := by
  unfold DotDims.lhsIdx
  rw [dif_neg (show ¬(0 : Fin S1x1024.rank) ∈ dot_S1x1024_S1024x16384_S1x16384_1_0_0_1_n_n.lhsBatch by decide), dif_pos (show (0 : Fin S1x1024.rank) ∈ dot_S1x1024_S1024x16384_S1x16384_1_0_0_1_n_n.lhsNonContracting by decide)]
  rfl
theorem dotB_lhs1 (i : S1x16384.Idx) (q : dot_S1x1024_S1024x16384_S1x16384_1_0_0_1_n_n.contr.Idx) : (dot_S1x1024_S1024x16384_S1x16384_1_0_0_1_n_n.lhsIdx i q 1).val = (q ⟨0, by decide⟩).val :=
  dot_S1x1024_S1024x16384_S1x16384_1_0_0_1_n_n.lhsIdx_val_of_single rfl i q
theorem dotB_rhs0 (i : S1x16384.Idx) (q : dot_S1x1024_S1024x16384_S1x16384_1_0_0_1_n_n.contr.Idx) : (dot_S1x1024_S1024x16384_S1x16384_1_0_0_1_n_n.rhsIdx i q 0).val = (q ⟨0, by decide⟩).val :=
  dot_S1x1024_S1024x16384_S1x16384_1_0_0_1_n_n.rhsIdx_val_of_single rfl i q
theorem dotB_rhs1 (i : S1x16384.Idx) (q : dot_S1x1024_S1024x16384_S1x16384_1_0_0_1_n_n.contr.Idx) : (dot_S1x1024_S1024x16384_S1x16384_1_0_0_1_n_n.rhsIdx i q 1).val = (i 1).val := by
  unfold DotDims.rhsIdx
  rw [dif_neg (show ¬(1 : Fin S1024x16384.rank) ∈ dot_S1x1024_S1024x16384_S1x16384_1_0_0_1_n_n.rhsBatch by decide), dif_pos (show (1 : Fin S1024x16384.rank) ∈ dot_S1x1024_S1024x16384_S1x16384_1_0_0_1_n_n.rhsNonContracting by decide)]
  rfl

/-- The product at an entry: the sum over the contracted coordinate of left entry times right entry. -/
theorem dotB_apply (l : Arr Ideal S1x1024) (r : Arr Ideal S1024x16384) (i : S1x16384.Idx) :
    dotB (F := Ideal) l r i = ∑ k : Fin 1024, l (ix2 (i 0) k) * r (ix2 k (i 1)) := by
  unfold dotB
  simp only [Host.dotGeneral]
  rw [Ideal.dotGeneral_apply, ← Equiv.sum_comp (contrEquiv1 dot_S1x1024_S1024x16384_S1x16384_1_0_0_1_n_n 1024 rfl rfl).symm]
  refine Finset.sum_congr rfl fun k _ => ?_
  have hk := contrEquiv1_symm_val dot_S1x1024_S1024x16384_S1x16384_1_0_0_1_n_n 1024 rfl rfl k
  have el : dot_S1x1024_S1024x16384_S1x16384_1_0_0_1_n_n.lhsIdx i ((contrEquiv1 dot_S1x1024_S1024x16384_S1x16384_1_0_0_1_n_n 1024 rfl rfl).symm k) = ix2 (i 0) k := funext fun a => Fin.ext (by
    match a with
    | ⟨0, _⟩ => exact dotB_lhs0 _ _
    | ⟨1, _⟩ => exact (dotB_lhs1 _ _).trans hk)
  have er : dot_S1x1024_S1024x16384_S1x16384_1_0_0_1_n_n.rhsIdx i ((contrEquiv1 dot_S1x1024_S1024x16384_S1x16384_1_0_0_1_n_n 1024 rfl rfl).symm k) = ix2 k (i 1) := funext fun a => Fin.ext (by
    match a with
    | ⟨0, _⟩ => exact (dotB_rhs0 _ _).trans hk
    | ⟨1, _⟩ => exact dotB_rhs1 _ _)
  rw [el, er]
  rfl

/-! ## Entrywise operations -/

theorem addA_apply {s : Shape} (a b : Arr Ideal s) (i : s.Idx) : addA (F := Ideal) a b i = a i + b i := rfl
theorem tanhA_apply {s : Shape} (a : Arr Ideal s) (i : s.Idx) : tanhA (F := Ideal) a i = Ideal.tanh (a i) := rfl

/-! ## The repeated biases -/

theorem bcCol_apply (x : Arr Ideal S1024x1) (i : S1024x16384.Idx) : bcCol (F := Ideal) x i = x (ix2 (i 0) (0 : Fin 1)) := by
  unfold bcCol
  exact broadcastInDim_apply _ bcast_S1024x1_S1024x16384_0_1 x i (ix2 (i 0) (0 : Fin 1)) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

theorem bcOne_apply (x : Arr Ideal S1x1) (i : S1x16384.Idx) : bcOne (F := Ideal) x i = x (ix2 (0 : Fin 1) (0 : Fin 1)) := by
  unfold bcOne
  exact broadcastInDim_apply _ bcast_S1x1_S1x16384_0_1 x i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-! ## The slices -/

theorem sl63_apply (x : Arr Ideal S64x16384) (r : Fin 63) (b : Fin 16384) :
    sl63 (F := Ideal) x (ix2 r b) = x (ix2 (⟨r.val, by have := r.isLt; omega⟩ : Fin 64) b) := by
  unfold sl63
  exact extractStridedSlice_apply ![0, 0] x slices_S64x16384_S63x16384_0_0 (ix2 r b) _ (fun a => match a with
    | ⟨0, _⟩ => by show r.val = 0 + r.val; omega
    | ⟨1, _⟩ => by show b.val = 0 + b.val; omega)

theorem sl62_apply (x : Arr Ideal S63x16384) (r : Fin 62) (b : Fin 16384) :
    sl62 (F := Ideal) x (ix2 r b) = x (ix2 (⟨r.val, by have := r.isLt; omega⟩ : Fin 63) b) := by
  unfold sl62
  exact extractStridedSlice_apply ![0, 0] x slices_S63x16384_S62x16384_0_0 (ix2 r b) _ (fun a => match a with
    | ⟨0, _⟩ => by show r.val = 0 + r.val; omega
    | ⟨1, _⟩ => by show b.val = 0 + b.val; omega)

/-! ## The concatenations -/

/-- 63 rows with one appended: a row below 63 is the first piece's. -/
theorem catEnd_apply_lt (x : Arr Ideal S63x16384) (y : Arr Ideal S1x16384) (r : Fin 64) (b : Fin 16384) (h : r.val < 63) :
    catEnd (F := Ideal) x y (ix2 r b) = x (ix2 (⟨r.val, h⟩ : Fin 63) b) := by
  unfold catEnd
  exact concatenate_pair_apply_left 0 x y concatenates_S63x16384_S1x16384_S64x16384_d0 (ix2 r b) rfl _ (fun a => by
    match a with
    | ⟨0, _⟩ => rfl
    | ⟨1, _⟩ => rfl)

/-- 63 rows with one appended: row 63 is the appended row. -/
theorem catEnd_apply_last (x : Arr Ideal S63x16384) (y : Arr Ideal S1x16384) (r : Fin 64) (b : Fin 16384) (h : ¬ r.val < 63) :
    catEnd (F := Ideal) x y (ix2 r b) = y (ix2 (0 : Fin 1) b) := by
  unfold catEnd
  exact concatenate_pair_apply_right 0 x y concatenates_S63x16384_S1x16384_S64x16384_d0 (ix2 r b) rfl rfl _
    (fun a ha => by
      match a with
      | ⟨0, _⟩ => exact absurd rfl ha
      | ⟨1, _⟩ => rfl)
    (by show 0 + 63 = r.val; have := r.isLt; omega)

/-- One row in front of 63: row 0 is the new row. -/
theorem catFront64_apply_zero (x : Arr Ideal S1x16384) (y : Arr Ideal S63x16384) (r : Fin 64) (b : Fin 16384) (h : r.val = 0) :
    catFront64 (F := Ideal) x y (ix2 r b) = x (ix2 (0 : Fin 1) b) := by
  unfold catFront64
  exact concatenate_pair_apply_left 0 x y concatenates_S1x16384_S63x16384_S64x16384_d0 (ix2 r b) rfl _ (fun a => by
    match a with
    | ⟨0, _⟩ => exact h.symm
    | ⟨1, _⟩ => rfl)

/-- One row in front of 63: a later row is the old line's row before it. -/
theorem catFront64_apply_succ (x : Arr Ideal S1x16384) (y : Arr Ideal S63x16384) (r : Fin 64) (b : Fin 16384) (h : ¬ r.val = 0) :
    catFront64 (F := Ideal) x y (ix2 r b) = y (ix2 (⟨r.val - 1, by have := r.isLt; omega⟩ : Fin 63) b) := by
  unfold catFront64
  exact concatenate_pair_apply_right 0 x y concatenates_S1x16384_S63x16384_S64x16384_d0 (ix2 r b) rfl rfl _
    (fun a ha => by
      match a with
      | ⟨0, _⟩ => exact absurd rfl ha
      | ⟨1, _⟩ => rfl)
    (by show r.val - 1 + 1 = r.val; omega)

/-- One row in front of 62: row 0 is the new row. -/
theorem catFront63_apply_zero (x : Arr Ideal S1x16384) (y : Arr Ideal S62x16384) (r : Fin 63) (b : Fin 16384) (h : r.val = 0) :
    catFront63 (F := Ideal) x y (ix2 r b) = x (ix2 (0 : Fin 1) b) := by
  unfold catFront63
  exact concatenate_pair_apply_left 0 x y concatenates_S1x16384_S62x16384_S63x16384_d0 (ix2 r b) rfl _ (fun a => by
    match a with
    | ⟨0, _⟩ => exact h.symm
    | ⟨1, _⟩ => rfl)

/-- One row in front of 62: a later row is the old line's row before it. -/
theorem catFront63_apply_succ (x : Arr Ideal S1x16384) (y : Arr Ideal S62x16384) (r : Fin 63) (b : Fin 16384) (h : ¬ r.val = 0) :
    catFront63 (F := Ideal) x y (ix2 r b) = y (ix2 (⟨r.val - 1, by have := r.isLt; omega⟩ : Fin 62) b) := by
  unfold catFront63
  exact concatenate_pair_apply_right 0 x y concatenates_S1x16384_S62x16384_S63x16384_d0 (ix2 r b) rfl rfl _
    (fun a ha => by
      match a with
      | ⟨0, _⟩ => exact absurd rfl ha
      | ⟨1, _⟩ => rfl)
    (by show r.val - 1 + 1 = r.val; omega)

end Cert.RefSide

end
-- ==== Proof.RefStages.lean ====
/-
  The reference's two networks and five shifted lines, entry by entry, are the controller cell of the specification:
  the controller's output row is `ctrlOut`, the plant's `plantOut` (its input line the 63 carried rows with the
  controller's output as row 63), and a row put in front of a line's leading rows is `shiftIn`.
-/
import proofs.«176798_j42125039239689_2_alg».proof.Proof.RefReads
import proofs.«176798_j42125039239689_2_alg».proof.Proof.CellSpec

noncomputable section

open scoped BigOperators

namespace Cert.RefSide

open Cert.ReferenceIdeal Cert.ReferenceIdeal.Gen Idealize.ShloMosaic Idealize.ShloMosaic.ValueIdx Cert.CellSpec

/-- The arguments as the specification reads them. -/
abbrev specArgs (x0 : Arr Ideal S1x16384) (x1 x2 x3 : Arr Ideal S64x16384) (x4 : Arr Ideal S63x16384) (x5 : Arr Ideal S64x16384)
    (x6 x7 x8 : Arr Ideal S1024x64) (x9 : Arr Ideal S1024x1) (x10 : Arr Ideal S1x1024) (x11 : Arr Ideal S1x1)
    (x12 x13 : Arr Ideal S1024x64) (x14 : Arr Ideal S1024x1) (x15 : Arr Ideal S1x1024) (x16 : Arr Ideal S1x1) : Args :=
  argsOf x0 x1 x2 x3 x4 x5 x6 x7 x8 x9 x10 x11 x12 x13 x14 x15 x16

/-! ## The controller -/

/-- The controller's hidden layer at unit `h`, simulation `b`. -/
theorem ctrlHid_apply (x0 : Arr Ideal S1x16384) (x1 x2 x3 : Arr Ideal S64x16384) (x4 : Arr Ideal S63x16384) (x5 : Arr Ideal S64x16384)
    (x6 x7 x8 : Arr Ideal S1024x64) (x9 : Arr Ideal S1024x1) (x10 : Arr Ideal S1x1024) (x11 : Arr Ideal S1x1)
    (x12 x13 : Arr Ideal S1024x64) (x14 : Arr Ideal S1024x1) (x15 : Arr Ideal S1x1024) (x16 : Arr Ideal S1x1) (h : Fin 1024) (b : Fin 16384) :
    tanhA (F := Ideal) (addA (addA (addA (dotA x6 x1) (dotA x7 x2)) (dotA x8 x3)) (bcCol x9)) (ix2 h b)
      = ctrlHidden (specArgs x0 x1 x2 x3 x4 x5 x6 x7 x8 x9 x10 x11 x12 x13 x14 x15 x16) h b := by
  rw [tanhA_apply, addA_apply, addA_apply, addA_apply, dotA_apply, dotA_apply, dotA_apply, bcCol_apply]
  rfl

/-- The controller's output row at simulation `b`. -/
theorem ctrlU_apply (x0 : Arr Ideal S1x16384) (x1 x2 x3 : Arr Ideal S64x16384) (x4 : Arr Ideal S63x16384) (x5 : Arr Ideal S64x16384)
    (x6 x7 x8 : Arr Ideal S1024x64) (x9 : Arr Ideal S1024x1) (x10 : Arr Ideal S1x1024) (x11 : Arr Ideal S1x1)
    (x12 x13 : Arr Ideal S1024x64) (x14 : Arr Ideal S1024x1) (x15 : Arr Ideal S1x1024) (x16 : Arr Ideal S1x1) (z : Fin 1) (b : Fin 16384) :
    ctrlU (F := Ideal) x1 x2 x3 x6 x7 x8 x9 x10 x11 (ix2 z b) = ctrlOut (specArgs x0 x1 x2 x3 x4 x5 x6 x7 x8 x9 x10 x11 x12 x13 x14 x15 x16) b := by
  obtain rfl : z = 0 := Subsingleton.elim _ _
  unfold ctrlU
  rw [addA_apply, dotB_apply, bcOne_apply]
  unfold ctrlOut
  refine congrArg₂ (· + ·) (Finset.sum_congr rfl fun h _ => ?_) rfl
  show x10 (ix2 (0 : Fin 1) h) * tanhA (F := Ideal) (addA (addA (addA (dotA x6 x1) (dotA x7 x2)) (dotA x8 x3)) (bcCol x9)) (ix2 h b) = _
  rw [ctrlHid_apply x0 x1 x2 x3 x4 x5 x6 x7 x8 x9 x10 x11 x12 x13 x14 x15 x16]
  rfl

/-! ## The plant -/

/-- 63 rows with one appended, at any row. -/
theorem catEnd_apply (x : Arr Ideal S63x16384) (y : Arr Ideal S1x16384) (r : Fin 64) (b : Fin 16384) :
    catEnd (F := Ideal) x y (ix2 r b) = if h : r.val < 63 then x (ix2 (⟨r.val, h⟩ : Fin 63) b) else y (ix2 (0 : Fin 1) b) := by
  by_cases h : r.val < 63
  · rw [dif_pos h]; exact catEnd_apply_lt x y r b h
  · rw [dif_neg h]; exact catEnd_apply_last x y r b h

/-- The plant's hidden layer at unit `h`, simulation `b`, over a row `u` that is the controller's output. -/
theorem plantHid_apply (x0 : Arr Ideal S1x16384) (x1 x2 x3 : Arr Ideal S64x16384) (x4 : Arr Ideal S63x16384) (x5 : Arr Ideal S64x16384)
    (x6 x7 x8 : Arr Ideal S1024x64) (x9 : Arr Ideal S1024x1) (x10 : Arr Ideal S1x1024) (x11 : Arr Ideal S1x1)
    (x12 x13 : Arr Ideal S1024x64) (x14 : Arr Ideal S1024x1) (x15 : Arr Ideal S1x1024) (x16 : Arr Ideal S1x1) (u : Arr Ideal S1x16384)
    (hu : ∀ b : Fin 16384, u (ix2 (0 : Fin 1) b) = ctrlOut (specArgs x0 x1 x2 x3 x4 x5 x6 x7 x8 x9 x10 x11 x12 x13 x14 x15 x16) b) (h : Fin 1024) (b : Fin 16384) :
    tanhA (F := Ideal) (addA (addA (dotA x12 (catEnd x4 u)) (dotA x13 x5)) (bcCol x14)) (ix2 h b)
      = plantHidden (specArgs x0 x1 x2 x3 x4 x5 x6 x7 x8 x9 x10 x11 x12 x13 x14 x15 x16) h b := by
  rw [tanhA_apply, addA_apply, addA_apply, dotA_apply, dotA_apply, bcCol_apply]
  unfold plantHidden
  refine congrArg Ideal.tanh (congrArg₂ (· + ·) (congrArg₂ (· + ·) (Finset.sum_congr rfl fun k _ => ?_) rfl) rfl)
  show x12 (ix2 h k) * catEnd (F := Ideal) x4 u (ix2 k b) = _
  rw [catEnd_apply]
  unfold plantDelay
  refine congrArg₂ (· * ·) rfl ?_
  by_cases hk : k.val < 63
  · rw [dif_pos hk, dif_pos hk]; rfl
  · rw [dif_neg hk, dif_neg hk]; exact hu b

/-- The plant's output row at simulation `b`. -/
theorem plantY_apply (x0 : Arr Ideal S1x16384) (x1 x2 x3 : Arr Ideal S64x16384) (x4 : Arr Ideal S63x16384) (x5 : Arr Ideal S64x16384)
    (x6 x7 x8 : Arr Ideal S1024x64) (x9 : Arr Ideal S1024x1) (x10 : Arr Ideal S1x1024) (x11 : Arr Ideal S1x1)
    (x12 x13 : Arr Ideal S1024x64) (x14 : Arr Ideal S1024x1) (x15 : Arr Ideal S1x1024) (x16 : Arr Ideal S1x1) (u : Arr Ideal S1x16384)
    (hu : ∀ b : Fin 16384, u (ix2 (0 : Fin 1) b) = ctrlOut (specArgs x0 x1 x2 x3 x4 x5 x6 x7 x8 x9 x10 x11 x12 x13 x14 x15 x16) b) (z : Fin 1) (b : Fin 16384) :
    plantY (F := Ideal) u x4 x5 x12 x13 x14 x15 x16 (ix2 z b) = plantOut (specArgs x0 x1 x2 x3 x4 x5 x6 x7 x8 x9 x10 x11 x12 x13 x14 x15 x16) b := by
  obtain rfl : z = 0 := Subsingleton.elim _ _
  unfold plantY
  rw [addA_apply, dotB_apply, bcOne_apply]
  unfold plantOut
  refine congrArg₂ (· + ·) (Finset.sum_congr rfl fun h _ => ?_) rfl
  show x15 (ix2 (0 : Fin 1) h) * tanhA (F := Ideal) (addA (addA (dotA x12 (catEnd x4 u)) (dotA x13 x5)) (bcCol x14)) (ix2 h b) = _
  rw [plantHid_apply x0 x1 x2 x3 x4 x5 x6 x7 x8 x9 x10 x11 x12 x13 x14 x15 x16 u hu]
  rfl

/-! ## The shifted lines -/

/-- A row `x` in front of the first 63 rows of a 64-row line is the line shifted down with `x` put in row 0. -/
theorem front64_shift (x : Arr Ideal S1x16384) (l : Arr Ideal S64x16384) (s : Fin 16384 → EReal)
    (hs : ∀ b : Fin 16384, x (ix2 (0 : Fin 1) b) = s b) (line : Fin 64 → Fin 16384 → EReal)
    (hl : ∀ (k : Fin 64) (b : Fin 16384), l (ix2 k b) = line k b) (i : S64x16384.Idx) :
    catFront64 (F := Ideal) x (sl63 l) i = shiftIn s line (i 0) (i 1) := by
  obtain ⟨r, b, rfl⟩ : ∃ (r : Fin 64) (b : Fin 16384), i = ix2 r b := ⟨i 0, i 1, eq_ix2 i⟩
  show _ = shiftIn s line r b
  unfold shiftIn
  by_cases h : r.val = 0
  · rw [dif_pos h, catFront64_apply_zero _ _ _ _ h]; exact hs b
  · rw [dif_neg h, catFront64_apply_succ _ _ _ _ h, sl63_apply]; exact hl _ _

/-- A row `x` in front of the first 62 rows of a 63-row line is the line shifted down with `x` put in row 0. -/
theorem front63_shift (x : Arr Ideal S1x16384) (l : Arr Ideal S63x16384) (s : Fin 16384 → EReal)
    (hs : ∀ b : Fin 16384, x (ix2 (0 : Fin 1) b) = s b) (line : Fin 63 → Fin 16384 → EReal)
    (hl : ∀ (k : Fin 63) (b : Fin 16384), l (ix2 k b) = line k b) (i : S63x16384.Idx) :
    catFront63 (F := Ideal) x (sl62 l) i = shiftIn s line (i 0) (i 1) := by
  obtain ⟨r, b, rfl⟩ : ∃ (r : Fin 63) (b : Fin 16384), i = ix2 r b := ⟨i 0, i 1, eq_ix2 i⟩
  show _ = shiftIn s line r b
  unfold shiftIn
  by_cases h : r.val = 0
  · rw [dif_pos h, catFront63_apply_zero _ _ _ _ h]; exact hs b
  · rw [dif_neg h, catFront63_apply_succ _ _ _ _ h, sl62_apply]; exact hl _ _

end Cert.RefSide

end
-- ==== Proof.RefResults.lean ====
/-
  The reference side of the claim: the reference program's six results are the specification's result arrays of the
  arguments it was launched with, and it leaves the arguments unchanged.
-/
import proofs.«176798_j42125039239689_2_alg».proof.Proof.RefRun
import proofs.«176798_j42125039239689_2_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.CellSpec

/-- Device `c`'s seventeen argument arrays at launch, as the specification reads them. -/
abbrev A (m : (ℓ : Loc nD τ sig) → Buf (Elt Ideal) ℓ) (c : Dev nD) : Args :=
  argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

variable (m : (ℓ : Loc nD τ sig) → Buf (Elt Ideal) ℓ) (c : Dev nD)

/-- The controller's output row over the launch contents is the specification's. -/
theorem uV_spec (b : Fin 16384) : uV (F := Ideal) (launchContents m c) (ix2 (0 : Fin 1) b) = ctrlOut (A m c) b := by
  unfold uV
  exact ctrlU_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) 0 b

/-- The plant's output row over the launch contents is the specification's. -/
theorem yV_spec (b : Fin 16384) : yV (F := Ideal) (launchContents m c) (ix2 (0 : Fin 1) b) = plantOut (A m c) b := by
  unfold yV
  exact plantY_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (uV (launchContents m c)) (uV_spec m c) 0 b

theorem res0 : yV (F := Ideal) (launchContents m c) = outY (A m c) := by
  funext i
  obtain ⟨z, b, rfl⟩ : ∃ (z : Fin 1) (b : Fin 16384), i = ix2 z b := ⟨i 0, i 1, eq_ix2 i⟩
  obtain rfl : z = 0 := Subsingleton.elim _ _
  exact yV_spec m c b

theorem res1 : catFront64 (F := Ideal) (uV (launchContents m c)) (sl63 (rd (launchContents m c) main_arg1)) = outCi (A m c) := by
  funext i
  exact front64_shift _ _ (ctrlOut (A m c)) (uV_spec m c) (A m c).ci (fun _ _ => rfl) i

theorem res2 : catFront64 (F := Ideal) (rd (launchContents m c) main_arg0) (sl63 (rd (launchContents m c) main_arg2)) = outCr (A m c) := by
  funext i
  exact front64_shift _ _ (A m c).ref (fun _ => rfl) (A m c).cr (fun _ _ => rfl) i

theorem res3 : catFront64 (F := Ideal) (yV (launchContents m c)) (sl63 (rd (launchContents m c) main_arg3)) = outCo (A m c) := by
  funext i
  exact front64_shift _ _ (plantOut (A m c)) (yV_spec m c) (A m c).co (fun _ _ => rfl) i

theorem res4 : catFront63 (F := Ideal) (uV (launchContents m c)) (sl62 (rd (launchContents m c) main_arg4)) = outPi (A m c) := by
  funext i
  exact front63_shift _ _ (ctrlOut (A m c)) (uV_spec m c) (A m c).pi (fun _ _ => rfl) i

theorem res5 : catFront64 (F := Ideal) (yV (launchContents m c)) (sl63 (rd (launchContents m c) main_arg5)) = outPo (A m c) := by
  funext i
  exact front64_shift _ _ (plantOut (A m c)) (yV_spec m c) (A m c).po (fun _ _ => rfl) i

/-- From any memory with zero counters, every weakly fair execution of the reference program terminates with its six
    results the specification's result arrays of the launch arguments, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v20) = outY (A m c)
      ∧ r.2.mem ((c.tc : Thread nD τ).loc main_v22) = outCi (A m c)
      ∧ r.2.mem ((c.tc : Thread nD τ).loc main_v24) = outCr (A m c)
      ∧ r.2.mem ((c.tc : Thread nD τ).loc main_v26) = outCo (A m c)
      ∧ r.2.mem ((c.tc : Thread nD τ).loc main_v28) = outPi (A m c)
      ∧ r.2.mem ((c.tc : Thread nD τ).loc main_v30) = outPo (A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => by
      obtain ⟨h0, h1, h2, h3, h4, h5, hargs⟩ := h c
      exact ⟨h0.trans (res0 m c), h1.trans (res1 m c), h2.trans (res2 m c), h3.trans (res3 m c), h4.trans (res4 m c),
        h5.trans (res5 m c), hargs⟩)
    (runTerms m ρ)

end Cert.RefSide

end
-- ==== Proof.lean ====
/-
  One step of a controller cell against its reference, on the extended reals.

  The cell keeps five tapped delay lines, one column per simulation (16384 of them). A controller network reads the
  controller-input, reference and controller-output lines (64 rows each): its hidden layer is `tanh` of three matrix
  products plus a bias, its output `u` the weighted sum of the 1024 hidden units plus a bias. A plant network reads
  the plant-input line — 63 carried rows with `u` appended as row 63 — and the plant-output line the same way and
  gives `y`. Every line is then shifted down one row with a new sample in row 0: `u` into the controller-input and
  plant-input lines, the reference signal into the reference line, `y` into the controller-output and plant-output
  lines. `Proof/CellSpec.lean` states this once, over coordinates.

  The reference computes exactly that, array by array (`Proof/RefResults.lean`). The kernel works on blocks of 2048
  columns over a grid of eight points and arranges the arithmetic differently: before the region the three
  controller weight matrices are joined side by side (and the two plant matrices likewise), so each hidden layer is
  ONE matrix product over 192 (resp. 128) terms instead of three (two) over 64; the output layers are a product with
  a weight column and a sum down the rows instead of a row-times-matrix product; the shifts are two stores per line.
  On the extended reals the two agree with no assumption on the inputs: a sum over 192 terms is the sum of its three
  consecutive blocks of 64 added left to right, and a product may be taken in either order — addition and
  multiplication there are commutative and associative, and nothing else is used (no distributivity, no cancelling,
  hence no finiteness). Narrowing the joined weights is the identity on the extended reals.

  Both programs' runs are proved here as well. The reference is a straight line of host operations. The kernel's
  @main is six host operations — none writing an argument — and one region; at every grid point the body loads its
  fourteen input blocks whole and writes each of its six output blocks through rectangles that tile it, so the
  region runs to the end, faults nowhere, writes back to no argument array, and leaves each result array holding,
  block by block, what the body stored (`Proof/KernelRun.lean` at the word level, `Proof/KernelIdealRun.lean` and
  `Proof/KernelIdealOutputs.lean` on the extended reals). The idealized kernel is the kernel's own text read on the
  extended reals: the pass that printed it rewrote nothing, and there is nothing to preserve.
-/
import proofs.«176798_j42125039239689_2_alg».proof.Defs
import proofs.«176798_j42125039239689_2_alg».proof.Proof.Gen.Kernel
import proofs.«176798_j42125039239689_2_alg».proof.Proof.Gen.KernelIdeal
import proofs.«176798_j42125039239689_2_alg».proof.Proof.Gen.ReferenceIdeal
import proofs.«176798_j42125039239689_2_alg».proof.Proof.Gen.Pre_finite_inputs
import proofs.«176798_j42125039239689_2_alg».proof.Proof.KernelRun
import proofs.«176798_j42125039239689_2_alg».proof.Proof.KernelIdealOutputs
import proofs.«176798_j42125039239689_2_alg».proof.Proof.RefResults

noncomputable section

namespace Cert.Proof

open Idealize.ShloMosaic Idealize.ShloMosaic.TcCoe Idealize.SL.Sem Cert.CellSpec

/-- The kernel as printed runs to the end and leaves its arguments as launched. -/
theorem frame_kernel : Cert.frame_Kernel := fun m ρ _ => Cert.Kernel.Frm.frame m ρ

/-- So does the kernel read on the extended reals. -/
theorem frame_kernelIdeal : Cert.frame_KernelIdeal := fun m ρ _ => Cert.KernelIdeal.Frm.frame m ρ

/-- The reference's frame is its run with the six results forgotten. -/
theorem frame_referenceIdeal : Cert.frame_ReferenceIdeal := fun m ρ _ =>
  (θ_run Cert.ReferenceIdeal.defs _ _).mono (fun _ h c => (h c).2.2.2.2.2.2) (Cert.RefSide.run m ρ)

/-- The idealizing pass rewrote nothing. -/
theorem preserves : Cert.preserves_Kernel_KernelIdeal := trivial

/-- From memories that agree on the seventeen arguments, the two programs read those arguments as the same coordinate
    functions. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.RefSide.A m' c = Cert.KernelIdeal.Val.A m c := by
  obtain ⟨e0, e1, e2, e3, e4, e5, e6, e7, e8, e9, e10, e11, e12, e13, e14, e15, e16⟩ := hagree
  unfold Cert.RefSide.A Cert.KernelIdeal.Val.A
  rw [e0, e1, e2, e3, e4, e5, e6, e7, e8, e9, e10, e11, e12, e13, e14, e15, e16]

/-- Both programs end with each result array at the specification's array of the arguments: the kernel's six equal
    the reference's six, element by element, and both leave their arguments as launched. -/
theorem algebraic : Cert.algebraic_KernelIdeal_ReferenceIdeal := by
  intro m ρ m' ρ' _ hagree
  refine ⟨fun c => outY (Cert.KernelIdeal.Val.A m c), fun c => outCi (Cert.KernelIdeal.Val.A m c), fun c => outCr (Cert.KernelIdeal.Val.A m c),
    fun c => outCo (Cert.KernelIdeal.Val.A m c), fun c => outPi (Cert.KernelIdeal.Val.A m c), fun c => outPo (Cert.KernelIdeal.Val.A m c),
    Cert.KernelIdeal.Val.run m ρ, ?_⟩
  refine (θ_run Cert.ReferenceIdeal.defs _ _).mono (fun _ h c => ?_) (Cert.RefSide.run m' ρ')
  have hA := args_agree m m' c (hagree c)
  dsimp only
  rw [← hA]
  exact h c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
